-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x2000 : Shape := ⟨2, ![10000, 2000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x2000 : S_.BroadcastsInDim S10000x2000 (![] : Fin 0 → Fin S10000x2000.rank)
  reducesTo_S10000x2000_S_d0_1 : S10000x2000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x2000 .f32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x2000 .f32 := Host.absf main_arg1
  let main_cst_0 : FVec F S_ .f32 := constant S_ .f32 0x7F800000#32
  let main_v5 : FVec F S10000x2000 .f32 := broadcastInDim S10000x2000 ![] bcast_S_S10000x2000 main_cst_0
  let main_v6 : IVec S10000x2000 1 := cmpf .olt main_v4 main_v5
  let main_c_1 : IVec S_ 1 := constantI S_ 1 1#1
  let main_v7 : IVec S_ 1 := (fun x v => Host.reduce IntOp.andi x v reducesTo_S10000x2000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x2000 : Shape := ⟨2, ![10000, 2000]⟩
abbrev S128x128 : Shape := ⟨2, ![128, 128]⟩
abbrev S2000x128 : Shape := ⟨2, ![2000, 128]⟩
abbrev S400x2000 : Shape := ⟨2, ![400, 2000]⟩
abbrev S400x128 : Shape := ⟨2, ![400, 128]⟩
abbrev S128x2000 : Shape := ⟨2, ![128, 2000]⟩
abbrev S1000x2000 : Shape := ⟨2, ![1000, 2000]⟩
abbrev S1000x128 : Shape := ⟨2, ![1000, 128]⟩

abbrev nBuf : Space → Nat
  | .hbm => 6
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x2000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S2000x128, .f32⟩
  | .local _ .vmem, ⟨0, _⟩ => ⟨S400x2000, .f32⟩
  | .local _ .vmem, ⟨1, _⟩ => ⟨S400x2000, .f32⟩
  | .local _ .vmem, ⟨2, _⟩ => ⟨S400x128, .f32⟩
  | .local _ .vmem, ⟨3, _⟩ => ⟨S400x128, .f32⟩
  | .local _ .vmem, ⟨4, _⟩ => ⟨S128x128, .f32⟩
  | .local _ .vmem, ⟨5, _⟩ => ⟨S128x128, .f32⟩
  | .local _ .vmem, ⟨6, _⟩ => ⟨S10000x128, .f32⟩
  | .local _ .vmem, ⟨7, _⟩ => ⟨S2000x128, .f32⟩
  | .local _ .vmem, ⟨8, _⟩ => ⟨S10000x2000, .bf16⟩
  | .local _ .vmem, ⟨9, _⟩ => ⟨S128x2000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v5 : BitVec 32 := Scalar.muli arg0 c400_i32
  let v6 : Index := Scalar.indexCast v5
  let c0_2 : Index := 0#32
  ![v6.toNat, 0]
def k0_cond2 (i : grid0.Coords) : BitVec 1 :=
  let arg0 : BitVec 32 := BitVec.ofNat 32 (i 0).val
  let c24_i32 : BitVec 32 := 24#32
  let v18 : BitVec 1 := Scalar.cmpi .eq arg0 c24_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S128x2000_S128x2000_0_0 : ∀ a, (![0, 0] : Fin 2 → Nat) a + S128x2000.size a ≤ S128x2000.size a
  h_S128x2000 : 0 < S128x2000.numel
  shapeCasts_S128x2000_S128x2000 : S128x2000.ShapeCasts S128x2000
  inb_S400x2000_S400x2000_0_0 : ∀ a, (![0, 0] : Fin 2 → Nat) a + S400x2000.size a ≤ S400x2000.size a
  h_S400x2000 : 0 < S400x2000.numel
  bitsLt_bf16_f32 : FTy.bits .bf16 < FTy.bits .f32
  shapeCasts_S400x2000_S400x2000 : S400x2000.ShapeCasts S400x2000
  inb_S400x128_S400x128_0_0 : ∀ a, (![0, 0] : Fin 2 → Nat) a + S400x128.size a ≤ S400x128.size a
  h_S400x128 : 0 < S400x128.numel
  transposes_S128x2000_p1_0_S2000x128 : S128x2000.Transposes [1, 0] S2000x128
  inb_S128x128_S128x128_0_0 : ∀ a, (![0, 0] : Fin 2 → Nat) a + S128x128.size a ≤ S128x128.size a
  h_S128x128 : 0 < S128x128.numel
  inb_S10000x2000_S1000x2000_0_0 : ∀ a, (![0, 0] : Fin 2 → Nat) a + S1000x2000.size a ≤ S10000x2000.size a
  h_S1000x2000 : 0 < S1000x2000.numel
  inb_S10000x2000_S1000x2000_1000_0 : ∀ a, (![1000, 0] : Fin 2 → Nat) a + S1000x2000.size a ≤ S10000x2000.size a
  inb_S10000x2000_S1000x2000_2000_0 : ∀ a, (![2000, 0] : Fin 2 → Nat) a + S1000x2000.size a ≤ S10000x2000.size a
  inb_S10000x2000_S1000x2000_3000_0 : ∀ a, (![3000, 0] : Fin 2 → Nat) a + S1000x2000.size a ≤ S10000x2000.size a
  inb_S10000x2000_S1000x2000_4000_0 : ∀ a, (![4000, 0] : Fin 2 → Nat) a + S1000x2000.size a ≤ S10000x2000.size a
  inb_S10000x2000_S1000x2000_5000_0 : ∀ a, (![5000, 0] : Fin 2 → Nat) a + S1000x2000.size a ≤ S10000x2000.size a
  inb_S10000x2000_S1000x2000_6000_0 : ∀ a, (![6000, 0] : Fin 2 → Nat) a + S1000x2000.size a ≤ S10000x2000.size a
  inb_S10000x2000_S1000x2000_7000_0 : ∀ a, (![7000, 0] : Fin 2 → Nat) a + S1000x2000.size a ≤ S10000x2000.size a
  inb_S10000x2000_S1000x2000_8000_0 : ∀ a, (![8000, 0] : Fin 2 → Nat) a + S1000x2000.size a ≤ S10000x2000.size a
  inb_S10000x2000_S1000x2000_9000_0 : ∀ a, (![9000, 0] : Fin 2 → Nat) a + S1000x2000.size a ≤ S10000x2000.size a
  inb_S2000x128_S2000x128_0_0 : ∀ a, (![0, 0] : Fin 2 → Nat) a + S2000x128.size a ≤ S2000x128.size a
  h_S2000x128 : 0 < S2000x128.numel
  inb_S10000x128_S1000x128_0_0 : ∀ a, (![0, 0] : Fin 2 → Nat) a + S1000x128.size a ≤ S10000x128.size a
  h_S1000x128 : 0 < S1000x128.numel
  inb_S10000x128_S1000x128_1000_0 : ∀ a, (![1000, 0] : Fin 2 → Nat) a + S1000x128.size a ≤ S10000x128.size a
  inb_S10000x128_S1000x128_2000_0 : ∀ a, (![2000, 0] : Fin 2 → Nat) a + S1000x128.size a ≤ S10000x128.size a
  inb_S10000x128_S1000x128_3000_0 : ∀ a, (![3000, 0] : Fin 2 → Nat) a + S1000x128.size a ≤ S10000x128.size a
  inb_S10000x128_S1000x128_4000_0 : ∀ a, (![4000, 0] : Fin 2 → Nat) a + S1000x128.size a ≤ S10000x128.size a
  inb_S10000x128_S1000x128_5000_0 : ∀ a, (![5000, 0] : Fin 2 → Nat) a + S1000x128.size a ≤ S10000x128.size a
  inb_S10000x128_S1000x128_6000_0 : ∀ a, (![6000, 0] : Fin 2 → Nat) a + S1000x128.size a ≤ S10000x128.size a
  inb_S10000x128_S1000x128_7000_0 : ∀ a, (![7000, 0] : Fin 2 → Nat) a + S1000x128.size a ≤ S10000x128.size a
  inb_S10000x128_S1000x128_8000_0 : ∀ a, (![8000, 0] : Fin 2 → Nat) a + S1000x128.size a ≤ S10000x128.size a
  inb_S10000x128_S1000x128_9000_0 : ∀ a, (![9000, 0] : Fin 2 → Nat) a + S1000x128.size a ≤ S10000x128.size a
  dot_S400x128_S400x2000_S128x2000_0_0_1_1_n_n_wf : DotDims.WF S400x128 S400x2000 S128x2000 [0] [0] [1] [1] [] []
  dot_S2000x128_S128x128_S2000x128_1_0_0_1_n_n_wf : DotDims.WF S2000x128 S128x128 S2000x128 [1] [0] [0] [1] [] []
  dot_S1000x2000_S2000x128_S1000x128_1_0_0_1_n_n_wf : DotDims.WF S1000x2000 S2000x128 S1000x128 [1] [0] [0] [1] [] []
  dot_S1000x128_S1000x2000_S128x2000_0_0_1_1_n_n_wf : DotDims.WF S1000x128 S1000x2000 S128x2000 [0] [0] [1] [1] [] []
  hrank0 : 0 < grid0.rank
  k0_off1_inb : ∀ i : grid0.Coords, ∀ a, (k0_off1 i) a + S400x2000.size a ≤ S10000x2000.size a
  k0_off1_packedbf16 : ∀ i : grid0.Coords, (Rect.unit (s := S10000x2000) (k0_off1 i) S400x2000.size (k0_off1_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x2000.size a ≤ S10000x2000.size a
  hwx0_0 : ∀ i : grid0.Coords, EltTy.bits .f32 = 32 ∨ (Rect.block (s := S10000x2000) S400x2000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x128.size a ≤ S10000x128.size a
  hwx0_1 : ∀ i : grid0.Coords, EltTy.bits .f32 = 32 ∨ (Rect.block (s := S10000x128) S400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S10000x128.size a
  hwx0_4 : ∀ i : grid0.Coords, EltTy.bits .f32 = 32 ∨ (Rect.block (s := S10000x128) S10000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S2000x128.size a
  hwx0_5 : ∀ i : grid0.Coords, EltTy.bits .f32 = 32 ∨ (Rect.block (s := S2000x128) S2000x128.size (cc0_transform_5 i) (hinb0_5 i)).WholeWords (EltTy.packing .f32)

variable [Facts₀]

def dot_S400x128_S400x2000_S128x2000_0_0_1_1_n_n : DotDims S400x128 S400x2000 S128x2000 where
  lhsContracting := [0]
  rhsContracting := [0]
  lhsNonContracting := [1]
  rhsNonContracting := [1]
  lhsBatch := []
  rhsBatch := []
  wf := dot_S400x128_S400x2000_S128x2000_0_0_1_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1000x2000_S2000x128_S1000x128_1_0_0_1_n_n : DotDims S1000x2000 S2000x128 S1000x128 where
  lhsContracting := [1]
  rhsContracting := [0]
  lhsNonContracting := [0]
  rhsNonContracting := [1]
  lhsBatch := []
  rhsBatch := []
  wf := dot_S1000x2000_S2000x128_S1000x128_1_0_0_1_n_n_wf
def dot_S1000x128_S1000x2000_S128x2000_0_0_1_1_n_n : DotDims S1000x128 S1000x2000 S128x2000 where
  lhsContracting := [0]
  rhsContracting := [0]
  lhsNonContracting := [1]
  rhsNonContracting := [1]
  lhsBatch := []
  rhsBatch := []
  wf := dot_S1000x128_S1000x2000_S128x2000_0_0_1_1_n_n_wf

abbrev win0_0 : Pipeline.Window sig grid0 :=
  Pipeline.Window.ofSpec (Memref.whole main_arg1) S400x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S10000x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2000x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x2000 : Shape := ⟨2, ![10000, 2000]⟩
abbrev S128x128 : Shape := ⟨2, ![128, 128]⟩
abbrev S2000x10000 : Shape := ⟨2, ![2000, 10000]⟩
abbrev S2000x128 : Shape := ⟨2, ![2000, 128]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x2000, .f32⟩
  | .hbm, ⟨2, _⟩ => ⟨S128x128, .f32⟩
  | .hbm, ⟨3, _⟩ => ⟨S128x128, .f32⟩
  | .hbm, ⟨4, _⟩ => ⟨S2000x10000, .f32⟩
  | .hbm, ⟨5, _⟩ => ⟨S2000x128, .f32⟩
  | .hbm, ⟨6, _⟩ => ⟨S2000x128, .f32⟩
  | .hbm, ⟨7, _⟩ => ⟨S10000x128, .f32⟩
  | .hbm, ⟨8, _⟩ => ⟨S2000x10000, .f32⟩
  | .hbm, ⟨9, _⟩ => ⟨S2000x128, .f32⟩
  | .hbm, ⟨10, _⟩ => ⟨S2000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  transposes_S10000x2000_S2000x10000_1_0 : S10000x2000.Transposes [1, 0] S2000x10000
  dot_S2000x10000_S10000x128_S2000x128_1_0_0_1_n_n_wf : DotDims.WF S2000x10000 S10000x128 S2000x128 [1] [0] [0] [1] [] []
  dot_S2000x128_S128x128_S2000x128_1_0_0_1_n_n_wf : DotDims.WF S2000x128 S128x128 S2000x128 [1] [0] [0] [1] [] []
  dot_S10000x2000_S2000x128_S10000x128_1_0_0_1_n_n_wf : DotDims.WF S10000x2000 S2000x128 S10000x128 [1] [0] [0] [1] [] []

variable [Facts₀]

def dot_S2000x10000_S10000x128_S2000x128_1_0_0_1_n_n : DotDims S2000x10000 S10000x128 S2000x128 where
  lhsContracting := [1]
  rhsContracting := [0]
  lhsNonContracting := [0]
  rhsNonContracting := [1]
  lhsBatch := []
  rhsBatch := []
  wf := dot_S2000x10000_S10000x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S10000x2000_S2000x128_S10000x128_1_0_0_1_n_n : DotDims S10000x2000 S2000x128 S10000x128 where
  lhsContracting := [1]
  rhsContracting := [0]
  lhsNonContracting := [0]
  rhsNonContracting := [1]
  lhsBatch := []
  rhsBatch := []
  wf := dot_S10000x2000_S2000x128_S10000x128_1_0_0_1_n_n_wf

class Facts : Prop extends Facts₀ where

variable [Facts]
-- ==== Proof.KI.Shared.lean ====
/-
  What the three runs of the idealized kernel's body share: its two branch conditions as propositions over the grid
  coordinate (the accumulator is reset at the first point only; the second phase runs at the last point only) with their
  closed forms over the 25 points, where the two result windows are idle and where they are written back, the staging
  and scratch memrefs under short names, and the region's class invariant restated over the two scratch memrefs.
-/
import proofs.«178351_g7198365188796_cont_9to1_m_585_8_alg».proof.Proof.Gen.KernelIdeal.Frame
import proofs.«178351_g7198365188796_cont_9to1_m_585_8_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition: the grid coordinate is 0 (the accumulator is zeroed there). -/
abbrev condFirst (i : grid0.Coords) : Prop :=
  Scalar.cmpi .ne (Scalar.extui (Scalar.cmpi .eq (BitVec.ofNat 32 (i 0).val) 0#32)) 0#32 = 1#1
/-- The second conditional's condition: the grid coordinate is 24 (the second phase runs there). -/
abbrev condLast (i : grid0.Coords) : Prop := k0_cond2 i = 1#1

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 24 :=
  (by decide +kernel : ∀ t : Fin grid0.N, condLast (grid0.coords t) ↔ t.val = 24)

/-- Row offset of the slice of the copied incidence matrix that point `t` stores: `400 t`. -/
theorem hoff : ∀ t : Fin cfg0.N, k0_off1 (grid0.coords t) = ![400 * t.val, 0] :=
  (by decide +kernel : ∀ t : Fin grid0.N, k0_off1 (grid0.coords t) = ![400 * t.val, 0])

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem idleAt4 : ∀ t : Fin cfg0.N, ¬condLast (grid0.coords t) → cfg0.idle 4 (grid0.coords t) = true := by decide +kernel
theorem idleAt5 : ∀ t : Fin cfg0.N, ¬condLast (grid0.coords t) → cfg0.idle 5 (grid0.coords t) = true := by decide +kernel
theorem noFlush4 : ∀ t : Fin cfg0.N, ¬condLast (grid0.coords t) → (cfg0.win 4).flush t = false := by decide +kernel
theorem noFlush5 : ∀ t : Fin cfg0.N, ¬condLast (grid0.coords t) → (cfg0.win 5).flush t = false := by decide +kernel
theorem liveAt4 : ∀ t : Fin cfg0.N, condLast (grid0.coords t) → cfg0.idle 4 (grid0.coords t) = false := by decide +kernel
theorem liveAt5 : ∀ t : Fin cfg0.N, condLast (grid0.coords t) → cfg0.idle 5 (grid0.coords t) = false := by decide +kernel

/-- Each window's current staging memref at point `t`, as the pipeline passes it, and its wholeness. -/
abbrev ms0 (t : Fin cfg0.N) : Memref sig .tc .vmem S400x2000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S10000x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2000x128 .f32 := win0_5.stage (cfg0.slots t 5)
abbrev hs5 (t : Fin cfg0.N) : (ms5 t).IsWhole := hstage0_5 ((cfg0.slots t 5).cast nbuf0_5)
/-- The two scratch operands: the copy of the incidence matrix and the transposed accumulator. -/
abbrev scB : Memref sig .tc .vmem S10000x2000 .bf16 := Memref.whole cc0_scratch0
abbrev scAcc : Memref sig .tc .vmem S128x2000 .f32 := Memref.whole cc0_scratch1

/-- The class invariant over the two scratch memrefs, each owned at some contents, and the generator register. -/
theorem PhiA_eq (c : Dev nD) :
    (Pipeline.ΦA spec0 c : sProp 𝕄)
      = iprop(iprop((∃ d, owns (c : Thread nD τ) scB fullShare d) ∗ (∃ d, owns (c : Thread nD τ) scAcc fullShare d)) ∗ (∃ r, prngReg c r)) := by
  unfold Pipeline.ΦA; rw [scopedRest0_eq]; simp only [scB, scAcc, owns_whole]; try rfl

end Cert.KernelIdeal.Hand

end
-- ==== Proof.KI.RunB.lean ====
/-
  The body at a middle point (grid coordinate neither 0 nor 24): it copies its 400-row block of the incidence matrix,
  rounded, into rows 400 t … 400 t + 399 of the scratch copy, and adds the block's contribution
  (features block)ᵀ · (incidence block) onto the transposed accumulator. The run is stated over what the two scratch
  buffers hold afterwards as functions of what they held before; both functions are found by the run.
-/
import proofs.«178351_g7198365188796_cont_9to1_m_585_8_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a middle point, with what it leaves in the two scratch buffers. -/
noncomputable def runB (c : Dev nD) (i : grid0.Coords) (arg1 : Memref sig .tc .vmem S400x2000 .f32) (harg1 : arg1.IsWhole) (arg2 : Memref sig .tc .vmem S400x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S10000x128 .f32) (harg5 : arg5.IsWhole) (arg6 : Memref sig .tc .vmem S2000x128 .f32) (harg6 : arg6.IsWhole) (arg7 : Memref sig .tc .vmem S10000x2000 .bf16) (harg7 : arg7.IsWhole) (arg8 : Memref sig .tc .vmem S128x2000 .f32) (harg8 : arg8.IsWhole)
    (hc0 : ¬condFirst i) (hc1 : ¬condLast i)
    (x1 : Vec F S400x2000 .f32) (x2 : Vec F S400x128 .f32) :
    Σ' (G7 : Vec F S10000x2000 .bf16 → arg7.view.ty.Contents (Elt F)), { G8 : Vec F S128x2000 .f32 → arg8.view.ty.Contents (Elt F) //
      ∀ (xs7 : Vec F S10000x2000 .bf16) (xs8 : Vec F S128x2000 .f32) (E : Set ℕ) (K : PUnit → sProp 𝕄),
        iprop(owns (c : Thread nD τ) arg1 fullShare x1 ∗ owns (c : Thread nD τ) arg2 fullShare x2
            ∗ owns (c : Thread nD τ) arg7 fullShare xs7 ∗ owns (c : Thread nD τ) arg8 fullShare xs8
            ∗ (iprop(owns (c : Thread nD τ) arg1 fullShare x1 ∗ owns (c : Thread nD τ) arg2 fullShare x2
                ∗ (arg7.view.loc (c : Thread nD τ) ↦[arg7.view.set]{fullShare} G7 xs7)
                ∗ (arg8.view.loc (c : Thread nD τ) ↦[arg8.view.set]{fullShare} G8 xs8)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8) K } := by
  refine ⟨?_, ?_, fun xs7 xs8 E K => ?run⟩
  case run =>
    simp only [cc0__fused_kernel_eq_skeleton]; unfold cc0__fused_kernel_skel
    unfold owns
    iintro ⟨⟨%f1, %hf1, H1⟩, ⟨%f2, %hf2, H2⟩, ⟨%f7, %hf7, H7⟩, ⟨%f8, %hf8, H8⟩, Hk⟩
    obtain rfl := harg1.eq_unread hf1; obtain rfl := harg2.eq_unread hf2
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H7]; · iexact H7
    iexact H8

end Cert.KernelIdeal.Hand

end
-- ==== Proof.KI.RunA.lean ====
/-
  The body at the first point (grid coordinate 0): the transposed accumulator is zeroed, the first 400-row block of the
  incidence matrix is copied, rounded, into rows 0 … 399 of the scratch copy, and the block's contribution
  (features block)ᵀ · (incidence block) is added onto the zeroed accumulator. Stated like the middle points' run.
-/
import proofs.«178351_g7198365188796_cont_9to1_m_585_8_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at the first point, with what it leaves in the two scratch buffers. -/
noncomputable def runA (c : Dev nD) (i : grid0.Coords) (arg1 : Memref sig .tc .vmem S400x2000 .f32) (harg1 : arg1.IsWhole) (arg2 : Memref sig .tc .vmem S400x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S10000x128 .f32) (harg5 : arg5.IsWhole) (arg6 : Memref sig .tc .vmem S2000x128 .f32) (harg6 : arg6.IsWhole) (arg7 : Memref sig .tc .vmem S10000x2000 .bf16) (harg7 : arg7.IsWhole) (arg8 : Memref sig .tc .vmem S128x2000 .f32) (harg8 : arg8.IsWhole)
    (hc0 : condFirst i) (hc1 : ¬condLast i)
    (x1 : Vec F S400x2000 .f32) (x2 : Vec F S400x128 .f32) :
    Σ' (G7 : Vec F S10000x2000 .bf16 → arg7.view.ty.Contents (Elt F)), { G8 : Vec F S128x2000 .f32 → arg8.view.ty.Contents (Elt F) //
      ∀ (xs7 : Vec F S10000x2000 .bf16) (xs8 : Vec F S128x2000 .f32) (E : Set ℕ) (K : PUnit → sProp 𝕄),
        iprop(owns (c : Thread nD τ) arg1 fullShare x1 ∗ owns (c : Thread nD τ) arg2 fullShare x2
            ∗ owns (c : Thread nD τ) arg7 fullShare xs7 ∗ owns (c : Thread nD τ) arg8 fullShare xs8
            ∗ (iprop(owns (c : Thread nD τ) arg1 fullShare x1 ∗ owns (c : Thread nD τ) arg2 fullShare x2
                ∗ (arg7.view.loc (c : Thread nD τ) ↦[arg7.view.set]{fullShare} G7 xs7)
                ∗ (arg8.view.loc (c : Thread nD τ) ↦[arg8.view.set]{fullShare} G8 xs8)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8) K } := by
  refine ⟨?_, ?_, fun xs7 xs8 E K => ?run⟩
  case run =>
    simp only [cc0__fused_kernel_eq_skeleton]; unfold cc0__fused_kernel_skel
    unfold owns
    iintro ⟨⟨%f1, %hf1, H1⟩, ⟨%f2, %hf2, H2⟩, ⟨%f7, %hf7, H7⟩, ⟨%f8, %hf8, H8⟩, Hk⟩
    obtain rfl := harg1.eq_unread hf1; obtain rfl := harg2.eq_unread hf2
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H7]; · iexact H7
    iexact H8

end Cert.KernelIdeal.Hand

end
-- ==== Proof.KI.RunC.lean ====
/-
  The body at the last point (grid coordinate 24). First as at a middle point: the last 400-row block of the incidence matrix
  is copied into rows 9600 … 9999 of the scratch copy and its contribution added onto the transposed accumulator, which
  then holds (features)ᵀ · (incidence). Then the second phase, all out of the scratch copy in ten 1000-row tiles: the
  hyperedge features times the first weight matrix; the accumulator zeroed and, tile by tile, the tile's node features
  (tile · that product) contracted with the tile again; the accumulator transposed is the second result, stored whole; that
  times the second weight matrix, and tile by tile the tile times it, stored as ten 1000-row pieces of the first result.
  The run is stated over what the two scratch buffers and the two result buffers hold afterwards as functions of what the
  scratch buffers held before; the functions and the result buffers' pieces are found by the run.
-/
import proofs.«178351_g7198365188796_cont_9to1_m_585_8_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body's triple at the last point, with what it leaves in the scratch buffers and the pieces it stores into the results. -/
noncomputable def runC (c : Dev nD) (i : grid0.Coords) (arg1 : Memref sig .tc .vmem S400x2000 .f32) (harg1 : arg1.IsWhole) (arg2 : Memref sig .tc .vmem S400x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S10000x128 .f32) (harg5 : arg5.IsWhole) (arg6 : Memref sig .tc .vmem S2000x128 .f32) (harg6 : arg6.IsWhole) (arg7 : Memref sig .tc .vmem S10000x2000 .bf16) (harg7 : arg7.IsWhole) (arg8 : Memref sig .tc .vmem S128x2000 .f32) (harg8 : arg8.IsWhole)
    (hc0 : ¬condFirst i) (hc1 : condLast i) (hl : k0_off1 i = ![9600, 0])
    (x1 : Vec F S400x2000 .f32) (x2 : Vec F S400x128 .f32) (x3 : Vec F S128x128 .f32) (x4 : Vec F S128x128 .f32) :
    Σ' (G7 : Vec F S10000x2000 .bf16 → Vec F S128x2000 .f32 → arg7.view.ty.Contents (Elt F))
       (G8 : Vec F S10000x2000 .bf16 → Vec F S128x2000 .f32 → arg8.view.ty.Contents (Elt F))
       (L5 : Vec F S10000x2000 .bf16 → Vec F S128x2000 .f32 → List (View.Piece (Elt F) S10000x128 .f32)),
      { L6 : Vec F S10000x2000 .bf16 → Vec F S128x2000 .f32 → List (View.Piece (Elt F) S2000x128 .f32) //
      ∀ (xs7 : Vec F S10000x2000 .bf16) (xs8 : Vec F S128x2000 .f32) (E : Set ℕ) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ owns (c : Thread nD τ) arg7 fullShare xs7 ∗ owns (c : Thread nD τ) arg8 fullShare xs8
            ∗ (iprop(owns (c : Thread nD τ) arg1 fullShare x1 ∗ owns (c : Thread nD τ) arg2 fullShare x2
                ∗ owns (c : Thread nD τ) arg3 fullShare x3 ∗ owns (c : Thread nD τ) arg4 fullShare x4
                ∗ (∃ f, arg5.view.loc (c : Thread nD τ) ↦[arg5.view.set]{fullShare} arg5.view.writes (Elt F) f (L5 xs7 xs8))
                ∗ (∃ f, arg6.view.loc (c : Thread nD τ) ↦[arg6.view.set]{fullShare} arg6.view.writes (Elt F) f (L6 xs7 xs8))
                ∗ (arg7.view.loc (c : Thread nD τ) ↦[arg7.view.set]{fullShare} G7 xs7 xs8)
                ∗ (arg8.view.loc (c : Thread nD τ) ↦[arg8.view.set]{fullShare} G8 xs7 xs8)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8) K } := by
  refine ⟨?_, ?_, ?_, ?_, fun xs7 xs8 E K => ?run⟩
  case run =>
    letI : ClosedOff (k0_off1 i) := ⟨![9600, 0], hl⟩
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2
    obtain rfl := harg3.eq_unread hf3; obtain rfl := harg4.eq_unread hf4
    obtain rfl := harg7.eq_unread hf7; obtain rfl := harg8.eq_unread hf8
    sl_exec_parts (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexact H7
    iexact H8

end Cert.KernelIdeal.Hand

end
-- ==== Proof.KI.Norm.lean ====
/-
  The last point's run in normal form. Every accumulation step of the second phase is ONE function of (the hyperedge
  features times the first weight matrix, a 1000-row tile of the copied incidence matrix, the accumulator so far), and every
  stored tile of the first result ONE function of (the second result times the second weight matrix, a tile); the run's
  values, which it names one by one, are rewritten into ten nested steps over the ten tiles it reads, and the pieces it stores
  into the two results into those functions of the tiles. Nothing here depends on the float instance.
-/
import proofs.«178351_g7198365188796_cont_9to1_m_585_8_alg».proof.Proof.KI.RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → ℕ) = fun _ => 0 := by
  funext a; match a with | ⟨0, _⟩ => rfl | ⟨1, _⟩ => rfl

/-- A load of a whole rank-2 memref through the whole-shape rectangle reads the contents it is held at. -/
theorem readAt_full2 {sig' : RefSig} {κ : Kind} {sp : Space} {d : Fin 2 → ℕ} {e : EltTy} {Val : EltTy → Type}
    {mm : Memref sig' κ sp (⟨2, d⟩ : Shape) e} (h : mm.IsWhole) (X : (⟨2, d⟩ : Shape).Idx → Val e)
    (inb : ∀ a, (![0, 0] : Fin 2 → ℕ) a + d a ≤ d a) :
    View.readAt Val mm.view (Rect.unit (s := (⟨2, d⟩ : Shape)) ![0, 0] d inb).toLoadRect (h.unread X) = X := by
  rw [View.readAt_eq_ld, h.read_unread]; exact View.ld_unit_zero (S := (⟨2, d⟩ : Shape)) zero2 inb X

/-! The accumulation steps and the result tiles are one function each. -/
theorem pay7_eq : k0_pay7 (F := F) = k0_pay1 := rfl
theorem pay8_eq (a : Vec F S128x2000 .f32) (w : Vec F S128x128 .f32) (t : Vec F S1000x2000 .bf16) (b : Vec F S128x2000 .f32) :
    k0_pay8 a w t b = k0_pay11 (k0_pay6 a w) t b := rfl
theorem pay9_eq (a : Vec F S128x2000 .f32) (w : Vec F S128x128 .f32) (t : Vec F S1000x2000 .bf16) (b : Vec F S128x2000 .f32) :
    k0_pay9 a w t b = k0_pay11 (k0_pay6 a w) t b := rfl
theorem pay10_eq (h : FVec F S2000x128 .bf16) (t : Vec F S1000x2000 .bf16) (b : Vec F S128x2000 .f32) :
    k0_pay10 h t (constant S1000x128 .f32 0x00000000#32) b = k0_pay11 h t b := rfl
theorem pay12_eq : k0_pay12 (F := F) = k0_pay11 := rfl
theorem pay15_eq : k0_pay15 (F := F) = k0_pay11 := rfl
theorem pay16_eq : k0_pay16 (F := F) = k0_pay11 := rfl
theorem pay19_eq : k0_pay19 (F := F) = k0_pay11 := rfl
theorem pay14_eq (h : FVec F S2000x128 .bf16) (t : Vec F S1000x2000 .bf16) (b : Vec F S128x2000 .f32) :
    k0_pay14 t b (k0_pay13 h t) (constant S128x2000 .f32 0x00000000#32) = k0_pay11 h t b := rfl
theorem pay18_eq (h : FVec F S2000x128 .bf16) (t : Vec F S1000x2000 .bf16) (b : Vec F S128x2000 .f32) :
    k0_pay18 (k0_pay17 h t b) = k0_pay11 h t b := rfl
theorem pay22_eq (a : Vec F S128x2000 .f32) (w : Vec F S128x128 .f32) (t : Vec F S1000x2000 .bf16) :
    k0_pay22 a w t = k0_pay25 (k0_pay21 a w) t := rfl
theorem pay23_eq (a : Vec F S128x2000 .f32) (w : Vec F S128x128 .f32) (t : Vec F S1000x2000 .bf16) :
    k0_pay23 a w t = k0_pay25 (k0_pay21 a w) t := rfl
theorem pay24_eq (a : Vec F S128x2000 .f32) (w : Vec F S128x128 .f32) (t : Vec F S1000x2000 .bf16) :
    k0_pay24 a w t = k0_pay25 (k0_pay21 a w) t := rfl
theorem pay26_eq : k0_pay26 (F := F) = k0_pay25 := rfl
theorem pay27_eq : k0_pay27 (F := F) = k0_pay25 := rfl
theorem pay28_eq : k0_pay28 (F := F) = k0_pay25 := rfl
theorem pay29_eq : k0_pay29 (F := F) = k0_pay25 := rfl
theorem pay30_eq : k0_pay30 (F := F) = k0_pay25 := rfl
theorem pay5_eq : k0_pay5 (F := F) = k0_pay25 := rfl

/-- The transposed accumulator after the ten tiles of the second phase, from zero. -/
def accFin (h1 : FVec F S2000x128 .bf16) (t0 t1 t2 t3 t4 t5 t6 t7 t8 t9 : Vec F S1000x2000 .bf16) : FVec F S128x2000 .f32 :=
  k0_pay11 h1 t9 (k0_pay11 h1 t8 (k0_pay11 h1 t7 (k0_pay11 h1 t6 (k0_pay11 h1 t5 (k0_pay11 h1 t4 (k0_pay11 h1 t3 (k0_pay11 h1 t2 (k0_pay11 h1 t1 (k0_pay11 h1 t0 (k0_pay1))))))))))

/-- The ten 1000-row pieces of the first result (last stored first). -/
def resPieces (h2 : FVec F S2000x128 .bf16) (t0 t1 t2 t3 t4 t5 t6 t7 t8 t9 : Vec F S1000x2000 .bf16) : List (View.Piece (Elt F) S10000x128 .f32) :=
  [⟨Rect.unit (s := S10000x128) ![9000, 0] S1000x128.size inb_S10000x128_S1000x128_9000_0, k0_pay25 h2 t9⟩,
   ⟨Rect.unit (s := S10000x128) ![8000, 0] S1000x128.size inb_S10000x128_S1000x128_8000_0, k0_pay25 h2 t8⟩,
   ⟨Rect.unit (s := S10000x128) ![7000, 0] S1000x128.size inb_S10000x128_S1000x128_7000_0, k0_pay25 h2 t7⟩,
   ⟨Rect.unit (s := S10000x128) ![6000, 0] S1000x128.size inb_S10000x128_S1000x128_6000_0, k0_pay25 h2 t6⟩,
   ⟨Rect.unit (s := S10000x128) ![5000, 0] S1000x128.size inb_S10000x128_S1000x128_5000_0, k0_pay25 h2 t5⟩,
   ⟨Rect.unit (s := S10000x128) ![4000, 0] S1000x128.size inb_S10000x128_S1000x128_4000_0, k0_pay25 h2 t4⟩,
   ⟨Rect.unit (s := S10000x128) ![3000, 0] S1000x128.size inb_S10000x128_S1000x128_3000_0, k0_pay25 h2 t3⟩,
   ⟨Rect.unit (s := S10000x128) ![2000, 0] S1000x128.size inb_S10000x128_S1000x128_2000_0, k0_pay25 h2 t2⟩,
   ⟨Rect.unit (s := S10000x128) ![1000, 0] S1000x128.size inb_S10000x128_S1000x128_1000_0, k0_pay25 h2 t1⟩,
   ⟨Rect.unit (s := S10000x128) ![0, 0] S1000x128.size inb_S10000x128_S1000x128_0_0, k0_pay25 h2 t0⟩]

/-- The one piece of the second result. -/
def res2Pieces (a : FVec F S128x2000 .f32) : List (View.Piece (Elt F) S2000x128 .f32) :=
  [⟨Rect.unit (s := S2000x128) ![0, 0] S2000x128.size inb_S2000x128_S2000x128_0_0, k0_pay20 a⟩]

section
variable (c : Dev nD) (i : grid0.Coords) (arg1 : Memref sig .tc .vmem S400x2000 .f32) (harg1 : arg1.IsWhole) (arg2 : Memref sig .tc .vmem S400x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S10000x128 .f32) (harg5 : arg5.IsWhole) (arg6 : Memref sig .tc .vmem S2000x128 .f32) (harg6 : arg6.IsWhole) (arg7 : Memref sig .tc .vmem S10000x2000 .bf16) (harg7 : arg7.IsWhole) (arg8 : Memref sig .tc .vmem S128x2000 .f32) (harg8 : arg8.IsWhole)
  (hc0 : ¬condFirst i) (hc1 : condLast i) (hl : k0_off1 i = ![9600, 0])
  (x1 : Vec F S400x2000 .f32) (x2 : Vec F S400x128 .f32) (x3 : Vec F S128x128 .f32) (x4 : Vec F S128x128 .f32)
  (xs7 : Vec F S10000x2000 .bf16) (xs8 : Vec F S128x2000 .f32)

set_option maxHeartbeats 1000000 in
/-- What the last point leaves in the scratch copy: its block, rounded, written over rows 9600 … 9999. -/
theorem runC_copy : (runC c i arg1 harg1 arg2 harg2 arg3 harg3 arg4 harg4 arg5 harg5 arg6 harg6 arg7 harg7 arg8 harg8 hc0 hc1 hl x1 x2 x3 x4).1 xs7 xs8
    = arg7.view.writes (Elt F) (harg7.unread xs7) [⟨Rect.unit (s := S10000x2000) (k0_off1 i) S400x2000.size (k0_off1_inb i), k0_pay3 x1⟩] := by
  unfold runC; dsimp only
  simp only [runC.sl.H7_1, readAt_full2]

set_option maxHeartbeats 1000000 in
/-- The piece the last point stores into the second result, over the ten tiles it reads. -/
theorem runC_res2 : (runC c i arg1 harg1 arg2 harg2 arg3 harg3 arg4 harg4 arg5 harg5 arg6 harg6 arg7 harg7 arg8 harg8 hc0 hc1 hl x1 x2 x3 x4).2.2.2.1 xs7 xs8
    = res2Pieces (accFin (k0_pay6 (k0_pay4 x1 xs8 x2) x3)
        (View.readAt (Elt F) arg7.view (Rect.unit (s := S10000x2000) ![0, 0] S1000x2000.size inb_S10000x2000_S1000x2000_0_0).toLoadRect (harg7.unread xs7))
        (View.readAt (Elt F) arg7.view (Rect.unit (s := S10000x2000) ![1000, 0] S1000x2000.size inb_S10000x2000_S1000x2000_1000_0).toLoadRect (harg7.unread xs7))
        (View.readAt (Elt F) arg7.view (Rect.unit (s := S10000x2000) ![2000, 0] S1000x2000.size inb_S10000x2000_S1000x2000_2000_0).toLoadRect (harg7.unread xs7))
        (View.readAt (Elt F) arg7.view (Rect.unit (s := S10000x2000) ![3000, 0] S1000x2000.size inb_S10000x2000_S1000x2000_3000_0).toLoadRect (harg7.unread xs7))
        (View.readAt (Elt F) arg7.view (Rect.unit (s := S10000x2000) ![4000, 0] S1000x2000.size inb_S10000x2000_S1000x2000_4000_0).toLoadRect (harg7.unread xs7))
        (View.readAt (Elt F) arg7.view (Rect.unit (s := S10000x2000) ![5000, 0] S1000x2000.size inb_S10000x2000_S1000x2000_5000_0).toLoadRect (harg7.unread xs7))
        (View.readAt (Elt F) arg7.view (Rect.unit (s := S10000x2000) ![6000, 0] S1000x2000.size inb_S10000x2000_S1000x2000_6000_0).toLoadRect (harg7.unread xs7))
        (View.readAt (Elt F) arg7.view (Rect.unit (s := S10000x2000) ![7000, 0] S1000x2000.size inb_S10000x2000_S1000x2000_7000_0).toLoadRect (harg7.unread xs7))
        (View.readAt (Elt F) arg7.view (Rect.unit (s := S10000x2000) ![8000, 0] S1000x2000.size inb_S10000x2000_S1000x2000_8000_0).toLoadRect (harg7.unread xs7))
        (View.readAt (Elt F) arg7.view (Rect.unit (s := S10000x2000) ![9000, 0] S1000x2000.size inb_S10000x2000_S1000x2000_9000_0).toLoadRect (arg7.view.writes (Elt F) (harg7.unread xs7) [⟨Rect.unit (s := S10000x2000) (k0_off1 i) S400x2000.size (k0_off1_inb i), k0_pay3 x1⟩]))) := by
  unfold runC; dsimp only
  simp only [runC.sl.H5_2, runC.sl.H6_1, runC.sl.H7_1, runC.sl.H8_1, runC.sl.H8_2, runC.sl.H8_3, runC.sl.H8_4, runC.sl.H8_5, runC.sl.H8_6, runC.sl.H8_7, runC.sl.H8_8, runC.sl.H8_9, runC.sl.H8_10, runC.sl.H8_11, runC.sl.H8_12, runC.sl.cst_34, runC.sl.cst_58, runC.sl.r, runC.sl.r_1, runC.sl.r_2, runC.sl.r_3, runC.sl.r_4, runC.sl.r_5, runC.sl.v104, runC.sl.v106, runC.sl.v115, runC.sl.v122, runC.sl.v21, runC.sl.v32, runC.sl.v34, runC.sl.v41, runC.sl.v43, runC.sl.v50, runC.sl.v52, runC.sl.v59, runC.sl.v61, runC.sl.v68, runC.sl.v70, runC.sl.v77, runC.sl.v79, runC.sl.v86, runC.sl.v88, runC.sl.v95, runC.sl.v97, View.readCov_cons_toLoadRect, readAt_full2,
    pay7_eq, pay8_eq, pay9_eq, pay10_eq, pay12_eq, pay15_eq, pay16_eq, pay19_eq, pay14_eq, pay18_eq]
  first | with_reducible rfl | (unfold res2Pieces accFin; with_reducible rfl) | (unfold resPieces accFin; with_reducible rfl)

set_option maxHeartbeats 1000000 in
/-- The ten pieces the last point stores into the first result, over the ten tiles it reads. -/
theorem runC_res : (runC c i arg1 harg1 arg2 harg2 arg3 harg3 arg4 harg4 arg5 harg5 arg6 harg6 arg7 harg7 arg8 harg8 hc0 hc1 hl x1 x2 x3 x4).2.2.1 xs7 xs8
    = resPieces (k0_pay21 (accFin (k0_pay6 (k0_pay4 x1 xs8 x2) x3)
        (View.readAt (Elt F) arg7.view (Rect.unit (s := S10000x2000) ![0, 0] S1000x2000.size inb_S10000x2000_S1000x2000_0_0).toLoadRect (harg7.unread xs7))
        (View.readAt (Elt F) arg7.view (Rect.unit (s := S10000x2000) ![1000, 0] S1000x2000.size inb_S10000x2000_S1000x2000_1000_0).toLoadRect (harg7.unread xs7))
        (View.readAt (Elt F) arg7.view (Rect.unit (s := S10000x2000) ![2000, 0] S1000x2000.size inb_S10000x2000_S1000x2000_2000_0).toLoadRect (harg7.unread xs7))
        (View.readAt (Elt F) arg7.view (Rect.unit (s := S10000x2000) ![3000, 0] S1000x2000.size inb_S10000x2000_S1000x2000_3000_0).toLoadRect (harg7.unread xs7))
        (View.readAt (Elt F) arg7.view (Rect.unit (s := S10000x2000) ![4000, 0] S1000x2000.size inb_S10000x2000_S1000x2000_4000_0).toLoadRect (harg7.unread xs7))
        (View.readAt (Elt F) arg7.view (Rect.unit (s := S10000x2000) ![5000, 0] S1000x2000.size inb_S10000x2000_S1000x2000_5000_0).toLoadRect (harg7.unread xs7))
        (View.readAt (Elt F) arg7.view (Rect.unit (s := S10000x2000) ![6000, 0] S1000x2000.size inb_S10000x2000_S1000x2000_6000_0).toLoadRect (harg7.unread xs7))
        (View.readAt (Elt F) arg7.view (Rect.unit (s := S10000x2000) ![7000, 0] S1000x2000.size inb_S10000x2000_S1000x2000_7000_0).toLoadRect (harg7.unread xs7))
        (View.readAt (Elt F) arg7.view (Rect.unit (s := S10000x2000) ![8000, 0] S1000x2000.size inb_S10000x2000_S1000x2000_8000_0).toLoadRect (harg7.unread xs7))
        (View.readAt (Elt F) arg7.view (Rect.unit (s := S10000x2000) ![9000, 0] S1000x2000.size inb_S10000x2000_S1000x2000_9000_0).toLoadRect (arg7.view.writes (Elt F) (harg7.unread xs7) [⟨Rect.unit (s := S10000x2000) (k0_off1 i) S400x2000.size (k0_off1_inb i), k0_pay3 x1⟩]))) x4)
        (View.readAt (Elt F) arg7.view (Rect.unit (s := S10000x2000) ![0, 0] S1000x2000.size inb_S10000x2000_S1000x2000_0_0).toLoadRect (harg7.unread xs7))
        (View.readAt (Elt F) arg7.view (Rect.unit (s := S10000x2000) ![1000, 0] S1000x2000.size inb_S10000x2000_S1000x2000_1000_0).toLoadRect (harg7.unread xs7))
        (View.readAt (Elt F) arg7.view (Rect.unit (s := S10000x2000) ![2000, 0] S1000x2000.size inb_S10000x2000_S1000x2000_2000_0).toLoadRect (harg7.unread xs7))
        (View.readAt (Elt F) arg7.view (Rect.unit (s := S10000x2000) ![3000, 0] S1000x2000.size inb_S10000x2000_S1000x2000_3000_0).toLoadRect (harg7.unread xs7))
        (View.readAt (Elt F) arg7.view (Rect.unit (s := S10000x2000) ![4000, 0] S1000x2000.size inb_S10000x2000_S1000x2000_4000_0).toLoadRect (harg7.unread xs7))
        (View.readAt (Elt F) arg7.view (Rect.unit (s := S10000x2000) ![5000, 0] S1000x2000.size inb_S10000x2000_S1000x2000_5000_0).toLoadRect (harg7.unread xs7))
        (View.readAt (Elt F) arg7.view (Rect.unit (s := S10000x2000) ![6000, 0] S1000x2000.size inb_S10000x2000_S1000x2000_6000_0).toLoadRect (harg7.unread xs7))
        (View.readAt (Elt F) arg7.view (Rect.unit (s := S10000x2000) ![7000, 0] S1000x2000.size inb_S10000x2000_S1000x2000_7000_0).toLoadRect (harg7.unread xs7))
        (View.readAt (Elt F) arg7.view (Rect.unit (s := S10000x2000) ![8000, 0] S1000x2000.size inb_S10000x2000_S1000x2000_8000_0).toLoadRect (harg7.unread xs7))
        (View.readAt (Elt F) arg7.view (Rect.unit (s := S10000x2000) ![9000, 0] S1000x2000.size inb_S10000x2000_S1000x2000_9000_0).toLoadRect (arg7.view.writes (Elt F) (harg7.unread xs7) [⟨Rect.unit (s := S10000x2000) (k0_off1 i) S400x2000.size (k0_off1_inb i), k0_pay3 x1⟩])) := by
  unfold runC; dsimp only
  simp only [runC.sl.H5_2, runC.sl.H6_1, runC.sl.H7_1, runC.sl.H8_1, runC.sl.H8_2, runC.sl.H8_3, runC.sl.H8_4, runC.sl.H8_5, runC.sl.H8_6, runC.sl.H8_7, runC.sl.H8_8, runC.sl.H8_9, runC.sl.H8_10, runC.sl.H8_11, runC.sl.H8_12, runC.sl.cst_34, runC.sl.cst_58, runC.sl.r, runC.sl.r_1, runC.sl.r_2, runC.sl.r_3, runC.sl.r_4, runC.sl.r_5, runC.sl.v104, runC.sl.v106, runC.sl.v115, runC.sl.v122, runC.sl.v21, runC.sl.v32, runC.sl.v34, runC.sl.v41, runC.sl.v43, runC.sl.v50, runC.sl.v52, runC.sl.v59, runC.sl.v61, runC.sl.v68, runC.sl.v70, runC.sl.v77, runC.sl.v79, runC.sl.v86, runC.sl.v88, runC.sl.v95, runC.sl.v97, View.readCov_cons_toLoadRect, readAt_full2,
    pay7_eq, pay8_eq, pay9_eq, pay10_eq, pay12_eq, pay15_eq, pay16_eq, pay19_eq, pay14_eq, pay18_eq,
    pay22_eq, pay23_eq, pay24_eq, pay26_eq, pay27_eq, pay28_eq, pay29_eq, pay30_eq, pay5_eq]
  first | with_reducible rfl | (unfold res2Pieces accFin; with_reducible rfl) | (unfold resPieces accFin; with_reducible rfl)

end

section
variable (c : Dev nD) (i : grid0.Coords) (arg1 : Memref sig .tc .vmem S400x2000 .f32) (harg1 : arg1.IsWhole) (arg2 : Memref sig .tc .vmem S400x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S10000x128 .f32) (harg5 : arg5.IsWhole) (arg6 : Memref sig .tc .vmem S2000x128 .f32) (harg6 : arg6.IsWhole) (arg7 : Memref sig .tc .vmem S10000x2000 .bf16) (harg7 : arg7.IsWhole) (arg8 : Memref sig .tc .vmem S128x2000 .f32) (harg8 : arg8.IsWhole)
  (x1 : Vec F S400x2000 .f32) (x2 : Vec F S400x128 .f32)
  (xs7 : Vec F S10000x2000 .bf16) (xs8 : Vec F S128x2000 .f32)

/-- What a middle point leaves in the scratch copy: its block, rounded, written over its 400 rows. -/
theorem runB_copy (hc0 : ¬condFirst i) (hc1 : ¬condLast i) : (runB c i arg1 harg1 arg2 harg2 arg3 harg3 arg4 harg4 arg5 harg5 arg6 harg6 arg7 harg7 arg8 harg8 hc0 hc1 x1 x2).1 xs7
    = arg7.view.writes (Elt F) (harg7.unread xs7) [⟨Rect.unit (s := S10000x2000) (k0_off1 i) S400x2000.size (k0_off1_inb i), k0_pay3 x1⟩] := by
  unfold runB; dsimp only
  simp only [readAt_full2]

/-- What a middle point leaves in the accumulator: the block's contribution added onto what it held. -/
theorem runB_acc (hc0 : ¬condFirst i) (hc1 : ¬condLast i) : (runB c i arg1 harg1 arg2 harg2 arg3 harg3 arg4 harg4 arg5 harg5 arg6 harg6 arg7 harg7 arg8 harg8 hc0 hc1 x1 x2).2.1 xs8
    = arg8.view.writes (Elt F) (harg8.unread xs8) [⟨Rect.unit (s := S128x2000) ![0, 0] S128x2000.size inb_S128x2000_S128x2000_0_0, k0_pay4 x1 xs8 x2⟩] := by
  unfold runB; dsimp only
  simp only [readAt_full2]

/-- What the first point leaves in the scratch copy. -/
theorem runA_copy (hc0 : condFirst i) (hc1 : ¬condLast i) : (runA c i arg1 harg1 arg2 harg2 arg3 harg3 arg4 harg4 arg5 harg5 arg6 harg6 arg7 harg7 arg8 harg8 hc0 hc1 x1 x2).1 xs7
    = arg7.view.writes (Elt F) (harg7.unread xs7) [⟨Rect.unit (s := S10000x2000) (k0_off1 i) S400x2000.size (k0_off1_inb i), k0_pay3 x1⟩] := by
  unfold runA; dsimp only
  simp only [readAt_full2]

/-- What the first point leaves in the accumulator: the block's contribution added onto zero. -/
theorem runA_acc (hc0 : condFirst i) (hc1 : ¬condLast i) : (runA c i arg1 harg1 arg2 harg2 arg3 harg3 arg4 harg4 arg5 harg5 arg6 harg6 arg7 harg7 arg8 harg8 hc0 hc1 x1 x2).2.1 xs8
    = arg8.view.writes (Elt F) (harg8.unread xs8) [⟨Rect.unit (s := S128x2000) ![0, 0] S128x2000.size inb_S128x2000_S128x2000_0_0, k0_pay4 x1 k0_pay1 x2⟩,
        ⟨Rect.unit (s := S128x2000) ![0, 0] S128x2000.size inb_S128x2000_S128x2000_0_0, k0_pay1⟩] := by
  unfold runA; dsimp only
  simp only [runA.sl.v10, runA.sl.H8_1, View.readCov_cons_toLoadRect, readAt_full2]

end

end Cert.KernelIdeal.Hand

end
-- ==== Proof.KI.State.lean ====
/-
  What the two scratch buffers hold after each grid point, from whatever they held before the first, and two closed forms
  they are compared with: the copy of the incidence matrix — row r is row r mod 400 of the rounded block of point r div 400 —
  and the accumulator after n points, the n blocks' contributions added onto zero. After n ≤ 24 points the scratch copy
  agrees with the closed form on rows below 400 n and, from the first point on, the accumulator is its closed form: by
  induction over the points, each point's run read back at an index. Nothing here depends on the float instance.
-/
import proofs.«178351_g7198365188796_cont_9to1_m_585_8_alg».proof.Proof.KI.Norm
import Idealize.ShloMosaic.Lib.ValueIdx
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The rank-2 index (r mod n0, c mod n1): total in the two naturals, so that index arithmetic stays arithmetic. -/
def ixN (n0 n1 : ℕ) (h0 : 0 < n0) (h1 : 0 < n1) (r q : ℕ) : (⟨2, ![n0, n1]⟩ : Shape).Idx :=
  ix2 ⟨r % n0, Nat.mod_lt _ h0⟩ ⟨q % n1, Nat.mod_lt _ h1⟩

theorem ixN_self {n0 n1 : ℕ} (h0 : 0 < n0) (h1 : 0 < n1) (y : (⟨2, ![n0, n1]⟩ : Shape).Idx) :
    ixN n0 n1 h0 h1 (y 0).val (y 1).val = y := by
  funext a
  match a with
  | ⟨0, _⟩ => exact Fin.ext (Nat.mod_eq_of_lt (idx2_lt0 y))
  | ⟨1, _⟩ => exact Fin.ext (Nat.mod_eq_of_lt (idx2_lt1 y))

/-- A store through the whole-shape rectangle, last, is what a read of the whole buffer gives back. -/
theorem read_full_cons {sig' : RefSig} {κ : Kind} {sp : Space} {d : Fin 2 → ℕ} {e : EltTy} {Val : EltTy → Type}
    (v : View sig' κ sp (⟨2, d⟩ : Shape) e) (f : v.ty.Contents Val)
    (inb : ∀ a, (![0, 0] : Fin 2 → ℕ) a + d a ≤ d a)
    (w : (Rect.unit (s := (⟨2, d⟩ : Shape)) ![0, 0] d inb).shape.Idx → Val e) (L : List (View.Piece Val (⟨2, d⟩ : Shape) e)) :
    v.read Val (v.writes Val f ((⟨Rect.unit (s := (⟨2, d⟩ : Shape)) ![0, 0] d inb, w⟩ : View.Piece Val (⟨2, d⟩ : Shape) e) :: L)) = w := by
  funext y
  exact View.read_writes_cons_unit_of_mem v f inb w L y y rfl (fun a => by
    match a with
    | ⟨0, _⟩ => exact (Nat.zero_add _).symm
    | ⟨1, _⟩ => exact (Nat.zero_add _).symm)

/-- One 400-row block written over rows o … o + 399 of a 10000-row buffer, read back at an index. -/
theorem copy_read {sig' : RefSig} {κ : Kind} {sp : Space} (v : View sig' κ sp S10000x2000 .bf16) (f : v.ty.Contents (Elt F))
    (off : Fin 2 → ℕ) (o : ℕ) (hoff : off = ![o, 0]) (inb : ∀ a, off a + S400x2000.size a ≤ S10000x2000.size a)
    (w : Vec F S400x2000 .bf16) (y : S10000x2000.Idx) :
    v.read (Elt F) (v.writes (Elt F) f [⟨Rect.unit (s := S10000x2000) off S400x2000.size inb, w⟩]) y
      = if o ≤ (y 0).val ∧ (y 0).val < o + 400 then w (ixN 400 2000 (by decide) (by decide) ((y 0).val - o) (y 1).val)
        else v.read (Elt F) f y := by
  by_cases h : o ≤ (y 0).val ∧ (y 0).val < o + 400
  · rw [if_pos h]
    exact View.read_writes_cons_rows_of_mem v f inb w [] y (ixN 400 2000 (by decide) (by decide) ((y 0).val - o) (y 1).val) hoff
      (by show (y 0).val = o + ((y 0).val - o) % 400; omega)
      (by show (y 1).val = (y 1).val % 2000; have := idx2_lt1 y; omega)
  · rw [if_neg h]
    rw [View.read_writes_cons_rows_of_not_mem v f inb w [] y hoff (W := 400) rfl (by omega)]
    rfl

variable (m : (ℓ : Loc nD τ sig) → Buf (Elt F) ℓ)

/-- The four inputs' blocks at a point, as plain vectors. -/
abbrev blkB (c : Dev nD) (t : Fin cfg0.N) : Vec F S400x2000 .f32 := iblk m c 0 t
abbrev blkX (c : Dev nD) (t : Fin cfg0.N) : Vec F S400x128 .f32 := iblk m c 1 t
abbrev blkW1 (c : Dev nD) (t : Fin cfg0.N) : Vec F S128x128 .f32 := iblk m c 2 t
abbrev blkW2 (c : Dev nD) (t : Fin cfg0.N) : Vec F S128x128 .f32 := iblk m c 3 t

def t0 : Fin cfg0.N := ⟨0, by decide⟩
/-- The blocks by the point's number. -/
def blkBn (c : Dev nD) (n : ℕ) : Vec F S400x2000 .f32 := if h : n < cfg0.N then blkB m c ⟨n, h⟩ else blkB m c t0
def blkXn (c : Dev nD) (n : ℕ) : Vec F S400x128 .f32 := if h : n < cfg0.N then blkX m c ⟨n, h⟩ else blkX m c t0
theorem blkBn_val (c : Dev nD) (t : Fin cfg0.N) : blkBn m c t.val = blkB m c t := by unfold blkBn; rw [dif_pos t.isLt]
theorem blkXn_val (c : Dev nD) (t : Fin cfg0.N) : blkXn m c t.val = blkX m c t := by unfold blkXn; rw [dif_pos t.isLt]

/-- The copy of the incidence matrix: row r is row r mod 400 of the rounded block of point r div 400. -/
def Bcopy (c : Dev nD) : Vec F S10000x2000 .bf16 := fun y =>
  k0_pay3 (blkBn m c ((y 0).val / 400)) (ixN 400 2000 (by decide) (by decide) ((y 0).val % 400) (y 1).val)

/-- The transposed accumulator after n points: the blocks' contributions added one by one onto zero. -/
def acc1 (c : Dev nD) : ℕ → Vec F S128x2000 .f32
  | 0 => k0_pay1
  | n + 1 => k0_pay4 (blkBn m c n) (acc1 c n) (blkXn m c n)

theorem cA0 (t : Fin cfg0.N) (h0 : t.val = 0) : condFirst (grid0.coords t) := (hcondFirst t).mpr h0
theorem cA1 (t : Fin cfg0.N) (h0 : t.val = 0) : ¬condLast (grid0.coords t) := fun h => by have := (hcondLast t).mp h; omega
theorem cB0 (t : Fin cfg0.N) (h0 : ¬t.val = 0) : ¬condFirst (grid0.coords t) := fun h => h0 ((hcondFirst t).mp h)
theorem cB1 (t : Fin cfg0.N) (h1 : ¬t.val = 24) : ¬condLast (grid0.coords t) := fun h => h1 ((hcondLast t).mp h)
theorem cC1 (t : Fin cfg0.N) (h1 : t.val = 24) : condLast (grid0.coords t) := (hcondLast t).mpr h1
theorem cCl (t : Fin cfg0.N) (h1 : t.val = 24) : k0_off1 (grid0.coords t) = ![9600, 0] := by rw [hoff t, h1]

/-- One point's effect on the two scratch buffers: the point's run, read back. -/
def stepAt (c : Dev nD) (t : Fin cfg0.N) (p : Vec F S10000x2000 .bf16 × Vec F S128x2000 .f32) :
    Vec F S10000x2000 .bf16 × Vec F S128x2000 .f32 :=
  if h0 : t.val = 0 then
    (scB.view.read (Elt F) ((runA c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cA0 t h0) (cA1 t h0) (blkB m c t) (blkX m c t)).1 p.1),
     scAcc.view.read (Elt F) ((runA c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cA0 t h0) (cA1 t h0) (blkB m c t) (blkX m c t)).2.1 p.2))
  else if h1 : t.val = 24 then
    (scB.view.read (Elt F) ((runC c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cC1 t h1) (cCl t h1) (blkB m c t) (blkX m c t) (blkW1 m c t) (blkW2 m c t)).1 p.1 p.2),
     scAcc.view.read (Elt F) ((runC c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cC1 t h1) (cCl t h1) (blkB m c t) (blkX m c t) (blkW1 m c t) (blkW2 m c t)).2.1 p.1 p.2))
  else
    (scB.view.read (Elt F) ((runB c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cB1 t h1) (blkB m c t) (blkX m c t)).1 p.1),
     scAcc.view.read (Elt F) ((runB c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cB1 t h1) (blkB m c t) (blkX m c t)).2.1 p.2))

/-- The scratch buffers after n points, from `d` before the first. -/
def stateFrom (c : Dev nD) (d : Vec F S10000x2000 .bf16 × Vec F S128x2000 .f32) :
    (n : ℕ) → n ≤ cfg0.N → Vec F S10000x2000 .bf16 × Vec F S128x2000 .f32
  | 0, _ => d
  | n + 1, hn => stepAt m c ⟨n, hn⟩ (stateFrom c d n (Nat.le_of_lt hn))

/-- Point t's rounded block written over a copy that agrees with the closed form below row 400 t agrees with it below
    row 400 (t + 1). -/
theorem copy_agree (c : Dev nD) (t : Fin cfg0.N) (xs7 : Vec F S10000x2000 .bf16)
    (hx : ∀ y : S10000x2000.Idx, (y 0).val < 400 * t.val → xs7 y = Bcopy m c y)
    (y : S10000x2000.Idx) (hy : (y 0).val < 400 * (t.val + 1)) :
    scB.view.read (Elt F) (scB.view.writes (Elt F) ((Memref.isWhole_whole _).unread xs7)
      [⟨Rect.unit (s := S10000x2000) (k0_off1 (grid0.coords t)) S400x2000.size (k0_off1_inb (grid0.coords t)), k0_pay3 (blkB m c t)⟩]) y
      = Bcopy m c y := by
  rw [copy_read scB.view _ _ (400 * t.val) (hoff t) _ _ y]
  by_cases h : 400 * t.val ≤ (y 0).val ∧ (y 0).val < 400 * t.val + 400
  · rw [if_pos h]
    unfold Bcopy
    rw [show (y 0).val / 400 = t.val from by omega, show (y 0).val % 400 = (y 0).val - 400 * t.val from by omega, blkBn_val]
  · rw [if_neg h, Memref.IsWhole.read_unread]
    exact hx y (by omega)

/-- What the invariant says after n points. -/
def Agree (c : Dev nD) (n : ℕ) (p : Vec F S10000x2000 .bf16 × Vec F S128x2000 .f32) : Prop :=
  (∀ y : S10000x2000.Idx, (y 0).val < 400 * n → p.1 y = Bcopy m c y) ∧ (1 ≤ n → p.2 = acc1 m c n)

theorem agree_step (c : Dev nD) (t : Fin cfg0.N) (ht : ¬t.val = 24) (p : Vec F S10000x2000 .bf16 × Vec F S128x2000 .f32)
    (h : Agree m c t.val p) : Agree m c (t.val + 1) (stepAt m c t p) := by
  unfold stepAt
  by_cases h0 : t.val = 0
  · rw [dif_pos h0]; dsimp only
    rw [runA_copy, runA_acc]
    unfold Agree at h ⊢; dsimp only
    obtain ⟨hA, hB⟩ := h
    refine ⟨fun y hy => copy_agree m c t p.1 hA y hy, fun _ => ?_⟩
    rw [read_full_cons]
    show k0_pay4 (blkB m c t) k0_pay1 (blkX m c t) = k0_pay4 (blkBn m c t.val) (acc1 m c t.val) (blkXn m c t.val)
    rw [blkBn_val, blkXn_val, h0]; rfl
  · rw [dif_neg h0, dif_neg ht]; dsimp only
    rw [runB_copy, runB_acc]
    unfold Agree at h ⊢; dsimp only
    obtain ⟨hA, hB⟩ := h
    refine ⟨fun y hy => copy_agree m c t p.1 hA y hy, fun _ => ?_⟩
    rw [read_full_cons]
    show k0_pay4 (blkB m c t) p.2 (blkX m c t) = k0_pay4 (blkBn m c t.val) (acc1 m c t.val) (blkXn m c t.val)
    rw [blkBn_val, blkXn_val, hB (by omega)]

theorem agree_state (c : Dev nD) (d : Vec F S10000x2000 .bf16 × Vec F S128x2000 .f32) :
    ∀ (n : ℕ) (hn : n ≤ cfg0.N), n ≤ 24 → Agree m c n (stateFrom m c d n hn)
  | 0, _, _ => ⟨fun y hy => absurd hy (by omega), fun h => absurd h (by omega)⟩
  | n + 1, hn, h24 => agree_step m c ⟨n, hn⟩ (by show ¬n = 24; omega) _ (agree_state c d n (Nat.le_of_lt hn) (by omega))

end Cert.KernelIdeal.Hand

end
-- ==== Proof.KI.Last.lean ====
/-
  What the last point stores, in closed form. The ten 1000-row tiles it reads out of the scratch copy are rows of the copy's
  closed form — nine of them lie below row 9000, which 24 points have filled, and the tenth is read through the last point's
  own store of rows 9600 … 9999 —, and the accumulator it starts from is the closed form after 25 points; so the pieces it
  stores into the two results are the normal form's functions of those, whatever the scratch buffers held before the first point.
-/
import proofs.«178351_g7198365188796_cont_9to1_m_585_8_alg».proof.Proof.KI.State
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- Rows o … o + 999 of the copy's closed form. -/
def tileO (c : Dev nD) (o : ℕ) : Vec F S1000x2000 .bf16 := fun x =>
  Bcopy m c (ixN 10000 2000 (by decide) (by decide) (o + (x 0).val) (x 1).val)

/-- Where a 1000-row load at row offset o reads. -/
theorem idx_rows (o : ℕ) (ho : o + 1000 ≤ 10000) (inb : ∀ a, (![o, 0] : Fin 2 → ℕ) a + S1000x2000.size a ≤ S10000x2000.size a)
    (x : S1000x2000.Idx) :
    (Rect.unit (s := S10000x2000) ![o, 0] S1000x2000.size inb).toLoadRect.idx x
      = ixN 10000 2000 (by decide) (by decide) (o + (x 0).val) (x 1).val := by
  funext a
  match a with
  | ⟨0, _⟩ => exact Fin.ext (by show o + 1 * (x 0).val = (o + (x 0).val) % 10000; have := idx2_lt0 x; omega)
  | ⟨1, _⟩ => exact Fin.ext (by show 0 + 1 * (x 1).val = (x 1).val % 2000; have := idx2_lt1 x; omega)

/-- A tile below row 9600 of a copy that agrees with the closed form there. -/
theorem tile_read (c : Dev nD) (xs7 : Vec F S10000x2000 .bf16)
    (hx : ∀ y : S10000x2000.Idx, (y 0).val < 9600 → xs7 y = Bcopy m c y) (o : ℕ) (ho : o + 1000 ≤ 9600)
    (inb : ∀ a, (![o, 0] : Fin 2 → ℕ) a + S1000x2000.size a ≤ S10000x2000.size a) :
    View.readAt (Elt F) scB.view (Rect.unit (s := S10000x2000) ![o, 0] S1000x2000.size inb).toLoadRect
      ((Memref.isWhole_whole _).unread xs7) = tileO m c o := by
  funext x
  rw [Memref.IsWhole.readAt_unread, idx_rows o (by omega) inb x]
  exact hx _ (by show (o + (x 0).val) % 10000 < 9600; have := idx2_lt0 x; omega)

/-- The last tile, read through the last point's own store. -/
theorem tile_last (c : Dev nD) (t : Fin cfg0.N) (h1 : t.val = 24) (xs7 : Vec F S10000x2000 .bf16)
    (hx : ∀ y : S10000x2000.Idx, (y 0).val < 9600 → xs7 y = Bcopy m c y)
    (inb : ∀ a, (![9000, 0] : Fin 2 → ℕ) a + S1000x2000.size a ≤ S10000x2000.size a) :
    View.readAt (Elt F) scB.view (Rect.unit (s := S10000x2000) ![9000, 0] S1000x2000.size inb).toLoadRect
      (scB.view.writes (Elt F) ((Memref.isWhole_whole _).unread xs7)
        [⟨Rect.unit (s := S10000x2000) (k0_off1 (grid0.coords t)) S400x2000.size (k0_off1_inb (grid0.coords t)), k0_pay3 (blkB m c t)⟩])
      = tileO m c 9000 := by
  funext x
  rw [View.readAt_apply, idx_rows 9000 (by omega) inb x]
  exact copy_agree m c t xs7 (fun y hy => hx y (by rw [h1] at hy; omega)) _
    (by show (9000 + (x 0).val) % 10000 < 400 * (t.val + 1); rw [h1]; have := idx2_lt0 x; omega)

/-- The transposed accumulator after the second phase's ten tiles, in closed form. -/
def accTop (c : Dev nD) (w1 : Vec F S128x128 .f32) : FVec F S128x2000 .f32 :=
  accFin (k0_pay6 (acc1 m c 25) w1) (tileO m c 0) (tileO m c 1000) (tileO m c 2000) (tileO m c 3000) (tileO m c 4000) (tileO m c 5000) (tileO m c 6000) (tileO m c 7000) (tileO m c 8000) (tileO m c 9000)

theorem acc_last (c : Dev nD) (t : Fin cfg0.N) (h1 : t.val = 24) :
    k0_pay4 (blkB m c t) (acc1 m c 24) (blkX m c t) = acc1 m c 25 := by
  show _ = k0_pay4 (blkBn m c 24) (acc1 m c 24) (blkXn m c 24)
  rw [← h1, blkBn_val, blkXn_val]

section
variable (c : Dev nD) (t : Fin cfg0.N) (h0 : ¬t.val = 0) (h1 : t.val = 24)
  (p : Vec F S10000x2000 .bf16 × Vec F S128x2000 .f32) (h : Agree m c 24 p)
include h

set_option maxHeartbeats 1000000 in
/-- The piece the last point stores into the second result. -/
theorem last_res2 :
    (runC c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cC1 t h1) (cCl t h1) (blkB m c t) (blkX m c t) (blkW1 m c t) (blkW2 m c t)).2.2.2.1 p.1 p.2
      = res2Pieces (accTop m c (blkW1 m c t)) := by
  rw [runC_res2]
  unfold Agree at h; obtain ⟨hA, hB⟩ := h
  rw [tile_read m c p.1 hA 0 (by omega) inb_S10000x2000_S1000x2000_0_0,
    tile_read m c p.1 hA 1000 (by omega) inb_S10000x2000_S1000x2000_1000_0,
    tile_read m c p.1 hA 2000 (by omega) inb_S10000x2000_S1000x2000_2000_0,
    tile_read m c p.1 hA 3000 (by omega) inb_S10000x2000_S1000x2000_3000_0,
    tile_read m c p.1 hA 4000 (by omega) inb_S10000x2000_S1000x2000_4000_0,
    tile_read m c p.1 hA 5000 (by omega) inb_S10000x2000_S1000x2000_5000_0,
    tile_read m c p.1 hA 6000 (by omega) inb_S10000x2000_S1000x2000_6000_0,
    tile_read m c p.1 hA 7000 (by omega) inb_S10000x2000_S1000x2000_7000_0,
    tile_read m c p.1 hA 8000 (by omega) inb_S10000x2000_S1000x2000_8000_0,
    tile_last m c t h1 p.1 hA inb_S10000x2000_S1000x2000_9000_0, hB (by omega), acc_last m c t h1]
  rfl

set_option maxHeartbeats 1000000 in
/-- The ten pieces the last point stores into the first result. -/
theorem last_res :
    (runC c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cC1 t h1) (cCl t h1) (blkB m c t) (blkX m c t) (blkW1 m c t) (blkW2 m c t)).2.2.1 p.1 p.2
      = resPieces (k0_pay21 (accTop m c (blkW1 m c t)) (blkW2 m c t)) (tileO m c 0) (tileO m c 1000) (tileO m c 2000) (tileO m c 3000) (tileO m c 4000) (tileO m c 5000) (tileO m c 6000) (tileO m c 7000) (tileO m c 8000) (tileO m c 9000) := by
  rw [runC_res]
  unfold Agree at h; obtain ⟨hA, hB⟩ := h
  rw [tile_read m c p.1 hA 0 (by omega) inb_S10000x2000_S1000x2000_0_0,
    tile_read m c p.1 hA 1000 (by omega) inb_S10000x2000_S1000x2000_1000_0,
    tile_read m c p.1 hA 2000 (by omega) inb_S10000x2000_S1000x2000_2000_0,
    tile_read m c p.1 hA 3000 (by omega) inb_S10000x2000_S1000x2000_3000_0,
    tile_read m c p.1 hA 4000 (by omega) inb_S10000x2000_S1000x2000_4000_0,
    tile_read m c p.1 hA 5000 (by omega) inb_S10000x2000_S1000x2000_5000_0,
    tile_read m c p.1 hA 6000 (by omega) inb_S10000x2000_S1000x2000_6000_0,
    tile_read m c p.1 hA 7000 (by omega) inb_S10000x2000_S1000x2000_7000_0,
    tile_read m c p.1 hA 8000 (by omega) inb_S10000x2000_S1000x2000_8000_0,
    tile_last m c t h1 p.1 hA inb_S10000x2000_S1000x2000_9000_0, hB (by omega), acc_last m c t h1]
  rfl

end

end Cert.KernelIdeal.Hand

end
-- ==== Proof.KI.Data.lean ====
/-
  The proof data of the one pipeline and its run. After the body at a point the four inputs' buffers hold their blocks;
  the two results' buffers matter at the last point only, where they hold the closed forms' pieces read back; the region
  invariant binds what the two scratch buffers held before the first point and has them, before point n, at what n points
  leave of that. The body obligation at a point is the point's run (first, middle or last), the invariant handing it the
  scratch buffers and taking them back one point further; at the last point the results' pieces are the closed forms'
  because 24 points have filled the rows the second phase reads. Then the launch, and the frame.
-/
import proofs.«178351_g7198365188796_cont_9to1_m_585_8_alg».proof.Proof.KI.Last

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each result window, through which its contents are stated. -/
abbrev VO5 : View sig .tc .vmem S10000x128 .f32 := (Memref.whole cc0_stg4_0 : Memref sig .tc .vmem S10000x128 .f32).view
abbrev VO6 : View sig .tc .vmem S2000x128 .f32 := (Memref.whole cc0_stg5_0 : Memref sig .tc .vmem S2000x128 .f32).view

/-- What the last point leaves in the first result's buffer: the ten tiles' pieces read back. -/
def out5At (c : Dev nD) (t : Fin cfg0.N) : Vec F S10000x128 .f32 :=
  VO5.read (Elt F) (VO5.writes (Elt F) VO5.junk (resPieces (k0_pay21 (accTop m c (blkW1 m c t)) (blkW2 m c t)) (tileO m c 0) (tileO m c 1000) (tileO m c 2000) (tileO m c 3000) (tileO m c 4000) (tileO m c 5000) (tileO m c 6000) (tileO m c 7000) (tileO m c 8000) (tileO m c 9000)))
/-- What it leaves in the second result's buffer: the transposed accumulator. -/
def out6At (c : Dev nD) (t : Fin cfg0.N) : Vec F S2000x128 .f32 :=
  VO6.read (Elt F) (VO6.writes (Elt F) VO6.junk (res2Pieces (accTop m c (blkW1 m c t))))

theorem cover5 (h2 : FVec F S2000x128 .bf16) (t0 t1 t2 t3 t4 t5 t6 t7 t8 t9 : Vec F S1000x2000 .bf16) (y : S10000x128.Idx) :
    ∃ pc ∈ resPieces h2 t0 t1 t2 t3 t4 t5 t6 t7 t8 t9, y ∈ pc.1.set :=
  View.cover_of_tiledL (resPieces h2 t0 t1 t2 t3 t4 t5 t6 t7 t8 t9) S1000x128.size (by sl_kernel_rfl) y
theorem cover6 (a : FVec F S128x2000 .f32) (y : S2000x128.Idx) : ∃ pc ∈ res2Pieces a, y ∈ pc.1.set :=
  View.cover_of_tiledL (res2Pieces a) S2000x128.size (by sl_kernel_rfl) y

/-- The region invariant before point n, from the scratch buffers at `d` before the first point. -/
def PhiSAt (c : Dev nD) (d : Vec F S10000x2000 .bf16 × Vec F S128x2000 .f32) (n : ℕ) (h : n ≤ cfg0.N) : sProp 𝕄 :=
  iprop(iprop(owns (c : Thread nD τ) scB fullShare (stateFrom m c d n h).1 ∗ owns (c : Thread nD τ) scAcc fullShare (stateFrom m c d n h).2) ∗ (∃ r, prngReg c r))
/-- The region invariant: at some contents of the scratch buffers before the first point. -/
def PhiS (c : Dev nD) (n : ℕ) (h : n ≤ cfg0.N) : sProp 𝕄 := iprop(∃ d, PhiSAt m c d n h)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out5At m c t
    | ⟨5, _⟩ => out6At m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = out5At m c t := by dsimp only [dats]
theorem after5 (c : Dev nD) (t : Fin cfg0.N) : (dats m 0 c).after 5 t = out6At m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 3200000 in
/-- The body at any point: the point's run between the invariant at this point and at the next. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_castSucc m c t]
  unfold PhiS PhiSAt
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  by_cases h0 : t.val = 0
  · rw [Dat.leavesExact_idle (dats m 0 c) 4 t (idleAt4 t (cA1 t h0)) (noFlush4 t (cA1 t h0)),
      Dat.leavesExact_idle (dats m 0 c) 5 t (idleAt5 t (cA1 t h0)) (noFlush5 t (cA1 t h0))]
    iintro ⟨⟨%d, ⟨HS7, HS8⟩, Hg⟩, Ho, ⟨%d0, H0⟩, ⟨%d1, H1⟩, ⟨%d2, H2⟩, ⟨%d3, H3⟩, H4, H5⟩
    have e7 : (stateFrom m c d (t.val + 1) t.isLt).1 = scB.view.read (Elt F) ((runA c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cA0 t h0) (cA1 t h0) (blkB m c t) (blkX m c t)).1 (stateFrom m c d t.val (Nat.le_of_lt t.isLt)).1) := by
      show (stepAt m c t _).1 = _; unfold stepAt; rw [dif_pos h0]
    have e8 : (stateFrom m c d (t.val + 1) t.isLt).2 = scAcc.view.read (Elt F) ((runA c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cA0 t h0) (cA1 t h0) (blkB m c t) (blkX m c t)).2.1 (stateFrom m c d t.val (Nat.le_of_lt t.isLt)).2) := by
      show (stepAt m c t _).2 = _; unfold stepAt; rw [dif_pos h0]
    iapply ((runA c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cA0 t h0) (cA1 t h0) (blkB m c t) (blkX m c t)).2.2 _ _ Set.univ _)
    isplitl [H0]; · iexact H0
    isplitl [H1]; · iexact H1
    isplitl [HS7]; · iexact HS7
    isplitl [HS8]; · iexact HS8
    iintro ⟨H0, H1, HS7, HS8⟩
    isplitl [HS7 HS8 Hg]
    · iexists d
      rw [e7, e8]
      isplitl [HS7 HS8]
      · isplitl [HS7]
        · unfold owns; iexists _; isplitr
          swap; · iexact HS7
          ipureintro; rfl
        · unfold owns; iexists _; isplitr
          swap; · iexact HS8
          ipureintro; rfl
      iexact Hg
    isplitl [Ho]; · iexact Ho
    isplitl [H0]; · iexact H0
    isplitl [H1]; · iexact H1
    isplitl [H2]; · iexact H2
    isplitl [H3]; · iexact H3
    isplitl [H4]; · iexact H4
    iexact H5
  by_cases h1 : t.val = 24
  · rw [show (dats m 0 c).leavesExact 4 t = owns (c : Thread nD τ) (ms4 t) fullShare ((dats m 0 c).after 4 t) from by
      unfold Dat.leavesExact; rw [liveAt4 t (cC1 t h1)], after4]
    rw [show (dats m 0 c).leavesExact 5 t = owns (c : Thread nD τ) (ms5 t) fullShare ((dats m 0 c).after 5 t) from by
      unfold Dat.leavesExact; rw [liveAt5 t (cC1 t h1)], after5]
    iintro ⟨⟨%d, ⟨HS7, HS8⟩, Hg⟩, Ho, ⟨%d0, H0⟩, ⟨%d1, H1⟩, ⟨%d2, H2⟩, ⟨%d3, H3⟩, ⟨%d4, H4⟩, ⟨%d5, H5⟩⟩
    have hAg : Agree m c 24 (stateFrom m c d t.val (Nat.le_of_lt t.isLt)) :=
      (congrArg (fun n => Agree m c n (stateFrom m c d t.val (Nat.le_of_lt t.isLt))) h1).mp
        (agree_state m c d t.val (Nat.le_of_lt t.isLt) (by omega))
    have e7 : (stateFrom m c d (t.val + 1) t.isLt).1 = scB.view.read (Elt F) ((runC c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cC1 t h1) (cCl t h1) (blkB m c t) (blkX m c t) (blkW1 m c t) (blkW2 m c t)).1 (stateFrom m c d t.val (Nat.le_of_lt t.isLt)).1 (stateFrom m c d t.val (Nat.le_of_lt t.isLt)).2) := by
      show (stepAt m c t _).1 = _; unfold stepAt; rw [dif_neg h0, dif_pos h1]
    have e8 : (stateFrom m c d (t.val + 1) t.isLt).2 = scAcc.view.read (Elt F) ((runC c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cC1 t h1) (cCl t h1) (blkB m c t) (blkX m c t) (blkW1 m c t) (blkW2 m c t)).2.1 (stateFrom m c d t.val (Nat.le_of_lt t.isLt)).1 (stateFrom m c d t.val (Nat.le_of_lt t.isLt)).2) := by
      show (stepAt m c t _).2 = _; unfold stepAt; rw [dif_neg h0, dif_pos h1]
    iapply ((runC c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cC1 t h1) (cCl t h1) (blkB m c t) (blkX m c t) (blkW1 m c t) (blkW2 m c t)).2.2.2.2 _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS7]; · iexact HS7
    isplitl [HS8]; · iexact HS8
    iintro ⟨H0, H1, H2, H3, ⟨%e4, H4⟩, ⟨%e5, H5⟩, HS7, HS8⟩
    isplitl [HS7 HS8 Hg]
    · iexists d
      rw [e7, e8]
      isplitl [HS7 HS8]
      · isplitl [HS7]
        · unfold owns; iexists _; isplitr
          swap; · iexact HS7
          ipureintro; rfl
        · unfold owns; iexists _; isplitr
          swap; · iexact HS8
          ipureintro; rfl
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro
      rw [last_res m c t h0 h1 _ hAg]; unfold out5At
      exact View.read_writes_of_cover _ _ _ _ _ (cover5 _ _ _ _ _ _ _ _ _ _ _)
    · unfold owns; iexists _; isplitr
      swap; · iexact H5
      ipureintro
      rw [last_res2 m c t h0 h1 _ hAg]; unfold out6At
      exact View.read_writes_of_cover _ _ _ _ _ (cover6 _)
  · rw [Dat.leavesExact_idle (dats m 0 c) 4 t (idleAt4 t (cB1 t h1)) (noFlush4 t (cB1 t h1)),
      Dat.leavesExact_idle (dats m 0 c) 5 t (idleAt5 t (cB1 t h1)) (noFlush5 t (cB1 t h1))]
    iintro ⟨⟨%d, ⟨HS7, HS8⟩, Hg⟩, Ho, ⟨%d0, H0⟩, ⟨%d1, H1⟩, ⟨%d2, H2⟩, ⟨%d3, H3⟩, H4, H5⟩
    have e7 : (stateFrom m c d (t.val + 1) t.isLt).1 = scB.view.read (Elt F) ((runB c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cB1 t h1) (blkB m c t) (blkX m c t)).1 (stateFrom m c d t.val (Nat.le_of_lt t.isLt)).1) := by
      show (stepAt m c t _).1 = _; unfold stepAt; rw [dif_neg h0, dif_neg h1]
    have e8 : (stateFrom m c d (t.val + 1) t.isLt).2 = scAcc.view.read (Elt F) ((runB c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cB1 t h1) (blkB m c t) (blkX m c t)).2.1 (stateFrom m c d t.val (Nat.le_of_lt t.isLt)).2) := by
      show (stepAt m c t _).2 = _; unfold stepAt; rw [dif_neg h0, dif_neg h1]
    iapply ((runB c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cB1 t h1) (blkB m c t) (blkX m c t)).2.2 _ _ Set.univ _)
    isplitl [H0]; · iexact H0
    isplitl [H1]; · iexact H1
    isplitl [HS7]; · iexact HS7
    isplitl [HS8]; · iexact HS8
    iintro ⟨H0, H1, HS7, HS8⟩
    isplitl [HS7 HS8 Hg]
    · iexists d
      rw [e7, e8]
      isplitl [HS7 HS8]
      · isplitl [HS7]
        · unfold owns; iexists _; isplitr
          swap; · iexact HS7
          ipureintro; rfl
        · unfold owns; iexists _; isplitr
          swap; · iexact HS8
          ipureintro; rfl
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, at whatever the scratch buffers hold. -/
theorem hin (c : Dev nD) : Pipeline.ΦA spec0 c ⊢ (dats m 0 c).Φ 0 := by
  rw [show (dats m 0 c).Φ 0 = PhiS m c 0 (Nat.zero_le _) from rfl, PhiA_eq]
  unfold PhiS PhiSAt
  iintro ⟨⟨⟨%d7, H7⟩, ⟨%d8, H8⟩⟩, Hg⟩
  iexists (d7, d8)
  isplitl [H7 H8]
  · isplitl [H7]
    · iexact H7
    · iexact H8
  iexact Hg

/-- After the last point the invariant gives the class invariant back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS PhiSAt
  iintro ⟨%d, ⟨H7, H8⟩, Hg⟩
  isplitl [H7 H8]
  · isplitl [H7]
    · iexists _; iexact H7
    · iexists _; iexact H8
  iexact Hg

set_option backward.isDefEq.respectTransparency.types false in
/-- Every weakly fair execution of @main terminates, and the final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KI.ValueK.lean ====
/-
  The kernel's arithmetic at the extended reals, read at an index. Every product of the kernel is into a zero accumulator
  and contracts one axis, so at an index it is the sum over that axis of the operands' products; a change of float format is
  the identity; the payloads are then: the rounded block is the block; one point's contribution added onto the accumulator;
  the hyperedge features times a weight matrix; one tile's step of the second phase; the transposition; one tile of the
  first result. Two facts about sums close the module: the sum over blocks of sums over a block is the sum over all, and
  an accumulation from zero is the sum of its steps.
-/
import proofs.«178351_g7198365188796_cont_9to1_m_585_8_alg».proof.Proof.KI.Data
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The sum over a blocks of the sums over a block of b is the sum over all a·b. -/
theorem sum_blocks {M : Type} [AddCommMonoid M] (a b : ℕ) (f : ℕ → M) :
    ∑ t ∈ Finset.range a, ∑ r ∈ Finset.range b, f (b * t + r) = ∑ n ∈ Finset.range (a * b), f n := by
  induction a with
  | zero => simp
  | succ a ih =>
    rw [Finset.sum_range_succ, ih, Nat.succ_mul, Finset.sum_range_add]
    congr 1
    exact Finset.sum_congr rfl fun r _ => by rw [Nat.mul_comm]

/-- An accumulation from zero, one step added at a time, is the sum of the steps. -/
theorem acc_range {M : Type} [AddCommMonoid M] (g A : ℕ → M) (h0 : A 0 = 0) (hs : ∀ n, A (n + 1) = A n + g n) (n : ℕ) :
    A n = ∑ t ∈ Finset.range n, g t := by
  induction n with
  | zero => simpa using h0
  | succ n ih => rw [hs, ih, Finset.sum_range_succ]

theorem dA_lhs_0 (i : S128x2000.Idx) (q : dot_S400x128_S400x2000_S128x2000_0_0_1_1_n_n.contr.Idx) :
    (dot_S400x128_S400x2000_S128x2000_0_0_1_1_n_n.lhsIdx i q 0).val = (q ⟨0, by decide⟩).val :=
  dot_S400x128_S400x2000_S128x2000_0_0_1_1_n_n.lhsIdx_val_of_single rfl i q
theorem dA_lhs_1 (i : S128x2000.Idx) (q : dot_S400x128_S400x2000_S128x2000_0_0_1_1_n_n.contr.Idx) :
    (dot_S400x128_S400x2000_S128x2000_0_0_1_1_n_n.lhsIdx i q 1).val = (i 0).val := by
  unfold DotDims.lhsIdx
  rw [dif_neg (show ¬(1 : Fin S400x128.rank) ∈ dot_S400x128_S400x2000_S128x2000_0_0_1_1_n_n.lhsBatch by decide), dif_pos (show (1 : Fin S400x128.rank) ∈ dot_S400x128_S400x2000_S128x2000_0_0_1_1_n_n.lhsNonContracting by decide)]
  rfl
theorem dA_rhs_0 (i : S128x2000.Idx) (q : dot_S400x128_S400x2000_S128x2000_0_0_1_1_n_n.contr.Idx) :
    (dot_S400x128_S400x2000_S128x2000_0_0_1_1_n_n.rhsIdx i q 0).val = (q ⟨0, by decide⟩).val :=
  dot_S400x128_S400x2000_S128x2000_0_0_1_1_n_n.rhsIdx_val_of_single rfl i q
theorem dA_rhs_1 (i : S128x2000.Idx) (q : dot_S400x128_S400x2000_S128x2000_0_0_1_1_n_n.contr.Idx) :
    (dot_S400x128_S400x2000_S128x2000_0_0_1_1_n_n.rhsIdx i q 1).val = (i 1).val := by
  unfold DotDims.rhsIdx
  rw [dif_neg (show ¬(1 : Fin S400x2000.rank) ∈ dot_S400x128_S400x2000_S128x2000_0_0_1_1_n_n.rhsBatch by decide), dif_pos (show (1 : Fin S400x2000.rank) ∈ dot_S400x128_S400x2000_S128x2000_0_0_1_1_n_n.rhsNonContracting by decide)]
  rfl
/-- The product over a zero accumulator, read at an index, as a sum over the contracted axis. -/
theorem dA_apply {φ₁ φ₂ : FTy} (lhs : FVec Ideal S400x128 φ₁) (rhs : FVec Ideal S400x2000 φ₂) (i : S128x2000.Idx) :
    FloatOps.matmul dot_S400x128_S400x2000_S128x2000_0_0_1_1_n_n none lhs rhs (constant S128x2000 .f32 0x00000000#32) i
      = ∑ k : Fin 400, lhs (ix2 (n0 := 400) (n1 := 128) k (i 0)) * rhs (ix2 (n0 := 400) (n1 := 2000) k (i 1)) := by
  rw [Ideal.matmul_constant_zero_apply, ← Equiv.sum_comp (contrEquiv1 dot_S400x128_S400x2000_S128x2000_0_0_1_1_n_n 400 rfl rfl).symm]
  refine Finset.sum_congr rfl fun k _ => ?_
  have hk := contrEquiv1_symm_val dot_S400x128_S400x2000_S128x2000_0_0_1_1_n_n 400 rfl rfl k
  have el : dot_S400x128_S400x2000_S128x2000_0_0_1_1_n_n.lhsIdx i ((contrEquiv1 dot_S400x128_S400x2000_S128x2000_0_0_1_1_n_n 400 rfl rfl).symm k) = ix2 (n0 := 400) (n1 := 128) k (i 0) := funext fun a => Fin.ext (by
    match a with
    | ⟨0, _⟩ => exact (dA_lhs_0 _ _).trans hk
    | ⟨1, _⟩ => exact dA_lhs_1 _ _)
  have er : dot_S400x128_S400x2000_S128x2000_0_0_1_1_n_n.rhsIdx i ((contrEquiv1 dot_S400x128_S400x2000_S128x2000_0_0_1_1_n_n 400 rfl rfl).symm k) = ix2 (n0 := 400) (n1 := 2000) k (i 1) := funext fun a => Fin.ext (by
    match a with
    | ⟨0, _⟩ => exact (dA_rhs_0 _ _).trans hk
    | ⟨1, _⟩ => exact dA_rhs_1 _ _)
  rw [el, er]
  first | done | rfl

theorem dW_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dW_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dW_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dW_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl
/-- The product over a zero accumulator, read at an index, as a sum over the contracted axis. -/
theorem dW_apply {φ₁ φ₂ : FTy} (lhs : FVec Ideal S2000x128 φ₁) (rhs : FVec Ideal S128x128 φ₂) (i : S2000x128.Idx) :
    FloatOps.matmul dot_S2000x128_S128x128_S2000x128_1_0_0_1_n_n none lhs rhs (constant S2000x128 .f32 0x00000000#32) i
      = ∑ k : Fin 128, lhs (ix2 (n0 := 2000) (n1 := 128) (i 0) k) * rhs (ix2 (n0 := 128) (n1 := 128) k (i 1)) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx i ((contrEquiv1 dot_S2000x128_S128x128_S2000x128_1_0_0_1_n_n 128 rfl rfl).symm k) = ix2 (n0 := 2000) (n1 := 128) (i 0) k := funext fun a => Fin.ext (by
    match a with
    | ⟨0, _⟩ => exact dW_lhs_0 _ _
    | ⟨1, _⟩ => exact (dW_lhs_1 _ _).trans hk)
  have er : dot_S2000x128_S128x128_S2000x128_1_0_0_1_n_n.rhsIdx i ((contrEquiv1 dot_S2000x128_S128x128_S2000x128_1_0_0_1_n_n 128 rfl rfl).symm k) = ix2 (n0 := 128) (n1 := 128) k (i 1) := funext fun a => Fin.ext (by
    match a with
    | ⟨0, _⟩ => exact (dW_rhs_0 _ _).trans hk
    | ⟨1, _⟩ => exact dW_rhs_1 _ _)
  rw [el, er]
  first | done | rfl

theorem dT_lhs_0 (i : S1000x128.Idx) (q : dot_S1000x2000_S2000x128_S1000x128_1_0_0_1_n_n.contr.Idx) :
    (dot_S1000x2000_S2000x128_S1000x128_1_0_0_1_n_n.lhsIdx i q 0).val = (i 0).val := by
  unfold DotDims.lhsIdx
  rw [dif_neg (show ¬(0 : Fin S1000x2000.rank) ∈ dot_S1000x2000_S2000x128_S1000x128_1_0_0_1_n_n.lhsBatch by decide), dif_pos (show (0 : Fin S1000x2000.rank) ∈ dot_S1000x2000_S2000x128_S1000x128_1_0_0_1_n_n.lhsNonContracting by decide)]
  rfl
theorem dT_lhs_1 (i : S1000x128.Idx) (q : dot_S1000x2000_S2000x128_S1000x128_1_0_0_1_n_n.contr.Idx) :
    (dot_S1000x2000_S2000x128_S1000x128_1_0_0_1_n_n.lhsIdx i q 1).val = (q ⟨0, by decide⟩).val :=
  dot_S1000x2000_S2000x128_S1000x128_1_0_0_1_n_n.lhsIdx_val_of_single rfl i q
theorem dT_rhs_0 (i : S1000x128.Idx) (q : dot_S1000x2000_S2000x128_S1000x128_1_0_0_1_n_n.contr.Idx) :
    (dot_S1000x2000_S2000x128_S1000x128_1_0_0_1_n_n.rhsIdx i q 0).val = (q ⟨0, by decide⟩).val :=
  dot_S1000x2000_S2000x128_S1000x128_1_0_0_1_n_n.rhsIdx_val_of_single rfl i q
theorem dT_rhs_1 (i : S1000x128.Idx) (q : dot_S1000x2000_S2000x128_S1000x128_1_0_0_1_n_n.contr.Idx) :
    (dot_S1000x2000_S2000x128_S1000x128_1_0_0_1_n_n.rhsIdx i q 1).val = (i 1).val := by
  unfold DotDims.rhsIdx
  rw [dif_neg (show ¬(1 : Fin S2000x128.rank) ∈ dot_S1000x2000_S2000x128_S1000x128_1_0_0_1_n_n.rhsBatch by decide), dif_pos (show (1 : Fin S2000x128.rank) ∈ dot_S1000x2000_S2000x128_S1000x128_1_0_0_1_n_n.rhsNonContracting by decide)]
  rfl
/-- The product over a zero accumulator, read at an index, as a sum over the contracted axis. -/
theorem dT_apply {φ₁ φ₂ : FTy} (lhs : FVec Ideal S1000x2000 φ₁) (rhs : FVec Ideal S2000x128 φ₂) (i : S1000x128.Idx) :
    FloatOps.matmul dot_S1000x2000_S2000x128_S1000x128_1_0_0_1_n_n none lhs rhs (constant S1000x128 .f32 0x00000000#32) i
      = ∑ k : Fin 2000, lhs (ix2 (n0 := 1000) (n1 := 2000) (i 0) k) * rhs (ix2 (n0 := 2000) (n1 := 128) k (i 1)) := by
  rw [Ideal.matmul_constant_zero_apply, ← Equiv.sum_comp (contrEquiv1 dot_S1000x2000_S2000x128_S1000x128_1_0_0_1_n_n 2000 rfl rfl).symm]
  refine Finset.sum_congr rfl fun k _ => ?_
  have hk := contrEquiv1_symm_val dot_S1000x2000_S2000x128_S1000x128_1_0_0_1_n_n 2000 rfl rfl k
  have el : dot_S1000x2000_S2000x128_S1000x128_1_0_0_1_n_n.lhsIdx i ((contrEquiv1 dot_S1000x2000_S2000x128_S1000x128_1_0_0_1_n_n 2000 rfl rfl).symm k) = ix2 (n0 := 1000) (n1 := 2000) (i 0) k := funext fun a => Fin.ext (by
    match a with
    | ⟨0, _⟩ => exact dT_lhs_0 _ _
    | ⟨1, _⟩ => exact (dT_lhs_1 _ _).trans hk)
  have er : dot_S1000x2000_S2000x128_S1000x128_1_0_0_1_n_n.rhsIdx i ((contrEquiv1 dot_S1000x2000_S2000x128_S1000x128_1_0_0_1_n_n 2000 rfl rfl).symm k) = ix2 (n0 := 2000) (n1 := 128) k (i 1) := funext fun a => Fin.ext (by
    match a with
    | ⟨0, _⟩ => exact (dT_rhs_0 _ _).trans hk
    | ⟨1, _⟩ => exact dT_rhs_1 _ _)
  rw [el, er]
  first | done | rfl

theorem dC_lhs_0 (i : S128x2000.Idx) (q : dot_S1000x128_S1000x2000_S128x2000_0_0_1_1_n_n.contr.Idx) :
    (dot_S1000x128_S1000x2000_S128x2000_0_0_1_1_n_n.lhsIdx i q 0).val = (q ⟨0, by decide⟩).val :=
  dot_S1000x128_S1000x2000_S128x2000_0_0_1_1_n_n.lhsIdx_val_of_single rfl i q
theorem dC_lhs_1 (i : S128x2000.Idx) (q : dot_S1000x128_S1000x2000_S128x2000_0_0_1_1_n_n.contr.Idx) :
    (dot_S1000x128_S1000x2000_S128x2000_0_0_1_1_n_n.lhsIdx i q 1).val = (i 0).val := by
  unfold DotDims.lhsIdx
  rw [dif_neg (show ¬(1 : Fin S1000x128.rank) ∈ dot_S1000x128_S1000x2000_S128x2000_0_0_1_1_n_n.lhsBatch by decide), dif_pos (show (1 : Fin S1000x128.rank) ∈ dot_S1000x128_S1000x2000_S128x2000_0_0_1_1_n_n.lhsNonContracting by decide)]
  rfl
theorem dC_rhs_0 (i : S128x2000.Idx) (q : dot_S1000x128_S1000x2000_S128x2000_0_0_1_1_n_n.contr.Idx) :
    (dot_S1000x128_S1000x2000_S128x2000_0_0_1_1_n_n.rhsIdx i q 0).val = (q ⟨0, by decide⟩).val :=
  dot_S1000x128_S1000x2000_S128x2000_0_0_1_1_n_n.rhsIdx_val_of_single rfl i q
theorem dC_rhs_1 (i : S128x2000.Idx) (q : dot_S1000x128_S1000x2000_S128x2000_0_0_1_1_n_n.contr.Idx) :
    (dot_S1000x128_S1000x2000_S128x2000_0_0_1_1_n_n.rhsIdx i q 1).val = (i 1).val := by
  unfold DotDims.rhsIdx
  rw [dif_neg (show ¬(1 : Fin S1000x2000.rank) ∈ dot_S1000x128_S1000x2000_S128x2000_0_0_1_1_n_n.rhsBatch by decide), dif_pos (show (1 : Fin S1000x2000.rank) ∈ dot_S1000x128_S1000x2000_S128x2000_0_0_1_1_n_n.rhsNonContracting by decide)]
  rfl
/-- The product over a zero accumulator, read at an index, as a sum over the contracted axis. -/
theorem dC_apply {φ₁ φ₂ : FTy} (lhs : FVec Ideal S1000x128 φ₁) (rhs : FVec Ideal S1000x2000 φ₂) (i : S128x2000.Idx) :
    FloatOps.matmul dot_S1000x128_S1000x2000_S128x2000_0_0_1_1_n_n none lhs rhs (constant S128x2000 .f32 0x00000000#32) i
      = ∑ k : Fin 1000, lhs (ix2 (n0 := 1000) (n1 := 128) k (i 0)) * rhs (ix2 (n0 := 1000) (n1 := 2000) k (i 1)) := by
  rw [Ideal.matmul_constant_zero_apply, ← Equiv.sum_comp (contrEquiv1 dot_S1000x128_S1000x2000_S128x2000_0_0_1_1_n_n 1000 rfl rfl).symm]
  refine Finset.sum_congr rfl fun k _ => ?_
  have hk := contrEquiv1_symm_val dot_S1000x128_S1000x2000_S128x2000_0_0_1_1_n_n 1000 rfl rfl k
  have el : dot_S1000x128_S1000x2000_S128x2000_0_0_1_1_n_n.lhsIdx i ((contrEquiv1 dot_S1000x128_S1000x2000_S128x2000_0_0_1_1_n_n 1000 rfl rfl).symm k) = ix2 (n0 := 1000) (n1 := 128) k (i 0) := funext fun a => Fin.ext (by
    match a with
    | ⟨0, _⟩ => exact (dC_lhs_0 _ _).trans hk
    | ⟨1, _⟩ => exact dC_lhs_1 _ _)
  have er : dot_S1000x128_S1000x2000_S128x2000_0_0_1_1_n_n.rhsIdx i ((contrEquiv1 dot_S1000x128_S1000x2000_S128x2000_0_0_1_1_n_n 1000 rfl rfl).symm k) = ix2 (n0 := 1000) (n1 := 2000) k (i 1) := funext fun a => Fin.ext (by
    match a with
    | ⟨0, _⟩ => exact (dC_rhs_0 _ _).trans hk
    | ⟨1, _⟩ => exact dC_rhs_1 _ _)
  rw [el, er]
  first | done | rfl

/-! The payloads at the extended reals. -/

theorem pay3_ideal (v : Vec Ideal S400x2000 .f32) : k0_pay3 (F := Ideal) v = v := by
  unfold k0_pay3 k0_pay2
  exact shapeCast_self _ _

theorem pay1_apply (i : S128x2000.Idx) : k0_pay1 (F := Ideal) i = 0 := by
  unfold k0_pay1
  rw [shapeCast_self]
  exact Ideal.ofBits_zero_f32

/-- One point's step: the accumulator plus the block's contribution (features block)ᵀ · (incidence block). -/
theorem pay4_apply (x1 : Vec Ideal S400x2000 .f32) (a : Vec Ideal S128x2000 .f32) (x2 : Vec Ideal S400x128 .f32) (i : S128x2000.Idx) :
    k0_pay4 (F := Ideal) x1 a x2 i
      = a i + ∑ r : Fin 400, x2 (ix2 (n0 := 400) (n1 := 128) r (i 0)) * x1 (ix2 (n0 := 400) (n1 := 2000) r (i 1)) := by
  simp only [k0_pay4, k0_pay2, shapeCast_self, addf_apply, matmul, dA_apply, truncf_apply]
  first | done | rfl

/-- The accumulator, transposed, times a weight matrix. -/
theorem pay6_apply (a : Vec Ideal S128x2000 .f32) (w : Vec Ideal S128x128 .f32) (i : S2000x128.Idx) :
    k0_pay6 (F := Ideal) a w i
      = ∑ d : Fin 128, a (ix2 (n0 := 128) (n1 := 2000) d (i 0)) * w (ix2 (n0 := 128) (n1 := 128) d (i 1)) := by
  simp only [k0_pay6, matmul, dW_apply, truncf_apply]
  refine Finset.sum_congr rfl fun d _ => ?_
  congr 1
  exact transpose_apply [1, 0] a transposes_S128x2000_p1_0_S2000x128 (ix2 (n0 := 2000) (n1 := 128) (i 0) d) (ix2 (n0 := 128) (n1 := 2000) d (i 0)) (fun b => match b with
    | ⟨0, _⟩ => rfl
    | ⟨1, _⟩ => rfl)

/-- One tile's step of the second phase. -/
theorem pay11_apply (h : FVec Ideal S2000x128 .bf16) (tile : Vec Ideal S1000x2000 .bf16) (a : Vec Ideal S128x2000 .f32) (i : S128x2000.Idx) :
    k0_pay11 (F := Ideal) h tile a i
      = a i + ∑ r : Fin 1000, (∑ e : Fin 2000, tile (ix2 (n0 := 1000) (n1 := 2000) r e) * h (ix2 (n0 := 2000) (n1 := 128) e (i 0)))
          * tile (ix2 (n0 := 1000) (n1 := 2000) r (i 1)) := by
  simp only [k0_pay11, shapeCast_self, addf_apply, matmul, dC_apply, dT_apply, truncf_apply]
  first | done | rfl

theorem pay20_apply (a : Vec Ideal S128x2000 .f32) (i : S2000x128.Idx) :
    k0_pay20 (F := Ideal) a i = a (ix2 (n0 := 128) (n1 := 2000) (i 1) (i 0)) := by
  unfold k0_pay20
  exact transpose_apply [1, 0] a transposes_S128x2000_p1_0_S2000x128 i (ix2 (n0 := 128) (n1 := 2000) (i 1) (i 0)) (fun b => match b with
    | ⟨0, _⟩ => rfl
    | ⟨1, _⟩ => rfl)

theorem pay21_eq (a : Vec Ideal S128x2000 .f32) (w : Vec Ideal S128x128 .f32) : k0_pay21 (F := Ideal) a w = k0_pay6 a w := rfl

/-- One tile of the first result: the tile times (second result times second weight matrix). -/
theorem pay25_apply (h : FVec Ideal S2000x128 .bf16) (tile : Vec Ideal S1000x2000 .bf16) (i : S1000x128.Idx) :
    k0_pay25 (F := Ideal) h tile i
      = ∑ e : Fin 2000, tile (ix2 (n0 := 1000) (n1 := 2000) (i 0) e) * h (ix2 (n0 := 2000) (n1 := 128) e (i 1)) := by
  simp only [k0_pay25, matmul, dT_apply]
  first | done | rfl

end Cert.KernelIdeal.Hand

end
-- ==== Proof.KI.ValueM.lean ====
/-
  The kernel's closed forms at the extended reals, in the argument arrays. A block of an input window is the array's
  rows at the point's offset; the copy's closed form is the incidence matrix itself; the accumulator after 25 points is,
  entry (d, e), the sum over all 10000 nodes of feature d times incidence e — the 25 blocks' sums are one sum —; and so on
  through the second phase: six stages, each a sum of products of the stage before, named here once as functions of row
  and column numbers (the hyperedge features; those times the first weight matrix; the incidence matrix times that; its
  transposed aggregate, the second result; that times the second weight matrix; the incidence matrix times that, the
  first result). The two results' buffers at the last point hold the last and the fourth of these.
-/
import proofs.«178351_g7198365188796_cont_9to1_m_585_8_alg».proof.Proof.KI.ValueK

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

/-- The four argument arrays by row and column number: incidence, features, the two weight matrices. -/
def bN (r e : ℕ) : EReal := ((m ((c : Thread nD τ).loc main_arg1)) : (⟨S10000x2000, .f32⟩ : BufTy).Contents (Elt Ideal)) (ixN 10000 2000 (by decide) (by decide) r e)
def xN (r d : ℕ) : EReal := ((m ((c : Thread nD τ).loc main_arg0)) : (⟨S10000x128, .f32⟩ : BufTy).Contents (Elt Ideal)) (ixN 10000 128 (by decide) (by decide) r d)
def w1N (d j : ℕ) : EReal := ((m ((c : Thread nD τ).loc main_arg2)) : (⟨S128x128, .f32⟩ : BufTy).Contents (Elt Ideal)) (ixN 128 128 (by decide) (by decide) d j)
def w2N (d j : ℕ) : EReal := ((m ((c : Thread nD τ).loc main_arg3)) : (⟨S128x128, .f32⟩ : BufTy).Contents (Elt Ideal)) (ixN 128 128 (by decide) (by decide) d j)

/-- The six stages. -/
def sX1 (e d : ℕ) : EReal := ∑ n ∈ Finset.range 10000, bN m c n e * xN m c n d
def sH1 (e j : ℕ) : EReal := ∑ d ∈ Finset.range 128, sX1 m c e d * w1N m c d j
def sX0p (n j : ℕ) : EReal := ∑ e ∈ Finset.range 2000, bN m c n e * sH1 m c e j
def sX1p (e j : ℕ) : EReal := ∑ n ∈ Finset.range 10000, bN m c n e * sX0p m c n j
def sH2 (e j : ℕ) : EReal := ∑ d ∈ Finset.range 128, sX1p m c e d * w2N m c d j
def sX0pp (n j : ℕ) : EReal := ∑ e ∈ Finset.range 2000, bN m c n e * sH2 m c e j

/-- The windows' block indices at a point: the first two move with the point, the weights' stay. -/
theorem widx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem blkB_apply (t : Fin cfg0.N) (x : S400x2000.Idx) :
    blkB m c t x = bN m c (400 * t.val + (x 0).val) (x 1).val := by
  obtain ⟨e00, e01, e10, e11, e20, e21, e30, e31⟩ := widx t
  have ht : t.val < 25 := lt_of_lt_of_eq t.isLt N_0
  have h0 := idx2_lt0 x
  have h1 := idx2_lt1 x
  unfold bN
  exact congrArg (m ((c : Thread nD τ).loc main_arg1)) (funext fun a => Fin.ext (by
    match a with
    | ⟨0, _⟩ => show win0_0.index t (0 : Fin 2) * 400 + 1 * (x 0).val = (400 * t.val + (x 0).val) % 10000; omega
    | ⟨1, _⟩ => show win0_0.index t (1 : Fin 2) * 2000 + 1 * (x 1).val = (x 1).val % 2000; omega))
theorem blkX_apply (t : Fin cfg0.N) (x : S400x128.Idx) :
    blkX m c t x = xN m c (400 * t.val + (x 0).val) (x 1).val := by
  obtain ⟨e00, e01, e10, e11, e20, e21, e30, e31⟩ := widx t
  have ht : t.val < 25 := lt_of_lt_of_eq t.isLt N_0
  have h0 := idx2_lt0 x
  have h1 := idx2_lt1 x
  unfold xN
  exact congrArg (m ((c : Thread nD τ).loc main_arg0)) (funext fun a => Fin.ext (by
    match a with
    | ⟨0, _⟩ => show win0_1.index t (0 : Fin 2) * 400 + 1 * (x 0).val = (400 * t.val + (x 0).val) % 10000; omega
    | ⟨1, _⟩ => show win0_1.index t (1 : Fin 2) * 128 + 1 * (x 1).val = (x 1).val % 128; omega))
theorem blkW1_apply (t : Fin cfg0.N) (x : S128x128.Idx) :
    blkW1 m c t x = w1N m c ((x 0).val) (x 1).val := by
  obtain ⟨e00, e01, e10, e11, e20, e21, e30, e31⟩ := widx t
  have ht : t.val < 25 := lt_of_lt_of_eq t.isLt N_0
  have h0 := idx2_lt0 x
  have h1 := idx2_lt1 x
  unfold w1N
  exact congrArg (m ((c : Thread nD τ).loc main_arg2)) (funext fun a => Fin.ext (by
    match a with
    | ⟨0, _⟩ => show win0_2.index t (0 : Fin 2) * 128 + 1 * (x 0).val = ((x 0).val) % 128; omega
    | ⟨1, _⟩ => show win0_2.index t (1 : Fin 2) * 128 + 1 * (x 1).val = (x 1).val % 128; omega))
theorem blkW2_apply (t : Fin cfg0.N) (x : S128x128.Idx) :
    blkW2 m c t x = w2N m c ((x 0).val) (x 1).val := by
  obtain ⟨e00, e01, e10, e11, e20, e21, e30, e31⟩ := widx t
  have ht : t.val < 25 := lt_of_lt_of_eq t.isLt N_0
  have h0 := idx2_lt0 x
  have h1 := idx2_lt1 x
  unfold w2N
  exact congrArg (m ((c : Thread nD τ).loc main_arg3)) (funext fun a => Fin.ext (by
    match a with
    | ⟨0, _⟩ => show win0_3.index t (0 : Fin 2) * 128 + 1 * (x 0).val = ((x 0).val) % 128; omega
    | ⟨1, _⟩ => show win0_3.index t (1 : Fin 2) * 128 + 1 * (x 1).val = (x 1).val % 128; omega))

theorem N25 : cfg0.N = 25 := N_0

/-- The copy's closed form is the incidence matrix. -/
theorem Bcopy_apply (y : S10000x2000.Idx) : Bcopy m c y = bN m c (y 0).val (y 1).val := by
  have hy := idx2_lt0 y
  have hy1 := idx2_lt1 y
  have hlt : (y 0).val / 400 < cfg0.N := by rw [N25]; omega
  unfold Bcopy
  rw [pay3_ideal, show blkBn m c ((y 0).val / 400) = blkB m c ⟨(y 0).val / 400, hlt⟩ from dif_pos hlt, blkB_apply]
  show bN m c (400 * ((y 0).val / 400) + ((y 0).val % 400) % 400) ((y 1).val % 2000) = _
  congr 1 <;> omega

theorem tileO_apply (o : ℕ) (ho : o + 1000 ≤ 10000) (x : S1000x2000.Idx) :
    tileO m c o x = bN m c (o + (x 0).val) (x 1).val := by
  have h0 := idx2_lt0 x
  have h1 := idx2_lt1 x
  unfold tileO
  rw [Bcopy_apply]
  show bN m c ((o + (x 0).val) % 10000) ((x 1).val % 2000) = _
  congr 1 <;> omega

/-- The accumulator after n points: the n blocks' contributions, one sum per block. -/
theorem acc1_apply (i : S128x2000.Idx) : ∀ n, n ≤ 25 →
    acc1 m c n i = ∑ t ∈ Finset.range n, ∑ r ∈ Finset.range 400, xN m c (400 * t + r) (i 0).val * bN m c (400 * t + r) (i 1).val
  | 0, _ => by show k0_pay1 i = _; rw [pay1_apply]; simp
  | n + 1, hn => by
    have hlt : n < cfg0.N := by rw [N25]; omega
    show k0_pay4 (blkBn m c n) (acc1 m c n) (blkXn m c n) i = _
    rw [pay4_apply, acc1_apply i n (by omega), Finset.sum_range_succ]
    congr 1
    rw [show blkBn m c n = blkB m c ⟨n, hlt⟩ from dif_pos hlt, show blkXn m c n = blkX m c ⟨n, hlt⟩ from dif_pos hlt]
    refine (Finset.sum_congr rfl fun r _ => ?_).trans
      (Fin.sum_univ_eq_sum_range (fun r => xN m c (400 * n + r) (i 0).val * bN m c (400 * n + r) (i 1).val) 400)
    rw [blkX_apply, blkB_apply]
    first | done | rfl

/-- After all 25 points: entry (d, e) is the hyperedge features' entry (e, d). -/
theorem acc25_apply (i : S128x2000.Idx) : acc1 m c 25 i = sX1 m c (i 1).val (i 0).val := by
  rw [acc1_apply m c i 25 (le_refl _)]
  unfold sX1
  refine (sum_blocks 25 400 (fun n => xN m c n (i 0).val * bN m c n (i 1).val)).trans ?_
  exact Finset.sum_congr rfl fun n _ => mul_comm _ _

/-- The hyperedge features times the first weight matrix. -/
theorem h1_apply (t : Fin cfg0.N) (i : S2000x128.Idx) :
    k0_pay6 (acc1 m c 25) (blkW1 m c t) i = sH1 m c (i 0).val (i 1).val := by
  rw [pay6_apply]
  unfold sH1
  refine (Finset.sum_congr rfl fun d _ => ?_).trans
    (Fin.sum_univ_eq_sum_range (fun d => sX1 m c (i 0).val d * w1N m c d (i 1).val) 128)
  rw [acc25_apply, blkW1_apply]
  first | done | rfl

/-- The second phase's accumulation, by the number of tiles done. -/
def accRec (h1 : FVec Ideal S2000x128 .bf16) (T : ℕ → Vec Ideal S1000x2000 .bf16) : ℕ → FVec Ideal S128x2000 .f32
  | 0 => k0_pay1
  | k + 1 => k0_pay11 h1 (T k) (accRec h1 T k)

theorem accTop_eq (w1 : Vec Ideal S128x128 .f32) :
    accTop m c w1 = accRec (k0_pay6 (acc1 m c 25) w1) (fun k => tileO m c (1000 * k)) 10 := rfl

theorem accRec_apply (h1 : FVec Ideal S2000x128 .bf16) (T : ℕ → Vec Ideal S1000x2000 .bf16) (i : S128x2000.Idx) : ∀ k,
    accRec h1 T k i = ∑ k' ∈ Finset.range k, ∑ r : Fin 1000,
      (∑ e : Fin 2000, T k' (ix2 (n0 := 1000) (n1 := 2000) r e) * h1 (ix2 (n0 := 2000) (n1 := 128) e (i 0)))
        * T k' (ix2 (n0 := 1000) (n1 := 2000) r (i 1))
  | 0 => by show k0_pay1 i = _; rw [pay1_apply]; simp
  | k + 1 => by
    show k0_pay11 h1 (T k) (accRec h1 T k) i = _
    rw [pay11_apply, accRec_apply h1 T i k, Finset.sum_range_succ]

/-- One tile's rows of the incidence matrix times (hyperedge features times first weights): rows of the third stage. -/
theorem tile_h1 (t : Fin cfg0.N) (k : ℕ) (hk : k < 10) (r : Fin 1000) (j : ℕ) (hj : j < 128) :
    (∑ e : Fin 2000, tileO m c (1000 * k) (ix2 (n0 := 1000) (n1 := 2000) r e)
        * k0_pay6 (acc1 m c 25) (blkW1 m c t) (ix2 (n0 := 2000) (n1 := 128) e ⟨j, hj⟩))
      = sX0p m c (1000 * k + r.val) j := by
  unfold sX0p
  refine (Finset.sum_congr rfl fun e _ => ?_).trans
    (Fin.sum_univ_eq_sum_range (fun e => bN m c (1000 * k + r.val) e * sH1 m c e j) 2000)
  rw [tileO_apply m c (1000 * k) (by omega), h1_apply]
  first | done | rfl

/-- The transposed accumulator after the second phase: entry (j, e) is the second result's entry (e, j). -/
theorem accTop_apply (t : Fin cfg0.N) (i : S128x2000.Idx) :
    accTop m c (blkW1 m c t) i = sX1p m c (i 1).val (i 0).val := by
  have hi0 := idx2_lt0 i
  rw [accTop_eq, accRec_apply]
  have step : ∀ k ∈ Finset.range 10, (∑ r : Fin 1000,
      (∑ e : Fin 2000, tileO m c (1000 * k) (ix2 (n0 := 1000) (n1 := 2000) r e)
          * k0_pay6 (acc1 m c 25) (blkW1 m c t) (ix2 (n0 := 2000) (n1 := 128) e (i 0)))
        * tileO m c (1000 * k) (ix2 (n0 := 1000) (n1 := 2000) r (i 1)))
      = ∑ r ∈ Finset.range 1000, sX0p m c (1000 * k + r) (i 0).val * bN m c (1000 * k + r) (i 1).val := by
    intro k hk
    have hk' : k < 10 := Finset.mem_range.mp hk
    refine (Finset.sum_congr rfl fun r _ => ?_).trans
      (Fin.sum_univ_eq_sum_range (fun r => sX0p m c (1000 * k + r) (i 0).val * bN m c (1000 * k + r) (i 1).val) 1000)
    rw [show (i 0) = (⟨(i 0).val, hi0⟩ : Fin 128) from rfl, tile_h1 m c t k hk' r (i 0).val hi0,
      tileO_apply m c (1000 * k) (by omega)]
    first | done | rfl
  rw [Finset.sum_congr rfl step]
  unfold sX1p
  refine (sum_blocks 10 1000 (fun n => sX0p m c n (i 0).val * bN m c n (i 1).val)).trans ?_
  exact Finset.sum_congr rfl fun n _ => mul_comm _ _

/-- The second result. -/
theorem res2_apply (t : Fin cfg0.N) (i : S2000x128.Idx) :
    k0_pay20 (accTop m c (blkW1 m c t)) i = sX1p m c (i 0).val (i 1).val := by
  rw [pay20_apply, accTop_apply]
  first | done | rfl

/-- The second result times the second weight matrix. -/
theorem h2_apply (t : Fin cfg0.N) (i : S2000x128.Idx) :
    k0_pay21 (accTop m c (blkW1 m c t)) (blkW2 m c t) i = sH2 m c (i 0).val (i 1).val := by
  rw [pay21_eq, pay6_apply]
  unfold sH2
  refine (Finset.sum_congr rfl fun d _ => ?_).trans
    (Fin.sum_univ_eq_sum_range (fun d => sX1p m c (i 0).val d * w2N m c d (i 1).val) 128)
  rw [accTop_apply, blkW2_apply]
  first | done | rfl

/-- One tile of the first result. -/
theorem res_tile_apply (t : Fin cfg0.N) (o : ℕ) (ho : o + 1000 ≤ 10000) (x : S1000x128.Idx) :
    k0_pay25 (k0_pay21 (accTop m c (blkW1 m c t)) (blkW2 m c t)) (tileO m c o) x = sX0pp m c (o + (x 0).val) (x 1).val := by
  rw [pay25_apply]
  unfold sX0pp
  refine (Finset.sum_congr rfl fun e _ => ?_).trans
    (Fin.sum_univ_eq_sum_range (fun e => bN m c (o + (x 0).val) e * sH2 m c e (x 1).val) 2000)
  rw [tileO_apply m c o ho, h2_apply]
  first | done | rfl

end Cert.KernelIdeal.Hand

end
-- ==== Proof.KI.Out.lean ====
/-
  The two result arrays after the run, at the extended reals. What the last point leaves in the second result's buffer is its
  one whole-buffer piece, the transposed accumulator: the fourth stage. What it leaves in the first result's buffer is ten
  1000-row pieces that all agree with one function of the row and column, the sixth stage. Each result window is written
  back once, at the last point, and its block is the whole array, so the arrays end holding exactly these.
-/
import proofs.«178351_g7198365188796_cont_9to1_m_585_8_alg».proof.Proof.KI.ValueM

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

theorem out6_apply (t : Fin cfg0.N) (i : S2000x128.Idx) : out6At m c t i = sX1p m c (i 0).val (i 1).val := by
  unfold out6At res2Pieces
  exact (congrFun (read_full_cons VO6 VO6.junk inb_S2000x128_S2000x128_0_0 _ []) i).trans (res2_apply m c t i)

set_option maxHeartbeats 1000000 in
theorem out5_apply (t : Fin cfg0.N) (i : S10000x128.Idx) : out5At m c t i = sX0pp m c (i 0).val (i 1).val := by
  unfold out5At
  refine View.read_writes_apply_of_pieces (Val := Elt Ideal) VO5 VO5.junk (fun y : S10000x128.Idx => (sX0pp m c (y 0).val (y 1).val : Elt Ideal .f32)) _ ?_ i (cover5 _ _ _ _ _ _ _ _ _ _ _ i)
  intro p hp x
  unfold resPieces at hp
  simp only [List.mem_cons, List.not_mem_nil, or_false] at hp
  rcases hp with rfl | rfl | rfl | rfl | rfl | rfl | rfl | rfl | rfl | rfl
  · refine (res_tile_apply m c t 9000 (by omega) x).trans ?_
    show sX0pp m c (9000 + (x 0).val) (x 1).val = sX0pp m c (9000 + 1 * (x 0).val) (0 + 1 * (x 1).val)
    simp only [Nat.one_mul, Nat.zero_add]
  · refine (res_tile_apply m c t 8000 (by omega) x).trans ?_
    show sX0pp m c (8000 + (x 0).val) (x 1).val = sX0pp m c (8000 + 1 * (x 0).val) (0 + 1 * (x 1).val)
    simp only [Nat.one_mul, Nat.zero_add]
  · refine (res_tile_apply m c t 7000 (by omega) x).trans ?_
    show sX0pp m c (7000 + (x 0).val) (x 1).val = sX0pp m c (7000 + 1 * (x 0).val) (0 + 1 * (x 1).val)
    simp only [Nat.one_mul, Nat.zero_add]
  · refine (res_tile_apply m c t 6000 (by omega) x).trans ?_
    show sX0pp m c (6000 + (x 0).val) (x 1).val = sX0pp m c (6000 + 1 * (x 0).val) (0 + 1 * (x 1).val)
    simp only [Nat.one_mul, Nat.zero_add]
  · refine (res_tile_apply m c t 5000 (by omega) x).trans ?_
    show sX0pp m c (5000 + (x 0).val) (x 1).val = sX0pp m c (5000 + 1 * (x 0).val) (0 + 1 * (x 1).val)
    simp only [Nat.one_mul, Nat.zero_add]
  · refine (res_tile_apply m c t 4000 (by omega) x).trans ?_
    show sX0pp m c (4000 + (x 0).val) (x 1).val = sX0pp m c (4000 + 1 * (x 0).val) (0 + 1 * (x 1).val)
    simp only [Nat.one_mul, Nat.zero_add]
  · refine (res_tile_apply m c t 3000 (by omega) x).trans ?_
    show sX0pp m c (3000 + (x 0).val) (x 1).val = sX0pp m c (3000 + 1 * (x 0).val) (0 + 1 * (x 1).val)
    simp only [Nat.one_mul, Nat.zero_add]
  · refine (res_tile_apply m c t 2000 (by omega) x).trans ?_
    show sX0pp m c (2000 + (x 0).val) (x 1).val = sX0pp m c (2000 + 1 * (x 0).val) (0 + 1 * (x 1).val)
    simp only [Nat.one_mul, Nat.zero_add]
  · refine (res_tile_apply m c t 1000 (by omega) x).trans ?_
    show sX0pp m c (1000 + (x 0).val) (x 1).val = sX0pp m c (1000 + 1 * (x 0).val) (0 + 1 * (x 1).val)
    simp only [Nat.one_mul, Nat.zero_add]
  · refine (res_tile_apply m c t 0 (by omega) x).trans ?_
    show sX0pp m c (0 + (x 0).val) (x 1).val = sX0pp m c (0 + 1 * (x 0).val) (0 + 1 * (x 1).val)
    simp only [Nat.one_mul, Nat.zero_add]

/-- The last point. -/
def t24 : Fin cfg0.N := ⟨24, by decide⟩

theorem widx45 : ∀ t : Fin cfg0.N, win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

set_option maxHeartbeats 1000000 in
theorem flushed4 (t : Fin cfg0.N) (h : (cfg0.win 4).flush t = true) :
    (dats m 0 c).flushed 4 t = ((cfg0.win 4).blk t).view.read (Elt Ideal) (out5At m c t24) := by
  have e : t = t24 := Fin.ext (by
    have := (flush0_4 t).mp h
    have ht : t.val < 25 := lt_of_lt_of_eq t.isLt N_0
    show t.val = 24; omega)
  subst e
  obtain ⟨e40, e41, e50, e51⟩ := widx45 t24
  show (cfg0.win 4).cut (grid0.coords t24) ((dats m 0 c).after 4 t24) = _
  rw [after4]
  funext x
  have h0 := idx2_lt0 x
  have h1 := idx2_lt1 x
  show out5At m c t24 x = out5At m c t24 (((cfg0.win 4).blk t24).view.emb x)
  refine congrArg _ (funext fun a => Fin.ext ?_)
  match a with
  | ⟨0, _⟩ => show (x 0).val = win0_4.index t24 (0 : Fin 2) * 10000 + 1 * (x 0).val; omega
  | ⟨1, _⟩ => show (x 1).val = win0_4.index t24 (1 : Fin 2) * 128 + 1 * (x 1).val; omega

set_option maxHeartbeats 1000000 in
/-- The array after the run. -/
theorem final4 : (dats m 0 c).arrAt 4 cfg0.N = out5At m c t24 :=
  (dats m 0 c).arrAt_eq_of_cover 4 (out5At m c t24) (fun t h => flushed4 m c t h) (fun i => ⟨t24, (flush0_4 t24).mpr (by decide), by
    obtain ⟨e40, e41, e50, e51⟩ := widx45 t24
    have h0 := idx2_lt0 i
    have h1 := idx2_lt1 i
    show i ∈ ((View.whole main_v0_0).slice (win0_4.rect t24)).set
    rw [View.set_slice_whole, Rect.mem_set_unit]
    intro a
    match a with
    | ⟨0, _⟩ => show win0_4.index t24 (0 : Fin 2) * 10000 ≤ (i 0).val ∧ (i 0).val < win0_4.index t24 (0 : Fin 2) * 10000 + 10000; omega
    | ⟨1, _⟩ => show win0_4.index t24 (1 : Fin 2) * 128 ≤ (i 1).val ∧ (i 1).val < win0_4.index t24 (1 : Fin 2) * 128 + 128; omega⟩)

set_option maxHeartbeats 1000000 in
theorem flushed5 (t : Fin cfg0.N) (h : (cfg0.win 5).flush t = true) :
    (dats m 0 c).flushed 5 t = ((cfg0.win 5).blk t).view.read (Elt Ideal) (out6At m c t24) := by
  have e : t = t24 := Fin.ext (by
    have := (flush0_5 t).mp h
    have ht : t.val < 25 := lt_of_lt_of_eq t.isLt N_0
    show t.val = 24; omega)
  subst e
  obtain ⟨e40, e41, e50, e51⟩ := widx45 t24
  show (cfg0.win 5).cut (grid0.coords t24) ((dats m 0 c).after 5 t24) = _
  rw [after5]
  funext x
  have h0 := idx2_lt0 x
  have h1 := idx2_lt1 x
  show out6At m c t24 x = out6At m c t24 (((cfg0.win 5).blk t24).view.emb x)
  refine congrArg _ (funext fun a => Fin.ext ?_)
  match a with
  | ⟨0, _⟩ => show (x 0).val = win0_5.index t24 (0 : Fin 2) * 2000 + 1 * (x 0).val; omega
  | ⟨1, _⟩ => show (x 1).val = win0_5.index t24 (1 : Fin 2) * 128 + 1 * (x 1).val; omega

set_option maxHeartbeats 1000000 in
/-- The array after the run. -/
theorem final5 : (dats m 0 c).arrAt 5 cfg0.N = out6At m c t24 :=
  (dats m 0 c).arrAt_eq_of_cover 5 (out6At m c t24) (fun t h => flushed5 m c t h) (fun i => ⟨t24, (flush0_5 t24).mpr (by decide), by
    obtain ⟨e40, e41, e50, e51⟩ := widx45 t24
    have h0 := idx2_lt0 i
    have h1 := idx2_lt1 i
    show i ∈ ((View.whole main_v0_1).slice (win0_5.rect t24)).set
    rw [View.set_slice_whole, Rect.mem_set_unit]
    intro a
    match a with
    | ⟨0, _⟩ => show win0_5.index t24 (0 : Fin 2) * 2000 ≤ (i 0).val ∧ (i 0).val < win0_5.index t24 (0 : Fin 2) * 2000 + 2000; omega
    | ⟨1, _⟩ => show win0_5.index t24 (1 : Fin 2) * 128 ≤ (i 1).val ∧ (i 1).val < win0_5.index t24 (1 : Fin 2) * 128 + 128; omega⟩)

end Cert.KernelIdeal.Hand

end
-- ==== Proof.RefStages.lean ====
/-
  The reference at the extended reals, one stage at a time. Its seven products are, read at an index, sums over the
  contracted axis (the generated read-at-an-index lemmas); in row and column numbers they are six stages, each a sum of
  products of the stage before: the hyperedge features Bᵀ·x; those times the first weight matrix; the incidence matrix
  times that; its transposed aggregate, the second result; that times the second weight matrix; the incidence matrix times
  that, the first result. The stages are stated over any four argument arrays.
-/
import proofs.«178351_g7198365188796_cont_9to1_m_585_8_alg».proof.Proof.KI.Out
import proofs.«178351_g7198365188796_cont_9to1_m_585_8_alg».proof.Proof.Gen.ReferenceIdeal.Read

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open Cert.KernelIdeal.Hand (ixN ixN_self)

/-- A rank-2 index is the total index at its own coordinates. -/
theorem ixN_eq {n0 n1 : ℕ} (h0 : 0 < n0) (h1 : 0 < n1) (y : (⟨2, ![n0, n1]⟩ : Shape).Idx) (a b : ℕ)
    (ha : (y 0).val = a) (hb : (y 1).val = b) : y = ixN n0 n1 h0 h1 a b := by
  subst ha hb; exact (ixN_self h0 h1 y).symm

variable (x0 : (⟨S10000x128, .f32⟩ : BufTy).Contents (Elt Ideal)) (x1 : (⟨S10000x2000, .f32⟩ : BufTy).Contents (Elt Ideal)) (x2 x3 : (⟨S128x128, .f32⟩ : BufTy).Contents (Elt Ideal))

/-- The arrays by row and column number. -/
def gX (r d : ℕ) : EReal := x0 (ixN 10000 128 (by decide) (by decide) r d)
def gB (r e : ℕ) : EReal := x1 (ixN 10000 2000 (by decide) (by decide) r e)
def gW (w : (⟨S128x128, .f32⟩ : BufTy).Contents (Elt Ideal)) (d j : ℕ) : EReal := w (ixN 128 128 (by decide) (by decide) d j)

/-- The six stages. -/
def tX1 (e d : ℕ) : EReal := ∑ n ∈ Finset.range 10000, gB x1 n e * gX x0 n d
def tH1 (e j : ℕ) : EReal := ∑ d ∈ Finset.range 128, tX1 x0 x1 e d * gW x2 d j
def tX0p (n j : ℕ) : EReal := ∑ e ∈ Finset.range 2000, gB x1 n e * tH1 x0 x1 x2 e j
def tX1p (e j : ℕ) : EReal := ∑ n ∈ Finset.range 10000, gB x1 n e * tX0p x0 x1 x2 n j
def tH2 (e j : ℕ) : EReal := ∑ d ∈ Finset.range 128, tX1p x0 x1 x2 e d * gW x3 d j
def tX0pp (n j : ℕ) : EReal := ∑ e ∈ Finset.range 2000, gB x1 n e * tH2 x0 x1 x2 x3 e j

theorem r1 (i : S2000x128.Idx) : val_main_v1 (F := Ideal) x0 x1 i = tX1 x0 x1 (i 0).val (i 1).val := by
  rw [val_main_v1_apply]
  unfold tX1
  refine (Finset.sum_congr rfl fun k _ => ?_).trans
    (Fin.sum_univ_eq_sum_range (fun n => gB x1 n (i 0).val * gX x0 n (i 1).val) 10000)
  rw [val_main_v0_apply]
  exact congrArg₂ (· * ·) (congrArg x1 (ixN_eq _ _ _ _ _ rfl rfl)) (congrArg x0 (ixN_eq _ _ _ _ _ rfl rfl))

theorem r2 (i : S2000x128.Idx) : val_main_v2 (F := Ideal) x0 x1 x2 i = tH1 x0 x1 x2 (i 0).val (i 1).val := by
  rw [val_main_v2_apply]
  unfold tH1
  refine (Finset.sum_congr rfl fun k _ => ?_).trans
    (Fin.sum_univ_eq_sum_range (fun d => tX1 x0 x1 (i 0).val d * gW x2 d (i 1).val) 128)
  rw [r1]
  exact congrArg₂ (· * ·) rfl (congrArg x2 (ixN_eq _ _ _ _ _ rfl rfl))

theorem r3 (i : S10000x128.Idx) : val_main_v3 (F := Ideal) x0 x1 x2 i = tX0p x0 x1 x2 (i 0).val (i 1).val := by
  rw [val_main_v3_apply]
  unfold tX0p
  refine (Finset.sum_congr rfl fun k _ => ?_).trans
    (Fin.sum_univ_eq_sum_range (fun e => gB x1 (i 0).val e * tH1 x0 x1 x2 e (i 1).val) 2000)
  rw [r2]
  exact congrArg₂ (· * ·) (congrArg x1 (ixN_eq _ _ _ _ _ rfl rfl)) rfl

theorem r5 (i : S2000x128.Idx) : val_main_v5 (F := Ideal) x0 x1 x2 i = tX1p x0 x1 x2 (i 0).val (i 1).val := by
  rw [val_main_v5_apply]
  unfold tX1p
  refine (Finset.sum_congr rfl fun k _ => ?_).trans
    (Fin.sum_univ_eq_sum_range (fun n => gB x1 n (i 0).val * tX0p x0 x1 x2 n (i 1).val) 10000)
  rw [val_main_v4_apply, r3]
  exact congrArg₂ (· * ·) (congrArg x1 (ixN_eq _ _ _ _ _ rfl rfl)) rfl

theorem r6 (i : S2000x128.Idx) : val_main_v6 (F := Ideal) x0 x1 x2 x3 i = tH2 x0 x1 x2 x3 (i 0).val (i 1).val := by
  rw [val_main_v6_apply]
  unfold tH2
  refine (Finset.sum_congr rfl fun k _ => ?_).trans
    (Fin.sum_univ_eq_sum_range (fun d => tX1p x0 x1 x2 (i 0).val d * gW x3 d (i 1).val) 128)
  rw [r5]
  exact congrArg₂ (· * ·) rfl (congrArg x3 (ixN_eq _ _ _ _ _ rfl rfl))

theorem r7 (i : S10000x128.Idx) : val_main_v7 (F := Ideal) x0 x1 x2 x3 i = tX0pp x0 x1 x2 x3 (i 0).val (i 1).val := by
  rw [val_main_v7_apply]
  unfold tX0pp
  refine (Finset.sum_congr rfl fun k _ => ?_).trans
    (Fin.sum_univ_eq_sum_range (fun e => gB x1 (i 0).val e * tH2 x0 x1 x2 x3 e (i 1).val) 2000)
  rw [r6]
  exact congrArg₂ (· * ·) (congrArg x1 (ixN_eq _ _ _ _ _ rfl rfl)) rfl

end Cert.ReferenceIdeal.RefValue

end
-- ==== Proof.K.Shared.lean ====
/-
  The kernel as printed has the same text as its idealization, in a namespace of its own: the development is the
  idealized kernel's, restated over it and read at the word-level instance.
  What the three runs of the word-level kernel's body share: its two branch conditions as propositions over the grid
  coordinate (the accumulator is reset at the first point only; the second phase runs at the last point only) with their
  closed forms over the 25 points, where the two result windows are idle and where they are written back, the staging
  and scratch memrefs under short names, and the region's class invariant restated over the two scratch memrefs.
-/
import proofs.«178351_g7198365188796_cont_9to1_m_585_8_alg».proof.Proof.RefStages
import proofs.«178351_g7198365188796_cont_9to1_m_585_8_alg».proof.Proof.Gen.Kernel.Frame
import proofs.«178351_g7198365188796_cont_9to1_m_585_8_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition: the grid coordinate is 0 (the accumulator is zeroed there). -/
abbrev condFirst (i : grid0.Coords) : Prop :=
  Scalar.cmpi .ne (Scalar.extui (Scalar.cmpi .eq (BitVec.ofNat 32 (i 0).val) 0#32)) 0#32 = 1#1
/-- The second conditional's condition: the grid coordinate is 24 (the second phase runs there). -/
abbrev condLast (i : grid0.Coords) : Prop := k0_cond2 i = 1#1

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 24 :=
  (by decide +kernel : ∀ t : Fin grid0.N, condLast (grid0.coords t) ↔ t.val = 24)

/-- Row offset of the slice of the copied incidence matrix that point `t` stores: `400 t`. -/
theorem hoff : ∀ t : Fin cfg0.N, k0_off1 (grid0.coords t) = ![400 * t.val, 0] :=
  (by decide +kernel : ∀ t : Fin grid0.N, k0_off1 (grid0.coords t) = ![400 * t.val, 0])

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem idleAt4 : ∀ t : Fin cfg0.N, ¬condLast (grid0.coords t) → cfg0.idle 4 (grid0.coords t) = true := by decide +kernel
theorem idleAt5 : ∀ t : Fin cfg0.N, ¬condLast (grid0.coords t) → cfg0.idle 5 (grid0.coords t) = true := by decide +kernel
theorem noFlush4 : ∀ t : Fin cfg0.N, ¬condLast (grid0.coords t) → (cfg0.win 4).flush t = false := by decide +kernel
theorem noFlush5 : ∀ t : Fin cfg0.N, ¬condLast (grid0.coords t) → (cfg0.win 5).flush t = false := by decide +kernel
theorem liveAt4 : ∀ t : Fin cfg0.N, condLast (grid0.coords t) → cfg0.idle 4 (grid0.coords t) = false := by decide +kernel
theorem liveAt5 : ∀ t : Fin cfg0.N, condLast (grid0.coords t) → cfg0.idle 5 (grid0.coords t) = false := by decide +kernel

/-- Each window's current staging memref at point `t`, as the pipeline passes it, and its wholeness. -/
abbrev ms0 (t : Fin cfg0.N) : Memref sig .tc .vmem S400x2000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S10000x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2000x128 .f32 := win0_5.stage (cfg0.slots t 5)
abbrev hs5 (t : Fin cfg0.N) : (ms5 t).IsWhole := hstage0_5 ((cfg0.slots t 5).cast nbuf0_5)
/-- The two scratch operands: the copy of the incidence matrix and the transposed accumulator. -/
abbrev scB : Memref sig .tc .vmem S10000x2000 .bf16 := Memref.whole cc0_scratch0
abbrev scAcc : Memref sig .tc .vmem S128x2000 .f32 := Memref.whole cc0_scratch1

/-- The class invariant over the two scratch memrefs, each owned at some contents, and the generator register. -/
theorem PhiA_eq (c : Dev nD) :
    (Pipeline.ΦA spec0 c : sProp 𝕄)
      = iprop(iprop((∃ d, owns (c : Thread nD τ) scB fullShare d) ∗ (∃ d, owns (c : Thread nD τ) scAcc fullShare d)) ∗ (∃ r, prngReg c r)) := by
  unfold Pipeline.ΦA; rw [scopedRest0_eq]; simp only [scB, scAcc, owns_whole]; try rfl

end Cert.Kernel.Hand

end
-- ==== Proof.K.RunB.lean ====
/-
  The body at a middle point (grid coordinate neither 0 nor 24): it copies its 400-row block of the incidence matrix,
  rounded, into rows 400 t … 400 t + 399 of the scratch copy, and adds the block's contribution
  (features block)ᵀ · (incidence block) onto the transposed accumulator. The run is stated over what the two scratch
  buffers hold afterwards as functions of what they held before; both functions are found by the run.
-/
import proofs.«178351_g7198365188796_cont_9to1_m_585_8_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a middle point, with what it leaves in the two scratch buffers. -/
noncomputable def runB (c : Dev nD) (i : grid0.Coords) (arg1 : Memref sig .tc .vmem S400x2000 .f32) (harg1 : arg1.IsWhole) (arg2 : Memref sig .tc .vmem S400x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S10000x128 .f32) (harg5 : arg5.IsWhole) (arg6 : Memref sig .tc .vmem S2000x128 .f32) (harg6 : arg6.IsWhole) (arg7 : Memref sig .tc .vmem S10000x2000 .bf16) (harg7 : arg7.IsWhole) (arg8 : Memref sig .tc .vmem S128x2000 .f32) (harg8 : arg8.IsWhole)
    (hc0 : ¬condFirst i) (hc1 : ¬condLast i)
    (x1 : Vec F S400x2000 .f32) (x2 : Vec F S400x128 .f32) :
    Σ' (G7 : Vec F S10000x2000 .bf16 → arg7.view.ty.Contents (Elt F)), { G8 : Vec F S128x2000 .f32 → arg8.view.ty.Contents (Elt F) //
      ∀ (xs7 : Vec F S10000x2000 .bf16) (xs8 : Vec F S128x2000 .f32) (E : Set ℕ) (K : PUnit → sProp 𝕄),
        iprop(owns (c : Thread nD τ) arg1 fullShare x1 ∗ owns (c : Thread nD τ) arg2 fullShare x2
            ∗ owns (c : Thread nD τ) arg7 fullShare xs7 ∗ owns (c : Thread nD τ) arg8 fullShare xs8
            ∗ (iprop(owns (c : Thread nD τ) arg1 fullShare x1 ∗ owns (c : Thread nD τ) arg2 fullShare x2
                ∗ (arg7.view.loc (c : Thread nD τ) ↦[arg7.view.set]{fullShare} G7 xs7)
                ∗ (arg8.view.loc (c : Thread nD τ) ↦[arg8.view.set]{fullShare} G8 xs8)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8) K } := by
  refine ⟨?_, ?_, fun xs7 xs8 E K => ?run⟩
  case run =>
    simp only [cc0__fused_kernel_eq_skeleton]; unfold cc0__fused_kernel_skel
    unfold owns
    iintro ⟨⟨%f1, %hf1, H1⟩, ⟨%f2, %hf2, H2⟩, ⟨%f7, %hf7, H7⟩, ⟨%f8, %hf8, H8⟩, Hk⟩
    obtain rfl := harg1.eq_unread hf1; obtain rfl := harg2.eq_unread hf2
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H7]; · iexact H7
    iexact H8

end Cert.Kernel.Hand

end
-- ==== Proof.K.RunA.lean ====
/-
  The body at the first point (grid coordinate 0): the transposed accumulator is zeroed, the first 400-row block of the
  incidence matrix is copied, rounded, into rows 0 … 399 of the scratch copy, and the block's contribution
  (features block)ᵀ · (incidence block) is added onto the zeroed accumulator. Stated like the middle points' run.
-/
import proofs.«178351_g7198365188796_cont_9to1_m_585_8_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at the first point, with what it leaves in the two scratch buffers. -/
noncomputable def runA (c : Dev nD) (i : grid0.Coords) (arg1 : Memref sig .tc .vmem S400x2000 .f32) (harg1 : arg1.IsWhole) (arg2 : Memref sig .tc .vmem S400x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S10000x128 .f32) (harg5 : arg5.IsWhole) (arg6 : Memref sig .tc .vmem S2000x128 .f32) (harg6 : arg6.IsWhole) (arg7 : Memref sig .tc .vmem S10000x2000 .bf16) (harg7 : arg7.IsWhole) (arg8 : Memref sig .tc .vmem S128x2000 .f32) (harg8 : arg8.IsWhole)
    (hc0 : condFirst i) (hc1 : ¬condLast i)
    (x1 : Vec F S400x2000 .f32) (x2 : Vec F S400x128 .f32) :
    Σ' (G7 : Vec F S10000x2000 .bf16 → arg7.view.ty.Contents (Elt F)), { G8 : Vec F S128x2000 .f32 → arg8.view.ty.Contents (Elt F) //
      ∀ (xs7 : Vec F S10000x2000 .bf16) (xs8 : Vec F S128x2000 .f32) (E : Set ℕ) (K : PUnit → sProp 𝕄),
        iprop(owns (c : Thread nD τ) arg1 fullShare x1 ∗ owns (c : Thread nD τ) arg2 fullShare x2
            ∗ owns (c : Thread nD τ) arg7 fullShare xs7 ∗ owns (c : Thread nD τ) arg8 fullShare xs8
            ∗ (iprop(owns (c : Thread nD τ) arg1 fullShare x1 ∗ owns (c : Thread nD τ) arg2 fullShare x2
                ∗ (arg7.view.loc (c : Thread nD τ) ↦[arg7.view.set]{fullShare} G7 xs7)
                ∗ (arg8.view.loc (c : Thread nD τ) ↦[arg8.view.set]{fullShare} G8 xs8)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8) K } := by
  refine ⟨?_, ?_, fun xs7 xs8 E K => ?run⟩
  case run =>
    simp only [cc0__fused_kernel_eq_skeleton]; unfold cc0__fused_kernel_skel
    unfold owns
    iintro ⟨⟨%f1, %hf1, H1⟩, ⟨%f2, %hf2, H2⟩, ⟨%f7, %hf7, H7⟩, ⟨%f8, %hf8, H8⟩, Hk⟩
    obtain rfl := harg1.eq_unread hf1; obtain rfl := harg2.eq_unread hf2
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H7]; · iexact H7
    iexact H8

end Cert.Kernel.Hand

end
-- ==== Proof.K.RunC.lean ====
/-
  The body at the last point (grid coordinate 24). First as at a middle point: the last 400-row block of the incidence matrix
  is copied into rows 9600 … 9999 of the scratch copy and its contribution added onto the transposed accumulator, which
  then holds (features)ᵀ · (incidence). Then the second phase, all out of the scratch copy in ten 1000-row tiles: the
  hyperedge features times the first weight matrix; the accumulator zeroed and, tile by tile, the tile's node features
  (tile · that product) contracted with the tile again; the accumulator transposed is the second result, stored whole; that
  times the second weight matrix, and tile by tile the tile times it, stored as ten 1000-row pieces of the first result.
  The run is stated over what the two scratch buffers and the two result buffers hold afterwards as functions of what the
  scratch buffers held before; the functions and the result buffers' pieces are found by the run.
-/
import proofs.«178351_g7198365188796_cont_9to1_m_585_8_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body's triple at the last point, with what it leaves in the scratch buffers and the pieces it stores into the results. -/
noncomputable def runC (c : Dev nD) (i : grid0.Coords) (arg1 : Memref sig .tc .vmem S400x2000 .f32) (harg1 : arg1.IsWhole) (arg2 : Memref sig .tc .vmem S400x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S10000x128 .f32) (harg5 : arg5.IsWhole) (arg6 : Memref sig .tc .vmem S2000x128 .f32) (harg6 : arg6.IsWhole) (arg7 : Memref sig .tc .vmem S10000x2000 .bf16) (harg7 : arg7.IsWhole) (arg8 : Memref sig .tc .vmem S128x2000 .f32) (harg8 : arg8.IsWhole)
    (hc0 : ¬condFirst i) (hc1 : condLast i) (hl : k0_off1 i = ![9600, 0])
    (x1 : Vec F S400x2000 .f32) (x2 : Vec F S400x128 .f32) (x3 : Vec F S128x128 .f32) (x4 : Vec F S128x128 .f32) :
    Σ' (G7 : Vec F S10000x2000 .bf16 → Vec F S128x2000 .f32 → arg7.view.ty.Contents (Elt F))
       (G8 : Vec F S10000x2000 .bf16 → Vec F S128x2000 .f32 → arg8.view.ty.Contents (Elt F))
       (L5 : Vec F S10000x2000 .bf16 → Vec F S128x2000 .f32 → List (View.Piece (Elt F) S10000x128 .f32)),
      { L6 : Vec F S10000x2000 .bf16 → Vec F S128x2000 .f32 → List (View.Piece (Elt F) S2000x128 .f32) //
      ∀ (xs7 : Vec F S10000x2000 .bf16) (xs8 : Vec F S128x2000 .f32) (E : Set ℕ) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ owns (c : Thread nD τ) arg7 fullShare xs7 ∗ owns (c : Thread nD τ) arg8 fullShare xs8
            ∗ (iprop(owns (c : Thread nD τ) arg1 fullShare x1 ∗ owns (c : Thread nD τ) arg2 fullShare x2
                ∗ owns (c : Thread nD τ) arg3 fullShare x3 ∗ owns (c : Thread nD τ) arg4 fullShare x4
                ∗ (∃ f, arg5.view.loc (c : Thread nD τ) ↦[arg5.view.set]{fullShare} arg5.view.writes (Elt F) f (L5 xs7 xs8))
                ∗ (∃ f, arg6.view.loc (c : Thread nD τ) ↦[arg6.view.set]{fullShare} arg6.view.writes (Elt F) f (L6 xs7 xs8))
                ∗ (arg7.view.loc (c : Thread nD τ) ↦[arg7.view.set]{fullShare} G7 xs7 xs8)
                ∗ (arg8.view.loc (c : Thread nD τ) ↦[arg8.view.set]{fullShare} G8 xs7 xs8)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8) K } := by
  refine ⟨?_, ?_, ?_, ?_, fun xs7 xs8 E K => ?run⟩
  case run =>
    letI : ClosedOff (k0_off1 i) := ⟨![9600, 0], hl⟩
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2
    obtain rfl := harg3.eq_unread hf3; obtain rfl := harg4.eq_unread hf4
    obtain rfl := harg7.eq_unread hf7; obtain rfl := harg8.eq_unread hf8
    sl_exec_parts (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexact H7
    iexact H8

end Cert.Kernel.Hand

end
-- ==== Proof.K.Norm.lean ====
/-
  The last point's run in normal form. Every accumulation step of the second phase is ONE function of (the hyperedge
  features times the first weight matrix, a 1000-row tile of the copied incidence matrix, the accumulator so far), and every
  stored tile of the first result ONE function of (the second result times the second weight matrix, a tile); the run's
  values, which it names one by one, are rewritten into ten nested steps over the ten tiles it reads, and the pieces it stores
  into the two results into those functions of the tiles. Nothing here depends on the float instance.
-/
import proofs.«178351_g7198365188796_cont_9to1_m_585_8_alg».proof.Proof.K.RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → ℕ) = fun _ => 0 := by
  funext a; match a with | ⟨0, _⟩ => rfl | ⟨1, _⟩ => rfl

/-- A load of a whole rank-2 memref through the whole-shape rectangle reads the contents it is held at. -/
theorem readAt_full2 {sig' : RefSig} {κ : Kind} {sp : Space} {d : Fin 2 → ℕ} {e : EltTy} {Val : EltTy → Type}
    {mm : Memref sig' κ sp (⟨2, d⟩ : Shape) e} (h : mm.IsWhole) (X : (⟨2, d⟩ : Shape).Idx → Val e)
    (inb : ∀ a, (![0, 0] : Fin 2 → ℕ) a + d a ≤ d a) :
    View.readAt Val mm.view (Rect.unit (s := (⟨2, d⟩ : Shape)) ![0, 0] d inb).toLoadRect (h.unread X) = X := by
  rw [View.readAt_eq_ld, h.read_unread]; exact View.ld_unit_zero (S := (⟨2, d⟩ : Shape)) zero2 inb X

/-! The accumulation steps and the result tiles are one function each. -/
theorem pay7_eq : k0_pay7 (F := F) = k0_pay1 := rfl
theorem pay8_eq (a : Vec F S128x2000 .f32) (w : Vec F S128x128 .f32) (t : Vec F S1000x2000 .bf16) (b : Vec F S128x2000 .f32) :
    k0_pay8 a w t b = k0_pay11 (k0_pay6 a w) t b := rfl
theorem pay9_eq (a : Vec F S128x2000 .f32) (w : Vec F S128x128 .f32) (t : Vec F S1000x2000 .bf16) (b : Vec F S128x2000 .f32) :
    k0_pay9 a w t b = k0_pay11 (k0_pay6 a w) t b := rfl
theorem pay10_eq (h : FVec F S2000x128 .bf16) (t : Vec F S1000x2000 .bf16) (b : Vec F S128x2000 .f32) :
    k0_pay10 h t (constant S1000x128 .f32 0x00000000#32) b = k0_pay11 h t b := rfl
theorem pay12_eq : k0_pay12 (F := F) = k0_pay11 := rfl
theorem pay15_eq : k0_pay15 (F := F) = k0_pay11 := rfl
theorem pay16_eq : k0_pay16 (F := F) = k0_pay11 := rfl
theorem pay19_eq : k0_pay19 (F := F) = k0_pay11 := rfl
theorem pay14_eq (h : FVec F S2000x128 .bf16) (t : Vec F S1000x2000 .bf16) (b : Vec F S128x2000 .f32) :
    k0_pay14 t b (k0_pay13 h t) (constant S128x2000 .f32 0x00000000#32) = k0_pay11 h t b := rfl
theorem pay18_eq (h : FVec F S2000x128 .bf16) (t : Vec F S1000x2000 .bf16) (b : Vec F S128x2000 .f32) :
    k0_pay18 (k0_pay17 h t b) = k0_pay11 h t b := rfl
theorem pay22_eq (a : Vec F S128x2000 .f32) (w : Vec F S128x128 .f32) (t : Vec F S1000x2000 .bf16) :
    k0_pay22 a w t = k0_pay25 (k0_pay21 a w) t := rfl
theorem pay23_eq (a : Vec F S128x2000 .f32) (w : Vec F S128x128 .f32) (t : Vec F S1000x2000 .bf16) :
    k0_pay23 a w t = k0_pay25 (k0_pay21 a w) t := rfl
theorem pay24_eq (a : Vec F S128x2000 .f32) (w : Vec F S128x128 .f32) (t : Vec F S1000x2000 .bf16) :
    k0_pay24 a w t = k0_pay25 (k0_pay21 a w) t := rfl
theorem pay26_eq : k0_pay26 (F := F) = k0_pay25 := rfl
theorem pay27_eq : k0_pay27 (F := F) = k0_pay25 := rfl
theorem pay28_eq : k0_pay28 (F := F) = k0_pay25 := rfl
theorem pay29_eq : k0_pay29 (F := F) = k0_pay25 := rfl
theorem pay30_eq : k0_pay30 (F := F) = k0_pay25 := rfl
theorem pay5_eq : k0_pay5 (F := F) = k0_pay25 := rfl

/-- The transposed accumulator after the ten tiles of the second phase, from zero. -/
def accFin (h1 : FVec F S2000x128 .bf16) (t0 t1 t2 t3 t4 t5 t6 t7 t8 t9 : Vec F S1000x2000 .bf16) : FVec F S128x2000 .f32 :=
  k0_pay11 h1 t9 (k0_pay11 h1 t8 (k0_pay11 h1 t7 (k0_pay11 h1 t6 (k0_pay11 h1 t5 (k0_pay11 h1 t4 (k0_pay11 h1 t3 (k0_pay11 h1 t2 (k0_pay11 h1 t1 (k0_pay11 h1 t0 (k0_pay1))))))))))

/-- The ten 1000-row pieces of the first result (last stored first). -/
def resPieces (h2 : FVec F S2000x128 .bf16) (t0 t1 t2 t3 t4 t5 t6 t7 t8 t9 : Vec F S1000x2000 .bf16) : List (View.Piece (Elt F) S10000x128 .f32) :=
  [⟨Rect.unit (s := S10000x128) ![9000, 0] S1000x128.size inb_S10000x128_S1000x128_9000_0, k0_pay25 h2 t9⟩,
   ⟨Rect.unit (s := S10000x128) ![8000, 0] S1000x128.size inb_S10000x128_S1000x128_8000_0, k0_pay25 h2 t8⟩,
   ⟨Rect.unit (s := S10000x128) ![7000, 0] S1000x128.size inb_S10000x128_S1000x128_7000_0, k0_pay25 h2 t7⟩,
   ⟨Rect.unit (s := S10000x128) ![6000, 0] S1000x128.size inb_S10000x128_S1000x128_6000_0, k0_pay25 h2 t6⟩,
   ⟨Rect.unit (s := S10000x128) ![5000, 0] S1000x128.size inb_S10000x128_S1000x128_5000_0, k0_pay25 h2 t5⟩,
   ⟨Rect.unit (s := S10000x128) ![4000, 0] S1000x128.size inb_S10000x128_S1000x128_4000_0, k0_pay25 h2 t4⟩,
   ⟨Rect.unit (s := S10000x128) ![3000, 0] S1000x128.size inb_S10000x128_S1000x128_3000_0, k0_pay25 h2 t3⟩,
   ⟨Rect.unit (s := S10000x128) ![2000, 0] S1000x128.size inb_S10000x128_S1000x128_2000_0, k0_pay25 h2 t2⟩,
   ⟨Rect.unit (s := S10000x128) ![1000, 0] S1000x128.size inb_S10000x128_S1000x128_1000_0, k0_pay25 h2 t1⟩,
   ⟨Rect.unit (s := S10000x128) ![0, 0] S1000x128.size inb_S10000x128_S1000x128_0_0, k0_pay25 h2 t0⟩]

/-- The one piece of the second result. -/
def res2Pieces (a : FVec F S128x2000 .f32) : List (View.Piece (Elt F) S2000x128 .f32) :=
  [⟨Rect.unit (s := S2000x128) ![0, 0] S2000x128.size inb_S2000x128_S2000x128_0_0, k0_pay20 a⟩]

section
variable (c : Dev nD) (i : grid0.Coords) (arg1 : Memref sig .tc .vmem S400x2000 .f32) (harg1 : arg1.IsWhole) (arg2 : Memref sig .tc .vmem S400x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S10000x128 .f32) (harg5 : arg5.IsWhole) (arg6 : Memref sig .tc .vmem S2000x128 .f32) (harg6 : arg6.IsWhole) (arg7 : Memref sig .tc .vmem S10000x2000 .bf16) (harg7 : arg7.IsWhole) (arg8 : Memref sig .tc .vmem S128x2000 .f32) (harg8 : arg8.IsWhole)
  (hc0 : ¬condFirst i) (hc1 : condLast i) (hl : k0_off1 i = ![9600, 0])
  (x1 : Vec F S400x2000 .f32) (x2 : Vec F S400x128 .f32) (x3 : Vec F S128x128 .f32) (x4 : Vec F S128x128 .f32)
  (xs7 : Vec F S10000x2000 .bf16) (xs8 : Vec F S128x2000 .f32)

set_option maxHeartbeats 1000000 in
/-- What the last point leaves in the scratch copy: its block, rounded, written over rows 9600 … 9999. -/
theorem runC_copy : (runC c i arg1 harg1 arg2 harg2 arg3 harg3 arg4 harg4 arg5 harg5 arg6 harg6 arg7 harg7 arg8 harg8 hc0 hc1 hl x1 x2 x3 x4).1 xs7 xs8
    = arg7.view.writes (Elt F) (harg7.unread xs7) [⟨Rect.unit (s := S10000x2000) (k0_off1 i) S400x2000.size (k0_off1_inb i), k0_pay3 x1⟩] := by
  unfold runC; dsimp only
  simp only [runC.sl.H7_1, readAt_full2]

set_option maxHeartbeats 1000000 in
/-- The piece the last point stores into the second result, over the ten tiles it reads. -/
theorem runC_res2 : (runC c i arg1 harg1 arg2 harg2 arg3 harg3 arg4 harg4 arg5 harg5 arg6 harg6 arg7 harg7 arg8 harg8 hc0 hc1 hl x1 x2 x3 x4).2.2.2.1 xs7 xs8
    = res2Pieces (accFin (k0_pay6 (k0_pay4 x1 xs8 x2) x3)
        (View.readAt (Elt F) arg7.view (Rect.unit (s := S10000x2000) ![0, 0] S1000x2000.size inb_S10000x2000_S1000x2000_0_0).toLoadRect (harg7.unread xs7))
        (View.readAt (Elt F) arg7.view (Rect.unit (s := S10000x2000) ![1000, 0] S1000x2000.size inb_S10000x2000_S1000x2000_1000_0).toLoadRect (harg7.unread xs7))
        (View.readAt (Elt F) arg7.view (Rect.unit (s := S10000x2000) ![2000, 0] S1000x2000.size inb_S10000x2000_S1000x2000_2000_0).toLoadRect (harg7.unread xs7))
        (View.readAt (Elt F) arg7.view (Rect.unit (s := S10000x2000) ![3000, 0] S1000x2000.size inb_S10000x2000_S1000x2000_3000_0).toLoadRect (harg7.unread xs7))
        (View.readAt (Elt F) arg7.view (Rect.unit (s := S10000x2000) ![4000, 0] S1000x2000.size inb_S10000x2000_S1000x2000_4000_0).toLoadRect (harg7.unread xs7))
        (View.readAt (Elt F) arg7.view (Rect.unit (s := S10000x2000) ![5000, 0] S1000x2000.size inb_S10000x2000_S1000x2000_5000_0).toLoadRect (harg7.unread xs7))
        (View.readAt (Elt F) arg7.view (Rect.unit (s := S10000x2000) ![6000, 0] S1000x2000.size inb_S10000x2000_S1000x2000_6000_0).toLoadRect (harg7.unread xs7))
        (View.readAt (Elt F) arg7.view (Rect.unit (s := S10000x2000) ![7000, 0] S1000x2000.size inb_S10000x2000_S1000x2000_7000_0).toLoadRect (harg7.unread xs7))
        (View.readAt (Elt F) arg7.view (Rect.unit (s := S10000x2000) ![8000, 0] S1000x2000.size inb_S10000x2000_S1000x2000_8000_0).toLoadRect (harg7.unread xs7))
        (View.readAt (Elt F) arg7.view (Rect.unit (s := S10000x2000) ![9000, 0] S1000x2000.size inb_S10000x2000_S1000x2000_9000_0).toLoadRect (arg7.view.writes (Elt F) (harg7.unread xs7) [⟨Rect.unit (s := S10000x2000) (k0_off1 i) S400x2000.size (k0_off1_inb i), k0_pay3 x1⟩]))) := by
  unfold runC; dsimp only
  simp only [runC.sl.H5_2, runC.sl.H6_1, runC.sl.H7_1, runC.sl.H8_1, runC.sl.H8_2, runC.sl.H8_3, runC.sl.H8_4, runC.sl.H8_5, runC.sl.H8_6, runC.sl.H8_7, runC.sl.H8_8, runC.sl.H8_9, runC.sl.H8_10, runC.sl.H8_11, runC.sl.H8_12, runC.sl.cst_34, runC.sl.cst_58, runC.sl.r, runC.sl.r_1, runC.sl.r_2, runC.sl.r_3, runC.sl.r_4, runC.sl.r_5, runC.sl.v104, runC.sl.v106, runC.sl.v115, runC.sl.v122, runC.sl.v21, runC.sl.v32, runC.sl.v34, runC.sl.v41, runC.sl.v43, runC.sl.v50, runC.sl.v52, runC.sl.v59, runC.sl.v61, runC.sl.v68, runC.sl.v70, runC.sl.v77, runC.sl.v79, runC.sl.v86, runC.sl.v88, runC.sl.v95, runC.sl.v97, View.readCov_cons_toLoadRect, readAt_full2,
    pay7_eq, pay8_eq, pay9_eq, pay10_eq, pay12_eq, pay15_eq, pay16_eq, pay19_eq, pay14_eq, pay18_eq]
  first | with_reducible rfl | (unfold res2Pieces accFin; with_reducible rfl) | (unfold resPieces accFin; with_reducible rfl)

set_option maxHeartbeats 1000000 in
/-- The ten pieces the last point stores into the first result, over the ten tiles it reads. -/
theorem runC_res : (runC c i arg1 harg1 arg2 harg2 arg3 harg3 arg4 harg4 arg5 harg5 arg6 harg6 arg7 harg7 arg8 harg8 hc0 hc1 hl x1 x2 x3 x4).2.2.1 xs7 xs8
    = resPieces (k0_pay21 (accFin (k0_pay6 (k0_pay4 x1 xs8 x2) x3)
        (View.readAt (Elt F) arg7.view (Rect.unit (s := S10000x2000) ![0, 0] S1000x2000.size inb_S10000x2000_S1000x2000_0_0).toLoadRect (harg7.unread xs7))
        (View.readAt (Elt F) arg7.view (Rect.unit (s := S10000x2000) ![1000, 0] S1000x2000.size inb_S10000x2000_S1000x2000_1000_0).toLoadRect (harg7.unread xs7))
        (View.readAt (Elt F) arg7.view (Rect.unit (s := S10000x2000) ![2000, 0] S1000x2000.size inb_S10000x2000_S1000x2000_2000_0).toLoadRect (harg7.unread xs7))
        (View.readAt (Elt F) arg7.view (Rect.unit (s := S10000x2000) ![3000, 0] S1000x2000.size inb_S10000x2000_S1000x2000_3000_0).toLoadRect (harg7.unread xs7))
        (View.readAt (Elt F) arg7.view (Rect.unit (s := S10000x2000) ![4000, 0] S1000x2000.size inb_S10000x2000_S1000x2000_4000_0).toLoadRect (harg7.unread xs7))
        (View.readAt (Elt F) arg7.view (Rect.unit (s := S10000x2000) ![5000, 0] S1000x2000.size inb_S10000x2000_S1000x2000_5000_0).toLoadRect (harg7.unread xs7))
        (View.readAt (Elt F) arg7.view (Rect.unit (s := S10000x2000) ![6000, 0] S1000x2000.size inb_S10000x2000_S1000x2000_6000_0).toLoadRect (harg7.unread xs7))
        (View.readAt (Elt F) arg7.view (Rect.unit (s := S10000x2000) ![7000, 0] S1000x2000.size inb_S10000x2000_S1000x2000_7000_0).toLoadRect (harg7.unread xs7))
        (View.readAt (Elt F) arg7.view (Rect.unit (s := S10000x2000) ![8000, 0] S1000x2000.size inb_S10000x2000_S1000x2000_8000_0).toLoadRect (harg7.unread xs7))
        (View.readAt (Elt F) arg7.view (Rect.unit (s := S10000x2000) ![9000, 0] S1000x2000.size inb_S10000x2000_S1000x2000_9000_0).toLoadRect (arg7.view.writes (Elt F) (harg7.unread xs7) [⟨Rect.unit (s := S10000x2000) (k0_off1 i) S400x2000.size (k0_off1_inb i), k0_pay3 x1⟩]))) x4)
        (View.readAt (Elt F) arg7.view (Rect.unit (s := S10000x2000) ![0, 0] S1000x2000.size inb_S10000x2000_S1000x2000_0_0).toLoadRect (harg7.unread xs7))
        (View.readAt (Elt F) arg7.view (Rect.unit (s := S10000x2000) ![1000, 0] S1000x2000.size inb_S10000x2000_S1000x2000_1000_0).toLoadRect (harg7.unread xs7))
        (View.readAt (Elt F) arg7.view (Rect.unit (s := S10000x2000) ![2000, 0] S1000x2000.size inb_S10000x2000_S1000x2000_2000_0).toLoadRect (harg7.unread xs7))
        (View.readAt (Elt F) arg7.view (Rect.unit (s := S10000x2000) ![3000, 0] S1000x2000.size inb_S10000x2000_S1000x2000_3000_0).toLoadRect (harg7.unread xs7))
        (View.readAt (Elt F) arg7.view (Rect.unit (s := S10000x2000) ![4000, 0] S1000x2000.size inb_S10000x2000_S1000x2000_4000_0).toLoadRect (harg7.unread xs7))
        (View.readAt (Elt F) arg7.view (Rect.unit (s := S10000x2000) ![5000, 0] S1000x2000.size inb_S10000x2000_S1000x2000_5000_0).toLoadRect (harg7.unread xs7))
        (View.readAt (Elt F) arg7.view (Rect.unit (s := S10000x2000) ![6000, 0] S1000x2000.size inb_S10000x2000_S1000x2000_6000_0).toLoadRect (harg7.unread xs7))
        (View.readAt (Elt F) arg7.view (Rect.unit (s := S10000x2000) ![7000, 0] S1000x2000.size inb_S10000x2000_S1000x2000_7000_0).toLoadRect (harg7.unread xs7))
        (View.readAt (Elt F) arg7.view (Rect.unit (s := S10000x2000) ![8000, 0] S1000x2000.size inb_S10000x2000_S1000x2000_8000_0).toLoadRect (harg7.unread xs7))
        (View.readAt (Elt F) arg7.view (Rect.unit (s := S10000x2000) ![9000, 0] S1000x2000.size inb_S10000x2000_S1000x2000_9000_0).toLoadRect (arg7.view.writes (Elt F) (harg7.unread xs7) [⟨Rect.unit (s := S10000x2000) (k0_off1 i) S400x2000.size (k0_off1_inb i), k0_pay3 x1⟩])) := by
  unfold runC; dsimp only
  simp only [runC.sl.H5_2, runC.sl.H6_1, runC.sl.H7_1, runC.sl.H8_1, runC.sl.H8_2, runC.sl.H8_3, runC.sl.H8_4, runC.sl.H8_5, runC.sl.H8_6, runC.sl.H8_7, runC.sl.H8_8, runC.sl.H8_9, runC.sl.H8_10, runC.sl.H8_11, runC.sl.H8_12, runC.sl.cst_34, runC.sl.cst_58, runC.sl.r, runC.sl.r_1, runC.sl.r_2, runC.sl.r_3, runC.sl.r_4, runC.sl.r_5, runC.sl.v104, runC.sl.v106, runC.sl.v115, runC.sl.v122, runC.sl.v21, runC.sl.v32, runC.sl.v34, runC.sl.v41, runC.sl.v43, runC.sl.v50, runC.sl.v52, runC.sl.v59, runC.sl.v61, runC.sl.v68, runC.sl.v70, runC.sl.v77, runC.sl.v79, runC.sl.v86, runC.sl.v88, runC.sl.v95, runC.sl.v97, View.readCov_cons_toLoadRect, readAt_full2,
    pay7_eq, pay8_eq, pay9_eq, pay10_eq, pay12_eq, pay15_eq, pay16_eq, pay19_eq, pay14_eq, pay18_eq,
    pay22_eq, pay23_eq, pay24_eq, pay26_eq, pay27_eq, pay28_eq, pay29_eq, pay30_eq, pay5_eq]
  first | with_reducible rfl | (unfold res2Pieces accFin; with_reducible rfl) | (unfold resPieces accFin; with_reducible rfl)

end

section
variable (c : Dev nD) (i : grid0.Coords) (arg1 : Memref sig .tc .vmem S400x2000 .f32) (harg1 : arg1.IsWhole) (arg2 : Memref sig .tc .vmem S400x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S10000x128 .f32) (harg5 : arg5.IsWhole) (arg6 : Memref sig .tc .vmem S2000x128 .f32) (harg6 : arg6.IsWhole) (arg7 : Memref sig .tc .vmem S10000x2000 .bf16) (harg7 : arg7.IsWhole) (arg8 : Memref sig .tc .vmem S128x2000 .f32) (harg8 : arg8.IsWhole)
  (x1 : Vec F S400x2000 .f32) (x2 : Vec F S400x128 .f32)
  (xs7 : Vec F S10000x2000 .bf16) (xs8 : Vec F S128x2000 .f32)

/-- What a middle point leaves in the scratch copy: its block, rounded, written over its 400 rows. -/
theorem runB_copy (hc0 : ¬condFirst i) (hc1 : ¬condLast i) : (runB c i arg1 harg1 arg2 harg2 arg3 harg3 arg4 harg4 arg5 harg5 arg6 harg6 arg7 harg7 arg8 harg8 hc0 hc1 x1 x2).1 xs7
    = arg7.view.writes (Elt F) (harg7.unread xs7) [⟨Rect.unit (s := S10000x2000) (k0_off1 i) S400x2000.size (k0_off1_inb i), k0_pay3 x1⟩] := by
  unfold runB; dsimp only
  simp only [readAt_full2]

/-- What a middle point leaves in the accumulator: the block's contribution added onto what it held. -/
theorem runB_acc (hc0 : ¬condFirst i) (hc1 : ¬condLast i) : (runB c i arg1 harg1 arg2 harg2 arg3 harg3 arg4 harg4 arg5 harg5 arg6 harg6 arg7 harg7 arg8 harg8 hc0 hc1 x1 x2).2.1 xs8
    = arg8.view.writes (Elt F) (harg8.unread xs8) [⟨Rect.unit (s := S128x2000) ![0, 0] S128x2000.size inb_S128x2000_S128x2000_0_0, k0_pay4 x1 xs8 x2⟩] := by
  unfold runB; dsimp only
  simp only [readAt_full2]

/-- What the first point leaves in the scratch copy. -/
theorem runA_copy (hc0 : condFirst i) (hc1 : ¬condLast i) : (runA c i arg1 harg1 arg2 harg2 arg3 harg3 arg4 harg4 arg5 harg5 arg6 harg6 arg7 harg7 arg8 harg8 hc0 hc1 x1 x2).1 xs7
    = arg7.view.writes (Elt F) (harg7.unread xs7) [⟨Rect.unit (s := S10000x2000) (k0_off1 i) S400x2000.size (k0_off1_inb i), k0_pay3 x1⟩] := by
  unfold runA; dsimp only
  simp only [readAt_full2]

/-- What the first point leaves in the accumulator: the block's contribution added onto zero. -/
theorem runA_acc (hc0 : condFirst i) (hc1 : ¬condLast i) : (runA c i arg1 harg1 arg2 harg2 arg3 harg3 arg4 harg4 arg5 harg5 arg6 harg6 arg7 harg7 arg8 harg8 hc0 hc1 x1 x2).2.1 xs8
    = arg8.view.writes (Elt F) (harg8.unread xs8) [⟨Rect.unit (s := S128x2000) ![0, 0] S128x2000.size inb_S128x2000_S128x2000_0_0, k0_pay4 x1 k0_pay1 x2⟩,
        ⟨Rect.unit (s := S128x2000) ![0, 0] S128x2000.size inb_S128x2000_S128x2000_0_0, k0_pay1⟩] := by
  unfold runA; dsimp only
  simp only [runA.sl.v10, runA.sl.H8_1, View.readCov_cons_toLoadRect, readAt_full2]

end

end Cert.Kernel.Hand

end
-- ==== Proof.K.State.lean ====
/-
  What the two scratch buffers hold after each grid point, from whatever they held before the first, and two closed forms
  they are compared with: the copy of the incidence matrix — row r is row r mod 400 of the rounded block of point r div 400 —
  and the accumulator after n points, the n blocks' contributions added onto zero. After n ≤ 24 points the scratch copy
  agrees with the closed form on rows below 400 n and, from the first point on, the accumulator is its closed form: by
  induction over the points, each point's run read back at an index. Nothing here depends on the float instance.
-/
import proofs.«178351_g7198365188796_cont_9to1_m_585_8_alg».proof.Proof.K.Norm
import Idealize.ShloMosaic.Lib.ValueIdx
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The rank-2 index (r mod n0, c mod n1): total in the two naturals, so that index arithmetic stays arithmetic. -/
def ixN (n0 n1 : ℕ) (h0 : 0 < n0) (h1 : 0 < n1) (r q : ℕ) : (⟨2, ![n0, n1]⟩ : Shape).Idx :=
  ix2 ⟨r % n0, Nat.mod_lt _ h0⟩ ⟨q % n1, Nat.mod_lt _ h1⟩

theorem ixN_self {n0 n1 : ℕ} (h0 : 0 < n0) (h1 : 0 < n1) (y : (⟨2, ![n0, n1]⟩ : Shape).Idx) :
    ixN n0 n1 h0 h1 (y 0).val (y 1).val = y := by
  funext a
  match a with
  | ⟨0, _⟩ => exact Fin.ext (Nat.mod_eq_of_lt (idx2_lt0 y))
  | ⟨1, _⟩ => exact Fin.ext (Nat.mod_eq_of_lt (idx2_lt1 y))

/-- A store through the whole-shape rectangle, last, is what a read of the whole buffer gives back. -/
theorem read_full_cons {sig' : RefSig} {κ : Kind} {sp : Space} {d : Fin 2 → ℕ} {e : EltTy} {Val : EltTy → Type}
    (v : View sig' κ sp (⟨2, d⟩ : Shape) e) (f : v.ty.Contents Val)
    (inb : ∀ a, (![0, 0] : Fin 2 → ℕ) a + d a ≤ d a)
    (w : (Rect.unit (s := (⟨2, d⟩ : Shape)) ![0, 0] d inb).shape.Idx → Val e) (L : List (View.Piece Val (⟨2, d⟩ : Shape) e)) :
    v.read Val (v.writes Val f ((⟨Rect.unit (s := (⟨2, d⟩ : Shape)) ![0, 0] d inb, w⟩ : View.Piece Val (⟨2, d⟩ : Shape) e) :: L)) = w := by
  funext y
  exact View.read_writes_cons_unit_of_mem v f inb w L y y rfl (fun a => by
    match a with
    | ⟨0, _⟩ => exact (Nat.zero_add _).symm
    | ⟨1, _⟩ => exact (Nat.zero_add _).symm)

/-- One 400-row block written over rows o … o + 399 of a 10000-row buffer, read back at an index. -/
theorem copy_read {sig' : RefSig} {κ : Kind} {sp : Space} (v : View sig' κ sp S10000x2000 .bf16) (f : v.ty.Contents (Elt F))
    (off : Fin 2 → ℕ) (o : ℕ) (hoff : off = ![o, 0]) (inb : ∀ a, off a + S400x2000.size a ≤ S10000x2000.size a)
    (w : Vec F S400x2000 .bf16) (y : S10000x2000.Idx) :
    v.read (Elt F) (v.writes (Elt F) f [⟨Rect.unit (s := S10000x2000) off S400x2000.size inb, w⟩]) y
      = if o ≤ (y 0).val ∧ (y 0).val < o + 400 then w (ixN 400 2000 (by decide) (by decide) ((y 0).val - o) (y 1).val)
        else v.read (Elt F) f y := by
  by_cases h : o ≤ (y 0).val ∧ (y 0).val < o + 400
  · rw [if_pos h]
    exact View.read_writes_cons_rows_of_mem v f inb w [] y (ixN 400 2000 (by decide) (by decide) ((y 0).val - o) (y 1).val) hoff
      (by show (y 0).val = o + ((y 0).val - o) % 400; omega)
      (by show (y 1).val = (y 1).val % 2000; have := idx2_lt1 y; omega)
  · rw [if_neg h]
    rw [View.read_writes_cons_rows_of_not_mem v f inb w [] y hoff (W := 400) rfl (by omega)]
    rfl

variable (m : (ℓ : Loc nD τ sig) → Buf (Elt F) ℓ)

/-- The four inputs' blocks at a point, as plain vectors. -/
abbrev blkB (c : Dev nD) (t : Fin cfg0.N) : Vec F S400x2000 .f32 := iblk m c 0 t
abbrev blkX (c : Dev nD) (t : Fin cfg0.N) : Vec F S400x128 .f32 := iblk m c 1 t
abbrev blkW1 (c : Dev nD) (t : Fin cfg0.N) : Vec F S128x128 .f32 := iblk m c 2 t
abbrev blkW2 (c : Dev nD) (t : Fin cfg0.N) : Vec F S128x128 .f32 := iblk m c 3 t

def t0 : Fin cfg0.N := ⟨0, by decide⟩
/-- The blocks by the point's number. -/
def blkBn (c : Dev nD) (n : ℕ) : Vec F S400x2000 .f32 := if h : n < cfg0.N then blkB m c ⟨n, h⟩ else blkB m c t0
def blkXn (c : Dev nD) (n : ℕ) : Vec F S400x128 .f32 := if h : n < cfg0.N then blkX m c ⟨n, h⟩ else blkX m c t0
theorem blkBn_val (c : Dev nD) (t : Fin cfg0.N) : blkBn m c t.val = blkB m c t := by unfold blkBn; rw [dif_pos t.isLt]
theorem blkXn_val (c : Dev nD) (t : Fin cfg0.N) : blkXn m c t.val = blkX m c t := by unfold blkXn; rw [dif_pos t.isLt]

/-- The copy of the incidence matrix: row r is row r mod 400 of the rounded block of point r div 400. -/
def Bcopy (c : Dev nD) : Vec F S10000x2000 .bf16 := fun y =>
  k0_pay3 (blkBn m c ((y 0).val / 400)) (ixN 400 2000 (by decide) (by decide) ((y 0).val % 400) (y 1).val)

/-- The transposed accumulator after n points: the blocks' contributions added one by one onto zero. -/
def acc1 (c : Dev nD) : ℕ → Vec F S128x2000 .f32
  | 0 => k0_pay1
  | n + 1 => k0_pay4 (blkBn m c n) (acc1 c n) (blkXn m c n)

theorem cA0 (t : Fin cfg0.N) (h0 : t.val = 0) : condFirst (grid0.coords t) := (hcondFirst t).mpr h0
theorem cA1 (t : Fin cfg0.N) (h0 : t.val = 0) : ¬condLast (grid0.coords t) := fun h => by have := (hcondLast t).mp h; omega
theorem cB0 (t : Fin cfg0.N) (h0 : ¬t.val = 0) : ¬condFirst (grid0.coords t) := fun h => h0 ((hcondFirst t).mp h)
theorem cB1 (t : Fin cfg0.N) (h1 : ¬t.val = 24) : ¬condLast (grid0.coords t) := fun h => h1 ((hcondLast t).mp h)
theorem cC1 (t : Fin cfg0.N) (h1 : t.val = 24) : condLast (grid0.coords t) := (hcondLast t).mpr h1
theorem cCl (t : Fin cfg0.N) (h1 : t.val = 24) : k0_off1 (grid0.coords t) = ![9600, 0] := by rw [hoff t, h1]

/-- One point's effect on the two scratch buffers: the point's run, read back. -/
def stepAt (c : Dev nD) (t : Fin cfg0.N) (p : Vec F S10000x2000 .bf16 × Vec F S128x2000 .f32) :
    Vec F S10000x2000 .bf16 × Vec F S128x2000 .f32 :=
  if h0 : t.val = 0 then
    (scB.view.read (Elt F) ((runA c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cA0 t h0) (cA1 t h0) (blkB m c t) (blkX m c t)).1 p.1),
     scAcc.view.read (Elt F) ((runA c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cA0 t h0) (cA1 t h0) (blkB m c t) (blkX m c t)).2.1 p.2))
  else if h1 : t.val = 24 then
    (scB.view.read (Elt F) ((runC c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cC1 t h1) (cCl t h1) (blkB m c t) (blkX m c t) (blkW1 m c t) (blkW2 m c t)).1 p.1 p.2),
     scAcc.view.read (Elt F) ((runC c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cC1 t h1) (cCl t h1) (blkB m c t) (blkX m c t) (blkW1 m c t) (blkW2 m c t)).2.1 p.1 p.2))
  else
    (scB.view.read (Elt F) ((runB c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cB1 t h1) (blkB m c t) (blkX m c t)).1 p.1),
     scAcc.view.read (Elt F) ((runB c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cB1 t h1) (blkB m c t) (blkX m c t)).2.1 p.2))

/-- The scratch buffers after n points, from `d` before the first. -/
def stateFrom (c : Dev nD) (d : Vec F S10000x2000 .bf16 × Vec F S128x2000 .f32) :
    (n : ℕ) → n ≤ cfg0.N → Vec F S10000x2000 .bf16 × Vec F S128x2000 .f32
  | 0, _ => d
  | n + 1, hn => stepAt m c ⟨n, hn⟩ (stateFrom c d n (Nat.le_of_lt hn))

/-- Point t's rounded block written over a copy that agrees with the closed form below row 400 t agrees with it below
    row 400 (t + 1). -/
theorem copy_agree (c : Dev nD) (t : Fin cfg0.N) (xs7 : Vec F S10000x2000 .bf16)
    (hx : ∀ y : S10000x2000.Idx, (y 0).val < 400 * t.val → xs7 y = Bcopy m c y)
    (y : S10000x2000.Idx) (hy : (y 0).val < 400 * (t.val + 1)) :
    scB.view.read (Elt F) (scB.view.writes (Elt F) ((Memref.isWhole_whole _).unread xs7)
      [⟨Rect.unit (s := S10000x2000) (k0_off1 (grid0.coords t)) S400x2000.size (k0_off1_inb (grid0.coords t)), k0_pay3 (blkB m c t)⟩]) y
      = Bcopy m c y := by
  rw [copy_read scB.view _ _ (400 * t.val) (hoff t) _ _ y]
  by_cases h : 400 * t.val ≤ (y 0).val ∧ (y 0).val < 400 * t.val + 400
  · rw [if_pos h]
    unfold Bcopy
    rw [show (y 0).val / 400 = t.val from by omega, show (y 0).val % 400 = (y 0).val - 400 * t.val from by omega, blkBn_val]
  · rw [if_neg h, Memref.IsWhole.read_unread]
    exact hx y (by omega)

/-- What the invariant says after n points. -/
def Agree (c : Dev nD) (n : ℕ) (p : Vec F S10000x2000 .bf16 × Vec F S128x2000 .f32) : Prop :=
  (∀ y : S10000x2000.Idx, (y 0).val < 400 * n → p.1 y = Bcopy m c y) ∧ (1 ≤ n → p.2 = acc1 m c n)

theorem agree_step (c : Dev nD) (t : Fin cfg0.N) (ht : ¬t.val = 24) (p : Vec F S10000x2000 .bf16 × Vec F S128x2000 .f32)
    (h : Agree m c t.val p) : Agree m c (t.val + 1) (stepAt m c t p) := by
  unfold stepAt
  by_cases h0 : t.val = 0
  · rw [dif_pos h0]; dsimp only
    rw [runA_copy, runA_acc]
    unfold Agree at h ⊢; dsimp only
    obtain ⟨hA, hB⟩ := h
    refine ⟨fun y hy => copy_agree m c t p.1 hA y hy, fun _ => ?_⟩
    rw [read_full_cons]
    show k0_pay4 (blkB m c t) k0_pay1 (blkX m c t) = k0_pay4 (blkBn m c t.val) (acc1 m c t.val) (blkXn m c t.val)
    rw [blkBn_val, blkXn_val, h0]; rfl
  · rw [dif_neg h0, dif_neg ht]; dsimp only
    rw [runB_copy, runB_acc]
    unfold Agree at h ⊢; dsimp only
    obtain ⟨hA, hB⟩ := h
    refine ⟨fun y hy => copy_agree m c t p.1 hA y hy, fun _ => ?_⟩
    rw [read_full_cons]
    show k0_pay4 (blkB m c t) p.2 (blkX m c t) = k0_pay4 (blkBn m c t.val) (acc1 m c t.val) (blkXn m c t.val)
    rw [blkBn_val, blkXn_val, hB (by omega)]

theorem agree_state (c : Dev nD) (d : Vec F S10000x2000 .bf16 × Vec F S128x2000 .f32) :
    ∀ (n : ℕ) (hn : n ≤ cfg0.N), n ≤ 24 → Agree m c n (stateFrom m c d n hn)
  | 0, _, _ => ⟨fun y hy => absurd hy (by omega), fun h => absurd h (by omega)⟩
  | n + 1, hn, h24 => agree_step m c ⟨n, hn⟩ (by show ¬n = 24; omega) _ (agree_state c d n (Nat.le_of_lt hn) (by omega))

end Cert.Kernel.Hand

end
-- ==== Proof.K.Last.lean ====
/-
  What the last point stores, in closed form. The ten 1000-row tiles it reads out of the scratch copy are rows of the copy's
  closed form — nine of them lie below row 9000, which 24 points have filled, and the tenth is read through the last point's
  own store of rows 9600 … 9999 —, and the accumulator it starts from is the closed form after 25 points; so the pieces it
  stores into the two results are the normal form's functions of those, whatever the scratch buffers held before the first point.
-/
import proofs.«178351_g7198365188796_cont_9to1_m_585_8_alg».proof.Proof.K.State
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- Rows o … o + 999 of the copy's closed form. -/
def tileO (c : Dev nD) (o : ℕ) : Vec F S1000x2000 .bf16 := fun x =>
  Bcopy m c (ixN 10000 2000 (by decide) (by decide) (o + (x 0).val) (x 1).val)

/-- Where a 1000-row load at row offset o reads. -/
theorem idx_rows (o : ℕ) (ho : o + 1000 ≤ 10000) (inb : ∀ a, (![o, 0] : Fin 2 → ℕ) a + S1000x2000.size a ≤ S10000x2000.size a)
    (x : S1000x2000.Idx) :
    (Rect.unit (s := S10000x2000) ![o, 0] S1000x2000.size inb).toLoadRect.idx x
      = ixN 10000 2000 (by decide) (by decide) (o + (x 0).val) (x 1).val := by
  funext a
  match a with
  | ⟨0, _⟩ => exact Fin.ext (by show o + 1 * (x 0).val = (o + (x 0).val) % 10000; have := idx2_lt0 x; omega)
  | ⟨1, _⟩ => exact Fin.ext (by show 0 + 1 * (x 1).val = (x 1).val % 2000; have := idx2_lt1 x; omega)

/-- A tile below row 9600 of a copy that agrees with the closed form there. -/
theorem tile_read (c : Dev nD) (xs7 : Vec F S10000x2000 .bf16)
    (hx : ∀ y : S10000x2000.Idx, (y 0).val < 9600 → xs7 y = Bcopy m c y) (o : ℕ) (ho : o + 1000 ≤ 9600)
    (inb : ∀ a, (![o, 0] : Fin 2 → ℕ) a + S1000x2000.size a ≤ S10000x2000.size a) :
    View.readAt (Elt F) scB.view (Rect.unit (s := S10000x2000) ![o, 0] S1000x2000.size inb).toLoadRect
      ((Memref.isWhole_whole _).unread xs7) = tileO m c o := by
  funext x
  rw [Memref.IsWhole.readAt_unread, idx_rows o (by omega) inb x]
  exact hx _ (by show (o + (x 0).val) % 10000 < 9600; have := idx2_lt0 x; omega)

/-- The last tile, read through the last point's own store. -/
theorem tile_last (c : Dev nD) (t : Fin cfg0.N) (h1 : t.val = 24) (xs7 : Vec F S10000x2000 .bf16)
    (hx : ∀ y : S10000x2000.Idx, (y 0).val < 9600 → xs7 y = Bcopy m c y)
    (inb : ∀ a, (![9000, 0] : Fin 2 → ℕ) a + S1000x2000.size a ≤ S10000x2000.size a) :
    View.readAt (Elt F) scB.view (Rect.unit (s := S10000x2000) ![9000, 0] S1000x2000.size inb).toLoadRect
      (scB.view.writes (Elt F) ((Memref.isWhole_whole _).unread xs7)
        [⟨Rect.unit (s := S10000x2000) (k0_off1 (grid0.coords t)) S400x2000.size (k0_off1_inb (grid0.coords t)), k0_pay3 (blkB m c t)⟩])
      = tileO m c 9000 := by
  funext x
  rw [View.readAt_apply, idx_rows 9000 (by omega) inb x]
  exact copy_agree m c t xs7 (fun y hy => hx y (by rw [h1] at hy; omega)) _
    (by show (9000 + (x 0).val) % 10000 < 400 * (t.val + 1); rw [h1]; have := idx2_lt0 x; omega)

/-- The transposed accumulator after the second phase's ten tiles, in closed form. -/
def accTop (c : Dev nD) (w1 : Vec F S128x128 .f32) : FVec F S128x2000 .f32 :=
  accFin (k0_pay6 (acc1 m c 25) w1) (tileO m c 0) (tileO m c 1000) (tileO m c 2000) (tileO m c 3000) (tileO m c 4000) (tileO m c 5000) (tileO m c 6000) (tileO m c 7000) (tileO m c 8000) (tileO m c 9000)

theorem acc_last (c : Dev nD) (t : Fin cfg0.N) (h1 : t.val = 24) :
    k0_pay4 (blkB m c t) (acc1 m c 24) (blkX m c t) = acc1 m c 25 := by
  show _ = k0_pay4 (blkBn m c 24) (acc1 m c 24) (blkXn m c 24)
  rw [← h1, blkBn_val, blkXn_val]

section
variable (c : Dev nD) (t : Fin cfg0.N) (h0 : ¬t.val = 0) (h1 : t.val = 24)
  (p : Vec F S10000x2000 .bf16 × Vec F S128x2000 .f32) (h : Agree m c 24 p)
include h

set_option maxHeartbeats 1000000 in
/-- The piece the last point stores into the second result. -/
theorem last_res2 :
    (runC c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cC1 t h1) (cCl t h1) (blkB m c t) (blkX m c t) (blkW1 m c t) (blkW2 m c t)).2.2.2.1 p.1 p.2
      = res2Pieces (accTop m c (blkW1 m c t)) := by
  rw [runC_res2]
  unfold Agree at h; obtain ⟨hA, hB⟩ := h
  rw [tile_read m c p.1 hA 0 (by omega) inb_S10000x2000_S1000x2000_0_0,
    tile_read m c p.1 hA 1000 (by omega) inb_S10000x2000_S1000x2000_1000_0,
    tile_read m c p.1 hA 2000 (by omega) inb_S10000x2000_S1000x2000_2000_0,
    tile_read m c p.1 hA 3000 (by omega) inb_S10000x2000_S1000x2000_3000_0,
    tile_read m c p.1 hA 4000 (by omega) inb_S10000x2000_S1000x2000_4000_0,
    tile_read m c p.1 hA 5000 (by omega) inb_S10000x2000_S1000x2000_5000_0,
    tile_read m c p.1 hA 6000 (by omega) inb_S10000x2000_S1000x2000_6000_0,
    tile_read m c p.1 hA 7000 (by omega) inb_S10000x2000_S1000x2000_7000_0,
    tile_read m c p.1 hA 8000 (by omega) inb_S10000x2000_S1000x2000_8000_0,
    tile_last m c t h1 p.1 hA inb_S10000x2000_S1000x2000_9000_0, hB (by omega), acc_last m c t h1]
  rfl

set_option maxHeartbeats 1000000 in
/-- The ten pieces the last point stores into the first result. -/
theorem last_res :
    (runC c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cC1 t h1) (cCl t h1) (blkB m c t) (blkX m c t) (blkW1 m c t) (blkW2 m c t)).2.2.1 p.1 p.2
      = resPieces (k0_pay21 (accTop m c (blkW1 m c t)) (blkW2 m c t)) (tileO m c 0) (tileO m c 1000) (tileO m c 2000) (tileO m c 3000) (tileO m c 4000) (tileO m c 5000) (tileO m c 6000) (tileO m c 7000) (tileO m c 8000) (tileO m c 9000) := by
  rw [runC_res]
  unfold Agree at h; obtain ⟨hA, hB⟩ := h
  rw [tile_read m c p.1 hA 0 (by omega) inb_S10000x2000_S1000x2000_0_0,
    tile_read m c p.1 hA 1000 (by omega) inb_S10000x2000_S1000x2000_1000_0,
    tile_read m c p.1 hA 2000 (by omega) inb_S10000x2000_S1000x2000_2000_0,
    tile_read m c p.1 hA 3000 (by omega) inb_S10000x2000_S1000x2000_3000_0,
    tile_read m c p.1 hA 4000 (by omega) inb_S10000x2000_S1000x2000_4000_0,
    tile_read m c p.1 hA 5000 (by omega) inb_S10000x2000_S1000x2000_5000_0,
    tile_read m c p.1 hA 6000 (by omega) inb_S10000x2000_S1000x2000_6000_0,
    tile_read m c p.1 hA 7000 (by omega) inb_S10000x2000_S1000x2000_7000_0,
    tile_read m c p.1 hA 8000 (by omega) inb_S10000x2000_S1000x2000_8000_0,
    tile_last m c t h1 p.1 hA inb_S10000x2000_S1000x2000_9000_0, hB (by omega), acc_last m c t h1]
  rfl

end

end Cert.Kernel.Hand

end
-- ==== Proof.K.Data.lean ====
/-
  The proof data of the one pipeline and its run. After the body at a point the four inputs' buffers hold their blocks;
  the two results' buffers matter at the last point only, where they hold the closed forms' pieces read back; the region
  invariant binds what the two scratch buffers held before the first point and has them, before point n, at what n points
  leave of that. The body obligation at a point is the point's run (first, middle or last), the invariant handing it the
  scratch buffers and taking them back one point further; at the last point the results' pieces are the closed forms'
  because 24 points have filled the rows the second phase reads. Then the launch, and the frame.
-/
import proofs.«178351_g7198365188796_cont_9to1_m_585_8_alg».proof.Proof.K.Last

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each result window, through which its contents are stated. -/
abbrev VO5 : View sig .tc .vmem S10000x128 .f32 := (Memref.whole cc0_stg4_0 : Memref sig .tc .vmem S10000x128 .f32).view
abbrev VO6 : View sig .tc .vmem S2000x128 .f32 := (Memref.whole cc0_stg5_0 : Memref sig .tc .vmem S2000x128 .f32).view

/-- What the last point leaves in the first result's buffer: the ten tiles' pieces read back. -/
def out5At (c : Dev nD) (t : Fin cfg0.N) : Vec F S10000x128 .f32 :=
  VO5.read (Elt F) (VO5.writes (Elt F) VO5.junk (resPieces (k0_pay21 (accTop m c (blkW1 m c t)) (blkW2 m c t)) (tileO m c 0) (tileO m c 1000) (tileO m c 2000) (tileO m c 3000) (tileO m c 4000) (tileO m c 5000) (tileO m c 6000) (tileO m c 7000) (tileO m c 8000) (tileO m c 9000)))
/-- What it leaves in the second result's buffer: the transposed accumulator. -/
def out6At (c : Dev nD) (t : Fin cfg0.N) : Vec F S2000x128 .f32 :=
  VO6.read (Elt F) (VO6.writes (Elt F) VO6.junk (res2Pieces (accTop m c (blkW1 m c t))))

theorem cover5 (h2 : FVec F S2000x128 .bf16) (t0 t1 t2 t3 t4 t5 t6 t7 t8 t9 : Vec F S1000x2000 .bf16) (y : S10000x128.Idx) :
    ∃ pc ∈ resPieces h2 t0 t1 t2 t3 t4 t5 t6 t7 t8 t9, y ∈ pc.1.set :=
  View.cover_of_tiledL (resPieces h2 t0 t1 t2 t3 t4 t5 t6 t7 t8 t9) S1000x128.size (by sl_kernel_rfl) y
theorem cover6 (a : FVec F S128x2000 .f32) (y : S2000x128.Idx) : ∃ pc ∈ res2Pieces a, y ∈ pc.1.set :=
  View.cover_of_tiledL (res2Pieces a) S2000x128.size (by sl_kernel_rfl) y

/-- The region invariant before point n, from the scratch buffers at `d` before the first point. -/
def PhiSAt (c : Dev nD) (d : Vec F S10000x2000 .bf16 × Vec F S128x2000 .f32) (n : ℕ) (h : n ≤ cfg0.N) : sProp 𝕄 :=
  iprop(iprop(owns (c : Thread nD τ) scB fullShare (stateFrom m c d n h).1 ∗ owns (c : Thread nD τ) scAcc fullShare (stateFrom m c d n h).2) ∗ (∃ r, prngReg c r))
/-- The region invariant: at some contents of the scratch buffers before the first point. -/
def PhiS (c : Dev nD) (n : ℕ) (h : n ≤ cfg0.N) : sProp 𝕄 := iprop(∃ d, PhiSAt m c d n h)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out5At m c t
    | ⟨5, _⟩ => out6At m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = out5At m c t := by dsimp only [dats]
theorem after5 (c : Dev nD) (t : Fin cfg0.N) : (dats m 0 c).after 5 t = out6At m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 3200000 in
/-- The body at any point: the point's run between the invariant at this point and at the next. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_castSucc m c t]
  unfold PhiS PhiSAt
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  by_cases h0 : t.val = 0
  · rw [Dat.leavesExact_idle (dats m 0 c) 4 t (idleAt4 t (cA1 t h0)) (noFlush4 t (cA1 t h0)),
      Dat.leavesExact_idle (dats m 0 c) 5 t (idleAt5 t (cA1 t h0)) (noFlush5 t (cA1 t h0))]
    iintro ⟨⟨%d, ⟨HS7, HS8⟩, Hg⟩, Ho, ⟨%d0, H0⟩, ⟨%d1, H1⟩, ⟨%d2, H2⟩, ⟨%d3, H3⟩, H4, H5⟩
    have e7 : (stateFrom m c d (t.val + 1) t.isLt).1 = scB.view.read (Elt F) ((runA c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cA0 t h0) (cA1 t h0) (blkB m c t) (blkX m c t)).1 (stateFrom m c d t.val (Nat.le_of_lt t.isLt)).1) := by
      show (stepAt m c t _).1 = _; unfold stepAt; rw [dif_pos h0]
    have e8 : (stateFrom m c d (t.val + 1) t.isLt).2 = scAcc.view.read (Elt F) ((runA c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cA0 t h0) (cA1 t h0) (blkB m c t) (blkX m c t)).2.1 (stateFrom m c d t.val (Nat.le_of_lt t.isLt)).2) := by
      show (stepAt m c t _).2 = _; unfold stepAt; rw [dif_pos h0]
    iapply ((runA c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cA0 t h0) (cA1 t h0) (blkB m c t) (blkX m c t)).2.2 _ _ Set.univ _)
    isplitl [H0]; · iexact H0
    isplitl [H1]; · iexact H1
    isplitl [HS7]; · iexact HS7
    isplitl [HS8]; · iexact HS8
    iintro ⟨H0, H1, HS7, HS8⟩
    isplitl [HS7 HS8 Hg]
    · iexists d
      rw [e7, e8]
      isplitl [HS7 HS8]
      · isplitl [HS7]
        · unfold owns; iexists _; isplitr
          swap; · iexact HS7
          ipureintro; rfl
        · unfold owns; iexists _; isplitr
          swap; · iexact HS8
          ipureintro; rfl
      iexact Hg
    isplitl [Ho]; · iexact Ho
    isplitl [H0]; · iexact H0
    isplitl [H1]; · iexact H1
    isplitl [H2]; · iexact H2
    isplitl [H3]; · iexact H3
    isplitl [H4]; · iexact H4
    iexact H5
  by_cases h1 : t.val = 24
  · rw [show (dats m 0 c).leavesExact 4 t = owns (c : Thread nD τ) (ms4 t) fullShare ((dats m 0 c).after 4 t) from by
      unfold Dat.leavesExact; rw [liveAt4 t (cC1 t h1)], after4]
    rw [show (dats m 0 c).leavesExact 5 t = owns (c : Thread nD τ) (ms5 t) fullShare ((dats m 0 c).after 5 t) from by
      unfold Dat.leavesExact; rw [liveAt5 t (cC1 t h1)], after5]
    iintro ⟨⟨%d, ⟨HS7, HS8⟩, Hg⟩, Ho, ⟨%d0, H0⟩, ⟨%d1, H1⟩, ⟨%d2, H2⟩, ⟨%d3, H3⟩, ⟨%d4, H4⟩, ⟨%d5, H5⟩⟩
    have hAg : Agree m c 24 (stateFrom m c d t.val (Nat.le_of_lt t.isLt)) :=
      (congrArg (fun n => Agree m c n (stateFrom m c d t.val (Nat.le_of_lt t.isLt))) h1).mp
        (agree_state m c d t.val (Nat.le_of_lt t.isLt) (by omega))
    have e7 : (stateFrom m c d (t.val + 1) t.isLt).1 = scB.view.read (Elt F) ((runC c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cC1 t h1) (cCl t h1) (blkB m c t) (blkX m c t) (blkW1 m c t) (blkW2 m c t)).1 (stateFrom m c d t.val (Nat.le_of_lt t.isLt)).1 (stateFrom m c d t.val (Nat.le_of_lt t.isLt)).2) := by
      show (stepAt m c t _).1 = _; unfold stepAt; rw [dif_neg h0, dif_pos h1]
    have e8 : (stateFrom m c d (t.val + 1) t.isLt).2 = scAcc.view.read (Elt F) ((runC c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cC1 t h1) (cCl t h1) (blkB m c t) (blkX m c t) (blkW1 m c t) (blkW2 m c t)).2.1 (stateFrom m c d t.val (Nat.le_of_lt t.isLt)).1 (stateFrom m c d t.val (Nat.le_of_lt t.isLt)).2) := by
      show (stepAt m c t _).2 = _; unfold stepAt; rw [dif_neg h0, dif_pos h1]
    iapply ((runC c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cC1 t h1) (cCl t h1) (blkB m c t) (blkX m c t) (blkW1 m c t) (blkW2 m c t)).2.2.2.2 _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS7]; · iexact HS7
    isplitl [HS8]; · iexact HS8
    iintro ⟨H0, H1, H2, H3, ⟨%e4, H4⟩, ⟨%e5, H5⟩, HS7, HS8⟩
    isplitl [HS7 HS8 Hg]
    · iexists d
      rw [e7, e8]
      isplitl [HS7 HS8]
      · isplitl [HS7]
        · unfold owns; iexists _; isplitr
          swap; · iexact HS7
          ipureintro; rfl
        · unfold owns; iexists _; isplitr
          swap; · iexact HS8
          ipureintro; rfl
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro
      rw [last_res m c t h0 h1 _ hAg]; unfold out5At
      exact View.read_writes_of_cover _ _ _ _ _ (cover5 _ _ _ _ _ _ _ _ _ _ _)
    · unfold owns; iexists _; isplitr
      swap; · iexact H5
      ipureintro
      rw [last_res2 m c t h0 h1 _ hAg]; unfold out6At
      exact View.read_writes_of_cover _ _ _ _ _ (cover6 _)
  · rw [Dat.leavesExact_idle (dats m 0 c) 4 t (idleAt4 t (cB1 t h1)) (noFlush4 t (cB1 t h1)),
      Dat.leavesExact_idle (dats m 0 c) 5 t (idleAt5 t (cB1 t h1)) (noFlush5 t (cB1 t h1))]
    iintro ⟨⟨%d, ⟨HS7, HS8⟩, Hg⟩, Ho, ⟨%d0, H0⟩, ⟨%d1, H1⟩, ⟨%d2, H2⟩, ⟨%d3, H3⟩, H4, H5⟩
    have e7 : (stateFrom m c d (t.val + 1) t.isLt).1 = scB.view.read (Elt F) ((runB c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cB1 t h1) (blkB m c t) (blkX m c t)).1 (stateFrom m c d t.val (Nat.le_of_lt t.isLt)).1) := by
      show (stepAt m c t _).1 = _; unfold stepAt; rw [dif_neg h0, dif_neg h1]
    have e8 : (stateFrom m c d (t.val + 1) t.isLt).2 = scAcc.view.read (Elt F) ((runB c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cB1 t h1) (blkB m c t) (blkX m c t)).2.1 (stateFrom m c d t.val (Nat.le_of_lt t.isLt)).2) := by
      show (stepAt m c t _).2 = _; unfold stepAt; rw [dif_neg h0, dif_neg h1]
    iapply ((runB c (grid0.coords t) (ms0 t) (hs0 t) (ms1 t) (hs1 t) (ms2 t) (hs2 t) (ms3 t) (hs3 t) (ms4 t) (hs4 t) (ms5 t) (hs5 t) scB (Memref.isWhole_whole _) scAcc (Memref.isWhole_whole _) (cB0 t h0) (cB1 t h1) (blkB m c t) (blkX m c t)).2.2 _ _ Set.univ _)
    isplitl [H0]; · iexact H0
    isplitl [H1]; · iexact H1
    isplitl [HS7]; · iexact HS7
    isplitl [HS8]; · iexact HS8
    iintro ⟨H0, H1, HS7, HS8⟩
    isplitl [HS7 HS8 Hg]
    · iexists d
      rw [e7, e8]
      isplitl [HS7 HS8]
      · isplitl [HS7]
        · unfold owns; iexists _; isplitr
          swap; · iexact HS7
          ipureintro; rfl
        · unfold owns; iexists _; isplitr
          swap; · iexact HS8
          ipureintro; rfl
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, at whatever the scratch buffers hold. -/
theorem hin (c : Dev nD) : Pipeline.ΦA spec0 c ⊢ (dats m 0 c).Φ 0 := by
  rw [show (dats m 0 c).Φ 0 = PhiS m c 0 (Nat.zero_le _) from rfl, PhiA_eq]
  unfold PhiS PhiSAt
  iintro ⟨⟨⟨%d7, H7⟩, ⟨%d8, H8⟩⟩, Hg⟩
  iexists (d7, d8)
  isplitl [H7 H8]
  · isplitl [H7]
    · iexact H7
    · iexact H8
  iexact Hg

/-- After the last point the invariant gives the class invariant back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS PhiSAt
  iintro ⟨%d, ⟨H7, H8⟩, Hg⟩
  isplitl [H7 H8]
  · isplitl [H7]
    · iexists _; iexact H7
    · iexists _; iexact H8
  iexact Hg

set_option backward.isDefEq.respectTransparency.types false in
/-- Every weakly fair execution of @main terminates, and the final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.lean ====
/-
  The certificate of a two-layer hypergraph convolution over a dense 10000 × 2000 incidence matrix B: with node features x
  and weight matrices W₁, W₂ the reference computes x₁ = Bᵀ·x, x' = B·(x₁·W₁), x₁' = Bᵀ·x', x'' = B·(x₁'·W₂) and returns
  (x'', x₁'). The kernel streams B once in 25 blocks of 400 rows, keeping a copy in scratch while it accumulates (x)ᵀ·B,
  and at the last grid point computes the rest out of the copy in ten tiles of 1000 rows: the same products in the same
  association, with the two aggregations over the 10000 nodes split into blocks. At the extended reals a change of float
  format is the identity and a sum over blocks of sums over a block is the sum over all, so the two programs' results are
  the same sums of products: only the commutativity of the product and the regrouping of finite sums are used, and the
  precondition is never opened.
  The three frames: the kernel's, at the word level and at the extended reals, from the three runs of its body (first,
  middle and last grid point) under an invariant that carries what the two scratch buffers hold from point to point; the
  reference's is its run with the results dropped. The kernel's idealization rewrote nothing.
-/
import proofs.«178351_g7198365188796_cont_9to1_m_585_8_alg».proof.Defs
import proofs.«178351_g7198365188796_cont_9to1_m_585_8_alg».proof.Proof.K.Data
import proofs.«178351_g7198365188796_cont_9to1_m_585_8_alg».proof.Proof.RefStages
import proofs.«178351_g7198365188796_cont_9to1_m_585_8_alg».proof.Proof.Gen.Kernel
import proofs.«178351_g7198365188796_cont_9to1_m_585_8_alg».proof.Proof.Gen.KernelIdeal
import proofs.«178351_g7198365188796_cont_9to1_m_585_8_alg».proof.Proof.Gen.ReferenceIdeal
import proofs.«178351_g7198365188796_cont_9to1_m_585_8_alg».proof.Proof.Gen.ReferenceIdeal.Run
import proofs.«178351_g7198365188796_cont_9to1_m_585_8_alg».proof.Proof.Gen.Pre_finite_inputs

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

section
open Cert.KernelIdeal Cert.KernelIdeal.Gen Cert.KernelIdeal.Hand

/-- The idealized kernel's run with both result arrays named: what the one write-back of each leaves. -/
theorem run_full (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run Cert.KernelIdeal.defs _ _).mono (fun _ h c => ⟨(h c).1 4, (h c).1 5,
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end

set_option maxHeartbeats 2000000 in
/-- Both programs end with the same results: the first is the sixth stage, the second the fourth, of the same arrays. -/
theorem algebraic : Cert.algebraic_KernelIdeal_ReferenceIdeal := by
  intro m ρ m' ρ' _ hagree
  refine ⟨fun c => (Cert.KernelIdeal.Hand.dats m 0 c).arrAt 4 Cert.KernelIdeal.cfg0.N,
    fun c => (Cert.KernelIdeal.Hand.dats m 0 c).arrAt 5 Cert.KernelIdeal.cfg0.N, run_full m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.Read.val_main_v7_eq]
    refine Eq.trans ?_ (Cert.KernelIdeal.Hand.final4 m c).symm
    funext i
    rw [Cert.ReferenceIdeal.RefValue.r7, Cert.KernelIdeal.Hand.out5_apply,
      (hagree c).1, (hagree c).2.1, (hagree c).2.2.1, (hagree c).2.2.2]
    rfl
  · rw [Cert.ReferenceIdeal.Read.val_main_v5_eq]
    refine Eq.trans ?_ (Cert.KernelIdeal.Hand.final5 m c).symm
    funext i
    rw [Cert.ReferenceIdeal.RefValue.r5, Cert.KernelIdeal.Hand.out6_apply,
      (hagree c).1, (hagree c).2.1, (hagree c).2.2.1]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
